-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x80x160x160 : Shape := ⟨4, ![16, 80, 160, 160]⟩
abbrev S16x4x160x160 : Shape := ⟨4, ![16, 4, 160, 160]⟩
abbrev S16x32x4 : Shape := ⟨3, ![16, 32, 4]⟩
abbrev S16x32 : Shape := ⟨2, ![16, 32]⟩
abbrev S_ : Shape := ⟨0, ![]⟩

class Facts : Prop where
  bcast_S_S16x80x160x160 : S_.BroadcastsInDim S16x80x160x160 (![] : Fin 0 → Fin S16x80x160x160.rank)
  reducesTo_S16x80x160x160_S_d0_1_2_3 : S16x80x160x160.ReducesTo [0, 1, 2, 3] S_
  h_S_ : 0 < S_.numel
  bcast_S_S16x4x160x160 : S_.BroadcastsInDim S16x4x160x160 (![] : Fin 0 → Fin S16x4x160x160.rank)
  reducesTo_S16x4x160x160_S_d0_1_2_3 : S16x4x160x160.ReducesTo [0, 1, 2, 3] S_
  bcast_S_S16x32x4 : S_.BroadcastsInDim S16x32x4 (![] : Fin 0 → Fin S16x32x4.rank)
  reducesTo_S16x32x4_S_d0_1_2 : S16x32x4.ReducesTo [0, 1, 2] S_

variable [Facts]

def fn {F : FTy → Type} [FloatOps F] (main_arg0 : FVec F S16x80x160x160 .f32) (main_arg1 : FVec F S16x4x160x160 .f32) (main_arg2 : FVec F S16x32x4 .f32) (main_arg3 : IVec S16x32 32) : IVec S_ 1 :=
  let main_v0 : FVec F S16x80x160x160 .f32 := Host.absf main_arg0
  let main_cst : FVec F S_ .f32 := constant S_ .f32 0x7F800000#32
  let main_v1 : FVec F S16x80x160x160 .f32 := broadcastInDim S16x80x160x160 ![] bcast_S_S16x80x160x160 main_cst
  let main_v2 : IVec S16x80x160x160 1 := cmpf .olt main_v0 main_v1
  let main_c : IVec S_ 1 := constantI S_ 1 1#1
  let main_v3 : IVec S_ 1 := (fun x v => Host.reduce IntOp.andi x v reducesTo_S16x80x160x160_S_d0_1_2_3 h_S_) main_v2 main_c
  let main_v4 : FVec F S16x4x160x160 .f32 := Host.absf main_arg1
  let main_cst_0 : FVec F S_ .f32 := constant S_ .f32 0x7F800000#32
  let main_v5 : FVec F S16x4x160x160 .f32 := broadcastInDim S16x4x160x160 ![] bcast_S_S16x4x160x160 main_cst_0
  let main_v6 : IVec S16x4x160x160 1 := cmpf .olt main_v4 main_v5
  let main_c_1 : IVec S_ 1 := constantI S_ 1 1#1
  let main_v7 : IVec S_ 1 := (fun x v => Host.reduce IntOp.andi x v reducesTo_S16x4x160x160_S_d0_1_2_3 h_S_) main_v6 main_c_1
  let main_v8 : IVec S_ 1 := andi main_v3 main_v7
  let main_v9 : FVec F S16x32x4 .f32 := Host.absf main_arg2
  let main_cst_2 : FVec F S_ .f32 := constant S_ .f32 0x7F800000#32
  let main_v10 : FVec F S16x32x4 .f32 := broadcastInDim S16x32x4 ![] bcast_S_S16x32x4 main_cst_2
  let main_v11 : IVec S16x32x4 1 := cmpf .olt main_v9 main_v10
  let main_c_3 : IVec S_ 1 := constantI S_ 1 1#1
  let main_v12 : IVec S_ 1 := (fun x v => Host.reduce IntOp.andi x v reducesTo_S16x32x4_S_d0_1_2 h_S_) main_v11 main_c_3
  let main_v13 : IVec S_ 1 := andi main_v8 main_v12
  main_v13
-- ==== Kernel.lean ====
abbrev S16x80x160x160 : Shape := ⟨4, ![16, 80, 160, 160]⟩
abbrev S16x4x160x160 : Shape := ⟨4, ![16, 4, 160, 160]⟩
abbrev S16x32x4 : Shape := ⟨3, ![16, 32, 4]⟩
abbrev S16x32 : Shape := ⟨2, ![16, 32]⟩
abbrev S16x32x1 : Shape := ⟨3, ![16, 32, 1]⟩
abbrev S_ : Shape := ⟨0, ![]⟩
abbrev S16 : Shape := ⟨1, ![16]⟩
abbrev S16x1 : Shape := ⟨2, ![16, 1]⟩
abbrev S16x1x128 : Shape := ⟨3, ![16, 1, 128]⟩
abbrev S1x40x160x160 : Shape := ⟨4, ![1, 40, 160, 160]⟩
abbrev S1x1x128 : Shape := ⟨3, ![1, 1, 128]⟩
abbrev S1x160x160 : Shape := ⟨3, ![1, 160, 160]⟩
abbrev S1x160 : Shape := ⟨2, ![1, 160]⟩
abbrev S1 : Shape := ⟨1, ![1]⟩
abbrev S1x1 : Shape := ⟨2, ![1, 1]⟩
abbrev S1x1x1 : Shape := ⟨3, ![1, 1, 1]⟩
abbrev S16x1x1 : Shape := ⟨3, ![16, 1, 1]⟩
abbrev S16x32x3 : Shape := ⟨3, ![16, 32, 3]⟩
abbrev S3 : Shape := ⟨1, ![3]⟩

abbrev nBuf : Space → Nat
  | .hbm => 171
  | .vmem => 13
  | .smem => 0
  | _ => 0

abbrev hbmTy0_0 (i : Nat) : BufTy := match i % 128 with
  | 0 => ⟨S16x80x160x160, .f32⟩
  | 1 => ⟨S16x4x160x160, .f32⟩
  | 2 => ⟨S16x32x4, .f32⟩
  | 3 => ⟨S16x32, .i32⟩
  | 4 => ⟨S16x32x1, .f32⟩
  | 5 => ⟨S16x32, .f32⟩
  | 6 => ⟨S_, .f32⟩
  | 7 => ⟨S16x32, .f32⟩
  | 8 => ⟨S16x32, .f32⟩
  | 9 => ⟨S16x32x1, .f32⟩
  | 10 => ⟨S16x32, .f32⟩
  | 11 => ⟨S_, .f32⟩
  | 12 => ⟨S16x32, .f32⟩
  | 13 => ⟨S16x32, .f32⟩
  | 14 => ⟨S16x32x1, .f32⟩
  | 15 => ⟨S16x32, .f32⟩
  | 16 => ⟨S_, .f32⟩
  | 17 => ⟨S16x32, .f32⟩
  | 18 => ⟨S16x32, .f32⟩
  | 19 => ⟨S16x32x1, .f32⟩
  | 20 => ⟨S16x32, .f32⟩
  | 21 => ⟨S_, .f32⟩
  | 22 => ⟨S16x32, .f32⟩
  | 23 => ⟨S16x32, .f32⟩
  | 24 => ⟨S16x32, .f32⟩
  | 25 => ⟨S_, .f32⟩
  | 26 => ⟨S16x32, .f32⟩
  | 27 => ⟨S16x32, .f32⟩
  | 28 => ⟨S_, .f32⟩
  | 29 => ⟨S_, .i32⟩
  | 30 => ⟨S_, .f32⟩
  | 31 => ⟨S16x32, .f32⟩
  | 32 => ⟨S16x32, .f32⟩
  | 33 => ⟨S_, .f32⟩
  | 34 => ⟨S16x32, .f32⟩
  | 35 => ⟨S16x32, .f32⟩
  | 36 => ⟨S16x32, .f32⟩
  | 37 => ⟨S_, .f32⟩
  | 38 => ⟨S16x32, .f32⟩
  | 39 => ⟨S16x32, .f32⟩
  | 40 => ⟨S_, .f32⟩
  | 41 => ⟨S_, .i32⟩
  | 42 => ⟨S_, .f32⟩
  | 43 => ⟨S16x32, .f32⟩
  | 44 => ⟨S16x32, .f32⟩
  | 45 => ⟨S_, .f32⟩
  | 46 => ⟨S16x32, .f32⟩
  | 47 => ⟨S16x32, .f32⟩
  | 48 => ⟨S16x32, .i32⟩
  | 49 => ⟨S16x32, .i32⟩
  | 50 => ⟨S16, .i32⟩
  | 51 => ⟨S16x1, .i32⟩
  | 52 => ⟨S_, .f32⟩
  | 53 => ⟨S16x80x160x160, .f32⟩
  | 54 => ⟨S_, .i32⟩
  | 55 => ⟨S16x1, .i32⟩
  | 56 => ⟨S16x1, .i1⟩
  | 57 => ⟨S_, .i32⟩
  | 58 => ⟨S16x1, .i32⟩
  | 59 => ⟨S16x1, .i32⟩
  | 60 => ⟨S16x1, .i32⟩
  | 61 => ⟨S_, .i32⟩
  | 62 => ⟨S16x32, .i32⟩
  | 63 => ⟨S16x32, .i1⟩
  | 64 => ⟨S_, .i32⟩
  | 65 => ⟨S16x32, .i32⟩
  | 66 => ⟨S16x32, .i32⟩
  | 67 => ⟨S16x32, .i32⟩
  | 68 => ⟨S_, .i32⟩
  | 69 => ⟨S16x32, .i32⟩
  | 70 => ⟨S16x32, .i1⟩
  | 71 => ⟨S_, .i32⟩
  | 72 => ⟨S16x32, .i32⟩
  | 73 => ⟨S16x32, .i32⟩
  | 74 => ⟨S16x32, .i32⟩
  | 75 => ⟨S_, .i32⟩
  | 76 => ⟨S16x32, .i32⟩
  | 77 => ⟨S16x32, .i1⟩
  | 78 => ⟨S_, .i32⟩
  | 79 => ⟨S16x32, .i32⟩
  | 80 => ⟨S16x32, .i32⟩
  | 81 => ⟨S16x32, .i32⟩
  | 82 => ⟨S16x32, .i32⟩
  | 83 => ⟨S16x32x1, .i32⟩
  | 84 => ⟨S16x32x1, .i32⟩
  | 85 => ⟨S16x32x1, .i32⟩
  | 86 => ⟨S16x32x1, .i32⟩
  | 87 => ⟨S16x32x4, .i32⟩
  | 88 => ⟨S_, .f32⟩
  | 89 => ⟨S16x32, .f32⟩
  | 90 => ⟨S16x80x160x160, .f32⟩
  | 91 => ⟨S16x1x128, .f32⟩
  | 92 => ⟨S16x1x128, .f32⟩
  | 93 => ⟨S16x1x128, .f32⟩
  | 94 => ⟨S16x1x1, .f32⟩
  | 95 => ⟨S16, .f32⟩
  | 96 => ⟨S16x1x1, .f32⟩
  | 97 => ⟨S16, .f32⟩
  | 98 => ⟨S16x1x1, .f32⟩
  | 99 => ⟨S16, .f32⟩
  | 100 => ⟨S_, .f32⟩
  | 101 => ⟨S16, .f32⟩
  | 102 => ⟨S16, .f32⟩
  | 103 => ⟨S16, .f32⟩
  | 104 => ⟨S16, .f32⟩
  | 105 => ⟨S_, .f32⟩
  | 106 => ⟨S_, .f32⟩
  | 107 => ⟨S16, .f32⟩
  | 108 => ⟨S_, .f32⟩
  | 109 => ⟨S_, .f32⟩
  | 110 => ⟨S_, .i32⟩
  | 111 => ⟨S16x1, .i32⟩
  | 112 => ⟨S16x1, .i1⟩
  | 113 => ⟨S_, .i32⟩
  | 114 => ⟨S16x1, .i32⟩
  | 115 => ⟨S16x1, .i32⟩
  | 116 => ⟨S16x1, .i32⟩
  | 117 => ⟨S_, .i32⟩
  | 118 => ⟨S16x32, .i32⟩
  | 119 => ⟨S16x32, .i1⟩
  | 120 => ⟨S_, .i32⟩
  | 121 => ⟨S16x32, .i32⟩
  | 122 => ⟨S16x32, .i32⟩
  | 123 => ⟨S16x32, .i32⟩
  | 124 => ⟨S_, .i32⟩
  | 125 => ⟨S16x32, .i32⟩
  | 126 => ⟨S16x32, .i1⟩
  | 127 => ⟨S_, .i32⟩
  | _ => ⟨S16x80x160x160, .f32⟩

abbrev hbmTy0_1 (i : Nat) : BufTy := match i % 128 with
  | 0 => ⟨S16x32, .i32⟩
  | 1 => ⟨S16x32, .i32⟩
  | 2 => ⟨S16x32, .i32⟩
  | 3 => ⟨S16x32, .i32⟩
  | 4 => ⟨S16x32x1, .i32⟩
  | 5 => ⟨S16x32x1, .i32⟩
  | 6 => ⟨S16x32x1, .i32⟩
  | 7 => ⟨S16x32x3, .i32⟩
  | 8 => ⟨S16x32x4, .f32⟩
  | 9 => ⟨S16x32x1, .f32⟩
  | 10 => ⟨S16x32x1, .f32⟩
  | 11 => ⟨S16x32x1, .f32⟩
  | 12 => ⟨S16x32x1, .f32⟩
  | 13 => ⟨S16x32x4, .f32⟩
  | 14 => ⟨S16x32x4, .f32⟩
  | 15 => ⟨S16x32x4, .f32⟩
  | 16 => ⟨S_, .f32⟩
  | 17 => ⟨S16x32, .f32⟩
  | 18 => ⟨S_, .f32⟩
  | 19 => ⟨S16x32, .f32⟩
  | 20 => ⟨S16x32, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S1, .f32⟩
  | 40 => ⟨S1, .f32⟩
  | 41 => ⟨S1, .f32⟩
  | 42 => ⟨S3, .f32⟩
  | _ => ⟨S16x80x160x160, .f32⟩

abbrev hbmTy (i : Nat) : BufTy := match i / 128 with
  | 0 => hbmTy0_0 i
  | 1 => hbmTy0_1 i
  | _ => ⟨S16x80x160x160, .f32⟩

abbrev bufTy : (tb : Table) → Fin (tcTables nBuf tb) → BufTy
  | .hbm, ⟨i, _⟩ => hbmTy i
  | .local _ .vmem, ⟨0, _⟩ => ⟨S1x40x160x160, .f32⟩
  | .local _ .vmem, ⟨1, _⟩ => ⟨S1x40x160x160, .f32⟩
  | .local _ .vmem, ⟨2, _⟩ => ⟨S1x40x160x160, .f32⟩
  | .local _ .vmem, ⟨3, _⟩ => ⟨S1x40x160x160, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | _, _ => ⟨S16x80x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_c : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_c_7 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_8 : Ref sig .tc := ⟨.hbm, 52, rfl⟩
abbrev main_v28 : Ref sig .tc := ⟨.hbm, 53, rfl⟩
abbrev main_c_9 : Ref sig .tc := ⟨.hbm, 54, rfl⟩
abbrev main_v29 : Ref sig .tc := ⟨.hbm, 55, rfl⟩
abbrev main_v30 : Ref sig .tc := ⟨.hbm, 56, rfl⟩
abbrev main_c_10 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_11 : Ref sig .tc := ⟨.hbm, 61, rfl⟩
abbrev main_v34 : Ref sig .tc := ⟨.hbm, 62, rfl⟩
abbrev main_v35 : Ref sig .tc := ⟨.hbm, 63, rfl⟩
abbrev main_c_12 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_13 : Ref sig .tc := ⟨.hbm, 68, rfl⟩
abbrev main_v39 : Ref sig .tc := ⟨.hbm, 69, rfl⟩
abbrev main_v40 : Ref sig .tc := ⟨.hbm, 70, rfl⟩
abbrev main_c_14 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_15 : Ref sig .tc := ⟨.hbm, 75, rfl⟩
abbrev main_v44 : Ref sig .tc := ⟨.hbm, 76, rfl⟩
abbrev main_v45 : Ref sig .tc := ⟨.hbm, 77, rfl⟩
abbrev main_c_16 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_17 : Ref sig .tc := ⟨.hbm, 88, rfl⟩
abbrev main_v55 : Ref sig .tc := ⟨.hbm, 89, rfl⟩
abbrev main_v56 : Ref sig .tc := ⟨.hbm, 90, rfl⟩
abbrev main_v57_0 : Ref sig .tc := ⟨.hbm, 91, rfl⟩
abbrev main_v57_1 : Ref sig .tc := ⟨.hbm, 92, rfl⟩
abbrev main_v57_2 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_18 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_19 : Ref sig .tc := ⟨.hbm, 105, rfl⟩
abbrev main_v68 : Ref sig .tc := ⟨.hbm, 106, rfl⟩
abbrev main_v69 : Ref sig .tc := ⟨.hbm, 107, rfl⟩
abbrev main_cst_20 : Ref sig .tc := ⟨.hbm, 108, rfl⟩
abbrev main_v70 : Ref sig .tc := ⟨.hbm, 109, rfl⟩
abbrev main_c_21 : Ref sig .tc := ⟨.hbm, 110, rfl⟩
abbrev main_v71 : Ref sig .tc := ⟨.hbm, 111, rfl⟩
abbrev main_v72 : Ref sig .tc := ⟨.hbm, 112, rfl⟩
abbrev main_c_22 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_23 : Ref sig .tc := ⟨.hbm, 117, rfl⟩
abbrev main_v76 : Ref sig .tc := ⟨.hbm, 118, rfl⟩
abbrev main_v77 : Ref sig .tc := ⟨.hbm, 119, rfl⟩
abbrev main_c_24 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_c_25 : Ref sig .tc := ⟨.hbm, 124, rfl⟩
abbrev main_v81 : Ref sig .tc := ⟨.hbm, 125, rfl⟩
abbrev main_v82 : Ref sig .tc := ⟨.hbm, 126, rfl⟩
abbrev main_c_26 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_27 : Ref sig .tc := ⟨.hbm, 144, rfl⟩
abbrev main_v99 : Ref sig .tc := ⟨.hbm, 145, rfl⟩
abbrev main_cst_28 : Ref sig .tc := ⟨.hbm, 146, rfl⟩
abbrev main_v100 : Ref sig .tc := ⟨.hbm, 147, rfl⟩
abbrev main_v101 : Ref sig .tc := ⟨.hbm, 148, rfl⟩
abbrev main_cst_29 : Ref sig .tc := ⟨.hbm, 149, rfl⟩
abbrev main_v102 : Ref sig .tc := ⟨.hbm, 150, rfl⟩
abbrev main_cst_30 : Ref sig .tc := ⟨.hbm, 151, rfl⟩
abbrev main_v103 : Ref sig .tc := ⟨.hbm, 152, rfl⟩
abbrev main_cst_31 : Ref sig .tc := ⟨.hbm, 153, rfl⟩
abbrev main_v104 : Ref sig .tc := ⟨.hbm, 154, rfl⟩
abbrev main_cst_32 : Ref sig .tc := ⟨.hbm, 155, rfl⟩
abbrev main_v105 : Ref sig .tc := ⟨.hbm, 156, rfl⟩
abbrev main_cst_33 : Ref sig .tc := ⟨.hbm, 157, rfl⟩
abbrev main_v106 : Ref sig .tc := ⟨.hbm, 158, rfl⟩
abbrev main_v107 : Ref sig .tc := ⟨.hbm, 159, rfl⟩
abbrev main_cst_34 : Ref sig .tc := ⟨.hbm, 160, rfl⟩
abbrev main_v108 : Ref sig .tc := ⟨.hbm, 161, rfl⟩
abbrev main_cst_35 : Ref sig .tc := ⟨.hbm, 162, rfl⟩
abbrev main_v109 : Ref sig .tc := ⟨.hbm, 163, rfl⟩
abbrev main_v110 : Ref sig .tc := ⟨.hbm, 164, rfl⟩
abbrev main_cst_36 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v59 : BitVec 1 := Scalar.cmpi .eq arg1 c1_i32
  let v60 : BitVec 32 := Scalar.extui v59
  let c0_i32_36 : BitVec 32 := 0#32
  let v61 : BitVec 1 := Scalar.cmpi .ne v60 c0_i32_36
  v61

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x40x160x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x40x160x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S16x32x4_S16x32x1_0_0_0 : S16x32x4.Slices ![0, 0, 0] S16x32x1
  shapeCasts_S16x32x1_S16x32 : S16x32x1.ShapeCasts S16x32
  bcast_S_S16x32 : S_.BroadcastsInDim S16x32 (![] : Fin 0 → Fin S16x32.rank)
  slices_S16x32x4_S16x32x1_0_0_1 : S16x32x4.Slices ![0, 0, 1] S16x32x1
  slices_S16x32x4_S16x32x1_0_0_2 : S16x32x4.Slices ![0, 0, 2] S16x32x1
  slices_S16x32x4_S16x32x1_0_0_3 : S16x32x4.Slices ![0, 0, 3] S16x32x1
  bcast_S16_S16x1_0 : S16.BroadcastsInDim S16x1 (![0] : Fin 1 → Fin S16x1.rank)
  bcast_S_S16x80x160x160 : S_.BroadcastsInDim S16x80x160x160 (![] : Fin 0 → Fin S16x80x160x160.rank)
  bcast_S_S16x1 : S_.BroadcastsInDim S16x1 (![] : Fin 0 → Fin S16x1.rank)
  bcast_S16x1_S16x32_0_1 : S16x1.BroadcastsInDim S16x32 (![0, 1] : Fin 2 → Fin S16x32.rank)
  bcast_S16x32_S16x32x1_0_1 : S16x32.BroadcastsInDim S16x32x1 (![0, 1] : Fin 2 → Fin S16x32x1.rank)
  concatenates_S16x32x1_S16x32x1_S16x32x1_S16x32x1_S16x32x4_d2 : Shape.Concatenates [S16x32x1, S16x32x1, S16x32x1, S16x32x1] S16x32x4 2
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  inb_S1x40x160x160_S1x40x160x160_0_0_0_0 : ∀ a, (![0, 0, 0, 0] : Fin 4 → Nat) a + S1x40x160x160.size a ≤ S1x40x160x160.size a
  h_S1x40x160x160 : 0 < S1x40x160x160.numel
  shapeCasts_S1x40x160x160_S1x40x160x160 : S1x40x160x160.ShapeCasts S1x40x160x160
  reduces_S1x40x160x160_S1x160x160 : S1x40x160x160.Reduces [1] S1x160x160
  reduces_S1x160x160_S1x160 : S1x160x160.Reduces [1] S1x160
  reduces_S1x160_S1 : S1x160.Reduces [1] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  slices_S16x1x128_S16x1x1_0_0_0 : S16x1x128.Slices ![0, 0, 0] S16x1x1
  shapeCasts_S16x1x1_S16 : S16x1x1.ShapeCasts S16
  bcast_S_S16 : S_.BroadcastsInDim S16 (![] : Fin 0 → Fin S16.rank)
  reducesTo_S16_S_d0 : S16.ReducesTo [0] S_
  h_S_ : 0 < S_.numel
  concatenates_S16x32x1_S16x32x1_S16x32x1_S16x32x3_d2 : Shape.Concatenates [S16x32x1, S16x32x1, S16x32x1] S16x32x3 2
  reducesTo_S16x32x4_S16x32_d2 : S16x32x4.ReducesTo [2] S16x32
  reducesTo_S16x32_S_d0_1 : S16x32.ReducesTo [0, 1] S_
  bcast_S_S1 : S_.BroadcastsInDim S1 (![] : Fin 0 → Fin S1.rank)
  concatenates_S1_S1_S1_S3_d0 : Shape.Concatenates [S1, S1, S1] S3 0
  scatter_S16x80x160x160_S16x32x4_S16x32_n_0123_0123_2_wf : ScatterDims.WF S16x80x160x160 S16x32x4 S16x32 [] [0, 1, 2, 3] [0, 1, 2, 3] 2
  gather_S16x4x160x160_S16x32x3_S16x32x4_2_023_n_n_023_2_1411_wf : GatherDims.WF S16x4x160x160 S16x32x3 S16x32x4 [2] [0, 2, 3] [] [0, 2, 3] [] 2 ![1, 4, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x160x160.size a ≤ S16x80x160x160.size a
  hwx0_0 : ∀ i : grid0.Coords, EltTy.bits .f32 = 32 ∨ (Rect.block (s := S16x80x160x160) S1x40x160x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x40x160x160.size a ≤ S16x80x160x160.size a
  hwx0_1 : ∀ i : grid0.Coords, EltTy.bits .f32 = 32 ∨ (Rect.block (s := S16x80x160x160) S1x40x160x160.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S16x1x128.size a
  hwx0_3 : ∀ i : grid0.Coords, EltTy.bits .f32 = 32 ∨ (Rect.block (s := S16x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S16x1x128.size a
  hwx0_4 : ∀ i : grid0.Coords, EltTy.bits .f32 = 32 ∨ (Rect.block (s := S16x1x128) S1x1x128.size (cc0_transform_4 i) (hinb0_4 i)).WholeWords (EltTy.packing .f32)

variable [Facts₀]

def scatter_S16x80x160x160_S16x32x4_S16x32_n_0123_0123_2 : ScatterDims S16x80x160x160 S16x32x4 S16x32 where
  updateWindowDims := []
  insertedWindowDims := [0, 1, 2, 3]
  scatterDimsToOperandDims := [0, 1, 2, 3]
  indexVectorDim := 2
  wf := scatter_S16x80x160x160_S16x32x4_S16x32_n_0123_0123_2_wf
def gather_S16x4x160x160_S16x32x3_S16x32x4_2_023_n_n_023_2_1411 : GatherDims S16x4x160x160 S16x32x3 S16x32x4 where
  offsetDims := [2]
  collapsedSliceDims := [0, 2, 3]
  operandBatchingDims := []
  startIndicesBatchingDims := []
  startIndexMap := [0, 2, 3]
  indexVectorDim := 2
  sliceSizes := ![1, 4, 1, 1]
  wf := gather_S16x4x160x160_S16x32x3_S16x32x4_2_023_n_n_023_2_1411_wf

abbrev win0_0 : Pipeline.Window sig grid0 :=
  Pipeline.Window.ofSpec (Memref.whole main_arg0) S1x40x160x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S1x40x160x160.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v57_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v57_2) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x80x160x160 : Shape := ⟨4, ![16, 80, 160, 160]⟩
abbrev S16x4x160x160 : Shape := ⟨4, ![16, 4, 160, 160]⟩
abbrev S16x32x4 : Shape := ⟨3, ![16, 32, 4]⟩
abbrev S16x32 : Shape := ⟨2, ![16, 32]⟩
abbrev S16x32x1 : Shape := ⟨3, ![16, 32, 1]⟩
abbrev S_ : Shape := ⟨0, ![]⟩
abbrev S16 : Shape := ⟨1, ![16]⟩
abbrev S16x1 : Shape := ⟨2, ![16, 1]⟩
abbrev S16x32x3 : Shape := ⟨3, ![16, 32, 3]⟩
abbrev S1 : Shape := ⟨1, ![1]⟩
abbrev S3 : Shape := ⟨1, ![3]⟩

abbrev nBuf : Space → Nat
  | .hbm => 189
  | .vmem => 0
  | .smem => 0
  | _ => 0

abbrev hbmTy0_0 (i : Nat) : BufTy := match i % 128 with
  | 0 => ⟨S16x80x160x160, .f32⟩
  | 1 => ⟨S16x4x160x160, .f32⟩
  | 2 => ⟨S16x32x4, .f32⟩
  | 3 => ⟨S16x32, .i32⟩
  | 4 => ⟨S16x32x1, .f32⟩
  | 5 => ⟨S16x32, .f32⟩
  | 6 => ⟨S_, .f32⟩
  | 7 => ⟨S16x32, .f32⟩
  | 8 => ⟨S16x32, .f32⟩
  | 9 => ⟨S16x32x1, .f32⟩
  | 10 => ⟨S16x32, .f32⟩
  | 11 => ⟨S_, .f32⟩
  | 12 => ⟨S16x32, .f32⟩
  | 13 => ⟨S16x32, .f32⟩
  | 14 => ⟨S16x32x1, .f32⟩
  | 15 => ⟨S16x32, .f32⟩
  | 16 => ⟨S_, .f32⟩
  | 17 => ⟨S16x32, .f32⟩
  | 18 => ⟨S16x32, .f32⟩
  | 19 => ⟨S16x32x1, .f32⟩
  | 20 => ⟨S16x32, .f32⟩
  | 21 => ⟨S_, .f32⟩
  | 22 => ⟨S16x32, .f32⟩
  | 23 => ⟨S16x32, .f32⟩
  | 24 => ⟨S16x32, .f32⟩
  | 25 => ⟨S_, .f32⟩
  | 26 => ⟨S16x32, .f32⟩
  | 27 => ⟨S16x32, .f32⟩
  | 28 => ⟨S_, .f32⟩
  | 29 => ⟨S_, .i32⟩
  | 30 => ⟨S_, .f32⟩
  | 31 => ⟨S16x32, .f32⟩
  | 32 => ⟨S16x32, .f32⟩
  | 33 => ⟨S_, .f32⟩
  | 34 => ⟨S16x32, .f32⟩
  | 35 => ⟨S16x32, .f32⟩
  | 36 => ⟨S16x32, .f32⟩
  | 37 => ⟨S_, .f32⟩
  | 38 => ⟨S16x32, .f32⟩
  | 39 => ⟨S16x32, .f32⟩
  | 40 => ⟨S_, .f32⟩
  | 41 => ⟨S_, .i32⟩
  | 42 => ⟨S_, .f32⟩
  | 43 => ⟨S16x32, .f32⟩
  | 44 => ⟨S16x32, .f32⟩
  | 45 => ⟨S_, .f32⟩
  | 46 => ⟨S16x32, .f32⟩
  | 47 => ⟨S16x32, .f32⟩
  | 48 => ⟨S16x32, .i32⟩
  | 49 => ⟨S16x32, .i32⟩
  | 50 => ⟨S16, .i32⟩
  | 51 => ⟨S16x1, .i32⟩
  | 52 => ⟨S_, .f32⟩
  | 53 => ⟨S16x80x160x160, .f32⟩
  | 54 => ⟨S_, .i32⟩
  | 55 => ⟨S16x1, .i32⟩
  | 56 => ⟨S16x1, .i1⟩
  | 57 => ⟨S_, .i32⟩
  | 58 => ⟨S16x1, .i32⟩
  | 59 => ⟨S16x1, .i32⟩
  | 60 => ⟨S16x1, .i32⟩
  | 61 => ⟨S_, .i32⟩
  | 62 => ⟨S16x32, .i32⟩
  | 63 => ⟨S16x32, .i1⟩
  | 64 => ⟨S_, .i32⟩
  | 65 => ⟨S16x32, .i32⟩
  | 66 => ⟨S16x32, .i32⟩
  | 67 => ⟨S16x32, .i32⟩
  | 68 => ⟨S_, .i32⟩
  | 69 => ⟨S16x32, .i32⟩
  | 70 => ⟨S16x32, .i1⟩
  | 71 => ⟨S_, .i32⟩
  | 72 => ⟨S16x32, .i32⟩
  | 73 => ⟨S16x32, .i32⟩
  | 74 => ⟨S16x32, .i32⟩
  | 75 => ⟨S_, .i32⟩
  | 76 => ⟨S16x32, .i32⟩
  | 77 => ⟨S16x32, .i1⟩
  | 78 => ⟨S_, .i32⟩
  | 79 => ⟨S16x32, .i32⟩
  | 80 => ⟨S16x32, .i32⟩
  | 81 => ⟨S16x32, .i32⟩
  | 82 => ⟨S16x32, .i32⟩
  | 83 => ⟨S16x32x1, .i32⟩
  | 84 => ⟨S16x32x1, .i32⟩
  | 85 => ⟨S16x32x1, .i32⟩
  | 86 => ⟨S16x32x1, .i32⟩
  | 87 => ⟨S16x32x4, .i32⟩
  | 88 => ⟨S_, .f32⟩
  | 89 => ⟨S16x32, .f32⟩
  | 90 => ⟨S16x80x160x160, .f32⟩
  | 91 => ⟨S_, .f32⟩
  | 92 => ⟨S16x80x160x160, .f32⟩
  | 93 => ⟨S16x80x160x160, .f32⟩
  | 94 => ⟨S16x80x160x160, .f32⟩
  | 95 => ⟨S16x80x160x160, .f32⟩
  | 96 => ⟨S16x80x160x160, .i1⟩
  | 97 => ⟨S16x80x160x160, .f32⟩
  | 98 => ⟨S16x80x160x160, .f32⟩
  | 99 => ⟨S16x80x160x160, .f32⟩
  | 100 => ⟨S16x80x160x160, .f32⟩
  | 101 => ⟨S16x80x160x160, .f32⟩
  | 102 => ⟨S16x80x160x160, .f32⟩
  | 103 => ⟨S16x80x160x160, .f32⟩
  | 104 => ⟨S16x80x160x160, .f32⟩
  | 105 => ⟨S16x80x160x160, .f32⟩
  | 106 => ⟨S16x80x160x160, .f32⟩
  | 107 => ⟨S_, .f32⟩
  | 108 => ⟨S16x80x160x160, .f32⟩
  | 109 => ⟨S16x80x160x160, .i1⟩
  | 110 => ⟨S16x80x160x160, .f32⟩
  | 111 => ⟨S_, .f32⟩
  | 112 => ⟨S16, .f32⟩
  | 113 => ⟨S_, .f32⟩
  | 114 => ⟨S16, .f32⟩
  | 115 => ⟨S16, .f32⟩
  | 116 => ⟨S16x80x160x160, .f32⟩
  | 117 => ⟨S_, .f32⟩
  | 118 => ⟨S16, .f32⟩
  | 119 => ⟨S_, .f32⟩
  | 120 => ⟨S16, .f32⟩
  | 121 => ⟨S16, .f32⟩
  | 122 => ⟨S16, .f32⟩
  | 123 => ⟨S_, .f32⟩
  | 124 => ⟨S_, .f32⟩
  | 125 => ⟨S16, .f32⟩
  | 126 => ⟨S_, .f32⟩
  | 127 => ⟨S_, .f32⟩
  | _ => ⟨S16x80x160x160, .f32⟩

abbrev hbmTy0_1 (i : Nat) : BufTy := match i % 128 with
  | 0 => ⟨S_, .i32⟩
  | 1 => ⟨S16x1, .i32⟩
  | 2 => ⟨S16x1, .i1⟩
  | 3 => ⟨S_, .i32⟩
  | 4 => ⟨S16x1, .i32⟩
  | 5 => ⟨S16x1, .i32⟩
  | 6 => ⟨S16x1, .i32⟩
  | 7 => ⟨S_, .i32⟩
  | 8 => ⟨S16x32, .i32⟩
  | 9 => ⟨S16x32, .i1⟩
  | 10 => ⟨S_, .i32⟩
  | 11 => ⟨S16x32, .i32⟩
  | 12 => ⟨S16x32, .i32⟩
  | 13 => ⟨S16x32, .i32⟩
  | 14 => ⟨S_, .i32⟩
  | 15 => ⟨S16x32, .i32⟩
  | 16 => ⟨S16x32, .i1⟩
  | 17 => ⟨S_, .i32⟩
  | 18 => ⟨S16x32, .i32⟩
  | 19 => ⟨S16x32, .i32⟩
  | 20 => ⟨S16x32, .i32⟩
  | 21 => ⟨S16x32, .i32⟩
  | 22 => ⟨S16x32x1, .i32⟩
  | 23 => ⟨S16x32x1, .i32⟩
  | 24 => ⟨S16x32x1, .i32⟩
  | 25 => ⟨S16x32x3, .i32⟩
  | 26 => ⟨S16x32x4, .f32⟩
  | 27 => ⟨S16x32x1, .f32⟩
  | 28 => ⟨S16x32x1, .f32⟩
  | 29 => ⟨S16x32x1, .f32⟩
  | 30 => ⟨S16x32x1, .f32⟩
  | 31 => ⟨S16x32x4, .f32⟩
  | 32 => ⟨S16x32x4, .f32⟩
  | 33 => ⟨S16x32x4, .f32⟩
  | 34 => ⟨S_, .f32⟩
  | 35 => ⟨S16x32, .f32⟩
  | 36 => ⟨S_, .f32⟩
  | 37 => ⟨S16x32, .f32⟩
  | 38 => ⟨S16x32, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S1, .f32⟩
  | 58 => ⟨S1, .f32⟩
  | 59 => ⟨S1, .f32⟩
  | 60 => ⟨S3, .f32⟩
  | _ => ⟨S16x80x160x160, .f32⟩

abbrev hbmTy (i : Nat) : BufTy := match i / 128 with
  | 0 => hbmTy0_0 i
  | 1 => hbmTy0_1 i
  | _ => ⟨S16x80x160x160, .f32⟩

abbrev bufTy : (tb : Table) → Fin (tcTables nBuf tb) → BufTy
  | .hbm, ⟨i, _⟩ => hbmTy i
  | _, _ => ⟨S16x80x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_c : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_c_7 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_8 : Ref sig .tc := ⟨.hbm, 52, rfl⟩
abbrev main_v28 : Ref sig .tc := ⟨.hbm, 53, rfl⟩
abbrev main_c_9 : Ref sig .tc := ⟨.hbm, 54, rfl⟩
abbrev main_v29 : Ref sig .tc := ⟨.hbm, 55, rfl⟩
abbrev main_v30 : Ref sig .tc := ⟨.hbm, 56, rfl⟩
abbrev main_c_10 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_11 : Ref sig .tc := ⟨.hbm, 61, rfl⟩
abbrev main_v34 : Ref sig .tc := ⟨.hbm, 62, rfl⟩
abbrev main_v35 : Ref sig .tc := ⟨.hbm, 63, rfl⟩
abbrev main_c_12 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_13 : Ref sig .tc := ⟨.hbm, 68, rfl⟩
abbrev main_v39 : Ref sig .tc := ⟨.hbm, 69, rfl⟩
abbrev main_v40 : Ref sig .tc := ⟨.hbm, 70, rfl⟩
abbrev main_c_14 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_15 : Ref sig .tc := ⟨.hbm, 75, rfl⟩
abbrev main_v44 : Ref sig .tc := ⟨.hbm, 76, rfl⟩
abbrev main_v45 : Ref sig .tc := ⟨.hbm, 77, rfl⟩
abbrev main_c_16 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_17 : Ref sig .tc := ⟨.hbm, 88, rfl⟩
abbrev main_v55 : Ref sig .tc := ⟨.hbm, 89, rfl⟩
abbrev main_v56 : Ref sig .tc := ⟨.hbm, 90, rfl⟩
abbrev main_cst_18 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_19 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_20 : Ref sig .tc := ⟨.hbm, 111, rfl⟩
abbrev main_v75 : Ref sig .tc := ⟨.hbm, 112, rfl⟩
abbrev main_cst_21 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_22 : Ref sig .tc := ⟨.hbm, 117, rfl⟩
abbrev main_v79 : Ref sig .tc := ⟨.hbm, 118, rfl⟩
abbrev main_cst_23 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_24 : Ref sig .tc := ⟨.hbm, 123, rfl⟩
abbrev main_v83 : Ref sig .tc := ⟨.hbm, 124, rfl⟩
abbrev main_v84 : Ref sig .tc := ⟨.hbm, 125, rfl⟩
abbrev main_cst_25 : Ref sig .tc := ⟨.hbm, 126, rfl⟩
abbrev main_v85 : Ref sig .tc := ⟨.hbm, 127, rfl⟩
abbrev main_c_26 : Ref sig .tc := ⟨.hbm, 128, rfl⟩
abbrev main_v86 : Ref sig .tc := ⟨.hbm, 129, rfl⟩
abbrev main_v87 : Ref sig .tc := ⟨.hbm, 130, rfl⟩
abbrev main_c_27 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_c_28 : Ref sig .tc := ⟨.hbm, 135, rfl⟩
abbrev main_v91 : Ref sig .tc := ⟨.hbm, 136, rfl⟩
abbrev main_v92 : Ref sig .tc := ⟨.hbm, 137, rfl⟩
abbrev main_c_29 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_c_30 : Ref sig .tc := ⟨.hbm, 142, rfl⟩
abbrev main_v96 : Ref sig .tc := ⟨.hbm, 143, rfl⟩
abbrev main_v97 : Ref sig .tc := ⟨.hbm, 144, rfl⟩
abbrev main_c_31 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_32 : Ref sig .tc := ⟨.hbm, 162, rfl⟩
abbrev main_v114 : Ref sig .tc := ⟨.hbm, 163, rfl⟩
abbrev main_cst_33 : Ref sig .tc := ⟨.hbm, 164, rfl⟩
abbrev main_v115 : Ref sig .tc := ⟨.hbm, 165, rfl⟩
abbrev main_v116 : Ref sig .tc := ⟨.hbm, 166, rfl⟩
abbrev main_cst_34 : Ref sig .tc := ⟨.hbm, 167, rfl⟩
abbrev main_v117 : Ref sig .tc := ⟨.hbm, 168, rfl⟩
abbrev main_cst_35 : Ref sig .tc := ⟨.hbm, 169, rfl⟩
abbrev main_v118 : Ref sig .tc := ⟨.hbm, 170, rfl⟩
abbrev main_cst_36 : Ref sig .tc := ⟨.hbm, 171, rfl⟩
abbrev main_v119 : Ref sig .tc := ⟨.hbm, 172, rfl⟩
abbrev main_cst_37 : Ref sig .tc := ⟨.hbm, 173, rfl⟩
abbrev main_v120 : Ref sig .tc := ⟨.hbm, 174, rfl⟩
abbrev main_cst_38 : Ref sig .tc := ⟨.hbm, 175, rfl⟩
abbrev main_v121 : Ref sig .tc := ⟨.hbm, 176, rfl⟩
abbrev main_v122 : Ref sig .tc := ⟨.hbm, 177, rfl⟩
abbrev main_cst_39 : Ref sig .tc := ⟨.hbm, 178, rfl⟩
abbrev main_v123 : Ref sig .tc := ⟨.hbm, 179, rfl⟩
abbrev main_cst_40 : Ref sig .tc := ⟨.hbm, 180, rfl⟩
abbrev main_v124 : Ref sig .tc := ⟨.hbm, 181, rfl⟩
abbrev main_v125 : Ref sig .tc := ⟨.hbm, 182, rfl⟩
abbrev main_cst_41 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩

abbrev nD : Nat := 1
abbrev τ : Topo := Topo.v7x

variable {F : FTy → Type} [FloatOps F]

class Facts₀ : Prop where
  slices_S16x32x4_S16x32x1_0_0_0 : S16x32x4.Slices ![0, 0, 0] S16x32x1
  shapeCasts_S16x32x1_S16x32 : S16x32x1.ShapeCasts S16x32
  bcast_S_S16x32 : S_.BroadcastsInDim S16x32 (![] : Fin 0 → Fin S16x32.rank)
  slices_S16x32x4_S16x32x1_0_0_1 : S16x32x4.Slices ![0, 0, 1] S16x32x1
  slices_S16x32x4_S16x32x1_0_0_2 : S16x32x4.Slices ![0, 0, 2] S16x32x1
  slices_S16x32x4_S16x32x1_0_0_3 : S16x32x4.Slices ![0, 0, 3] S16x32x1
  bcast_S16_S16x1_0 : S16.BroadcastsInDim S16x1 (![0] : Fin 1 → Fin S16x1.rank)
  bcast_S_S16x80x160x160 : S_.BroadcastsInDim S16x80x160x160 (![] : Fin 0 → Fin S16x80x160x160.rank)
  bcast_S_S16x1 : S_.BroadcastsInDim S16x1 (![] : Fin 0 → Fin S16x1.rank)
  bcast_S16x1_S16x32_0_1 : S16x1.BroadcastsInDim S16x32 (![0, 1] : Fin 2 → Fin S16x32.rank)
  bcast_S16x32_S16x32x1_0_1 : S16x32.BroadcastsInDim S16x32x1 (![0, 1] : Fin 2 → Fin S16x32x1.rank)
  concatenates_S16x32x1_S16x32x1_S16x32x1_S16x32x1_S16x32x4_d2 : Shape.Concatenates [S16x32x1, S16x32x1, S16x32x1, S16x32x1] S16x32x4 2
  reducesTo_S16x80x160x160_S16_d1_2_3 : S16x80x160x160.ReducesTo [1, 2, 3] S16
  h_S_ : 0 < S_.numel
  bcast_S_S16 : S_.BroadcastsInDim S16 (![] : Fin 0 → Fin S16.rank)
  reducesTo_S16_S_d0 : S16.ReducesTo [0] S_
  concatenates_S16x32x1_S16x32x1_S16x32x1_S16x32x3_d2 : Shape.Concatenates [S16x32x1, S16x32x1, S16x32x1] S16x32x3 2
  reducesTo_S16x32x4_S16x32_d2 : S16x32x4.ReducesTo [2] S16x32
  reducesTo_S16x32_S_d0_1 : S16x32.ReducesTo [0, 1] S_
  bcast_S_S1 : S_.BroadcastsInDim S1 (![] : Fin 0 → Fin S1.rank)
  concatenates_S1_S1_S1_S3_d0 : Shape.Concatenates [S1, S1, S1] S3 0
  scatter_S16x80x160x160_S16x32x4_S16x32_n_0123_0123_2_wf : ScatterDims.WF S16x80x160x160 S16x32x4 S16x32 [] [0, 1, 2, 3] [0, 1, 2, 3] 2
  gather_S16x4x160x160_S16x32x3_S16x32x4_2_023_n_n_023_2_1411_wf : GatherDims.WF S16x4x160x160 S16x32x3 S16x32x4 [2] [0, 2, 3] [] [0, 2, 3] [] 2 ![1, 4, 1, 1]

variable [Facts₀]

def scatter_S16x80x160x160_S16x32x4_S16x32_n_0123_0123_2 : ScatterDims S16x80x160x160 S16x32x4 S16x32 where
  updateWindowDims := []
  insertedWindowDims := [0, 1, 2, 3]
  scatterDimsToOperandDims := [0, 1, 2, 3]
  indexVectorDim := 2
  wf := scatter_S16x80x160x160_S16x32x4_S16x32_n_0123_0123_2_wf
def gather_S16x4x160x160_S16x32x3_S16x32x4_2_023_n_n_023_2_1411 : GatherDims S16x4x160x160 S16x32x3 S16x32x4 where
  offsetDims := [2]
  collapsedSliceDims := [0, 2, 3]
  operandBatchingDims := []
  startIndicesBatchingDims := []
  startIndexMap := [0, 2, 3]
  indexVectorDim := 2
  sliceSizes := ![1, 4, 1, 1]
  wf := gather_S16x4x160x160_S16x32x3_S16x32x4_2_023_n_n_023_2_1411_wf

class Facts : Prop extends Facts₀ where

variable [Facts]
-- ==== Proof.KKit.lean ====
/-
  (The word-level program: the same text as for its idealization, read at the bit-exact instance.)
  The kernel's @main around its one region: what the core's buffers hold when the region is entered (the host lines
  before it applied to the launch contents), that the lines after it touch only arrays and bypassing buffers and write
  no array of the pipeline, that no line writes an argument, the windows' blocks, the body's two branch conditions
  (first channel tile / last channel tile) decided over the 16 × 2 grid, and where the three output windows are idle:
  at the first tile of each batch nothing is stored into them and nothing is written back.
-/
import proofs.«174415_j49692771615067_2_alg».proof.Proof.Gen.Kernel.Launch
import proofs.«174415_j49692771615067_2_alg».proof.Proof.Gen.Kernel.Skeleton
import proofs.«174415_j49692771615067_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the host lines before it applied to the launch contents. -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host line after the region writes argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes argument 3, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post read at the four
    argument arrays — the logits, which window 0 stages, by the library's reading of an input's array; the three
    arguments no window stages by the post's clause for the other buffers — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c))⟩) h

/-! ## The body's branch conditions -/

/-- The body's first branch: this is the first channel tile of its batch (grid coordinate 1 is 0). -/
abbrev cond0_0 (i : grid0.Coords) : Prop := (Scalar.cmpi .ne (Scalar.extui (Scalar.cmpi .eq (BitVec.ofNat 32 (i 1).val) 0#32)) 0#32) = 1#1
/-- It holds at the even points of the row-major 16 × 2 grid. -/
theorem hcond0_0 : ∀ t : Fin cfg0.N, cond0_0 (grid0.coords t) ↔ t.val % 2 = 0 :=
  (by decide +kernel : ∀ t : Fin grid0.N, cond0_0 (grid0.coords t) ↔ t.val % 2 = 0)
/-- The body's second branch: this is the last channel tile of its batch (grid coordinate 1 is 1). -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a first tile the three output windows are idle and are not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- At a last tile they are live: the body stores into each. -/
theorem liveAt0_2_B : ∀ t : Fin cfg0.N, ¬cond0_0 (grid0.coords t) → cond0_1 (grid0.coords t) → cfg0.idle 2 (grid0.coords t) = false := by decide +kernel
theorem liveAt0_3_B : ∀ t : Fin cfg0.N, ¬cond0_0 (grid0.coords t) → cond0_1 (grid0.coords t) → cfg0.idle 3 (grid0.coords t) = false := by decide +kernel
theorem liveAt0_4_B : ∀ t : Fin cfg0.N, ¬cond0_0 (grid0.coords t) → cond0_1 (grid0.coords t) → cfg0.idle 4 (grid0.coords t) = false := by decide +kernel

/-! ## The memrefs the body is called with -/

/-- One staging buffer of each output window, through which its contents are stated. -/
abbrev VO0_2 : View sig .tc .vmem S1x1x128 .f32 := (Memref.whole cc0_stg2_0 : Memref sig .tc .vmem S1x1x128 .f32).view
abbrev VO0_3 : View sig .tc .vmem S1x1x128 .f32 := (Memref.whole cc0_stg3_0 : Memref sig .tc .vmem S1x1x128 .f32).view
abbrev VO0_4 : View sig .tc .vmem S1x1x128 .f32 := (Memref.whole cc0_stg4_0 : Memref sig .tc .vmem S1x1x128 .f32).view
/-- Each window's current staging memref at point `t`, as the pipeline passes it, and its wholeness. -/
abbrev ms0_0 (t : Fin cfg0.N) : Memref sig .tc .vmem S1x40x160x160 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x40x160x160 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
/-- The three accumulators: whole scoped buffers of the kernel's own, carried from a batch's first tile to its last. -/
abbrev scM0_0 : Memref sig .tc .vmem S1x1x128 .f32 := Memref.whole cc0_scratch0
abbrev scM0_1 : Memref sig .tc .vmem S1x1x128 .f32 := Memref.whole cc0_scratch1
abbrev scM0_2 : Memref sig .tc .vmem S1x1x128 .f32 := Memref.whole cc0_scratch2
abbrev VS0_0 : View sig .tc .vmem S1x1x128 .f32 := scM0_0.view
abbrev VS0_1 : View sig .tc .vmem S1x1x128 .f32 := scM0_1.view
abbrev VS0_2 : View sig .tc .vmem S1x1x128 .f32 := scM0_2.view

/-- The region's invariant with the three accumulators as memrefs owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Fr

end
-- ==== Proof.KKeeps.lean ====
/-
  (The word-level program: the same text as for its idealization, read at the bit-exact instance.)
  No host line after the region writes an array of the pipeline (the logits, the scatter target, the kernel's three
  results): each line writes only its own result buffer, which is none of these.
-/
import proofs.«174415_j49692771615067_2_alg».proof.Proof.KKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps1_writes_ne_arg0 : (hostOps1 : List (HloOp τ sig (Elt F))).Forall fun op =>
    Proc.devRef .tc main_arg0 ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem hostOps1_writes_ne_v56 : (hostOps1 : List (HloOp τ sig (Elt F))).Forall fun op =>
    Proc.devRef .tc main_v56 ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem hostOps1_writes_ne_v57_0 : (hostOps1 : List (HloOp τ sig (Elt F))).Forall fun op =>
    Proc.devRef .tc main_v57_0 ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem hostOps1_writes_ne_v57_1 : (hostOps1 : List (HloOp τ sig (Elt F))).Forall fun op =>
    Proc.devRef .tc main_v57_1 ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem hostOps1_writes_ne_v57_2 : (hostOps1 : List (HloOp τ sig (Elt F))).Forall fun op =>
    Proc.devRef .tc main_v57_2 ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem hostOps1_keeps (w : Fin 5) : (hostOps1 : List (HloOp τ sig (Elt F))).Forall fun op =>
    Proc.devRef .tc (Pipeline.arrRef spec0 w) ∉ op.writes := by
  fin_cases w
  · exact hostOps1_writes_ne_arg0
  · exact hostOps1_writes_ne_v56
  · exact hostOps1_writes_ne_v57_0
  · exact hostOps1_writes_ne_v57_1
  · exact hostOps1_writes_ne_v57_2

theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  · exact (List.forall_iff_forall_mem.mp (hostOps1_keeps w)) op hop

end Cert.Kernel.Fr

end
-- ==== Proof.KRunA.lean ====
/-
  (The word-level program: the same text as for its idealization, read at the bit-exact instance.)
  The kernel body at a FIRST channel tile of a batch (first branch taken, second not): on whole staging memrefs — the
  two inputs' at their blocks, the three output windows' at contents handed back untouched (nothing is stored into them
  here), the three accumulators at anything — the body runs to the continuation with the inputs as they were and each
  accumulator holding the pieces its two stores wrote (the zero fill, then zero plus this tile's sum). The pieces are
  found by running the body's skeleton symbolically.
-/
import proofs.«174415_j49692771615067_2_alg».proof.Proof.KKeeps

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i)
    (x0 : Vec F S1x40x160x160 .f32) (x1 : Vec F S1x40x160x160 .f32) :
    Σ' (LS0 : List (View.Piece (Elt F) S1x1x128 .f32)) (LS1 : List (View.Piece (Elt F) S1x1x128 .f32)), { LS2 : List (View.Piece (Elt F) S1x1x128 .f32) //
      ∀ (xi2 xi3 xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__bce_reduce_kernel i arg2 harg2 arg3 harg3 arg4 harg4 arg5 harg5 arg6 harg6 arg7 harg7 arg8 harg8 arg9 harg9) K } := by
  refine ⟨?_, ?_, ?_, fun xi2 xi3 xi4 E K => ?run⟩
  case run =>
    simp only [cc0__bce_reduce_kernel_eq_skeleton]; unfold cc0__bce_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Fr

end
-- ==== Proof.KRunB.lean ====
/-
  (The word-level program: the same text as for its idealization, read at the bit-exact instance.)
  The kernel body at a LAST channel tile of a batch (first branch not taken, second taken): on whole staging memrefs —
  the two inputs' at their blocks, the three output windows' at anything, the three accumulators at what the tile before
  left — the body runs to the continuation with the inputs as they were, each accumulator holding the piece its store
  wrote (what it held plus this tile's sum) and each output's buffer the piece copied out of its accumulator.
-/
import proofs.«174415_j49692771615067_2_alg».proof.Proof.KRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 : Vec F S1x40x160x160 .f32) (x1 : Vec F S1x40x160x160 .f32) (xs0 xs1 xs2 : Vec F S1x1x128 .f32) :
    Σ' (L2 : List (View.Piece (Elt F) S1x1x128 .f32)) (L3 : List (View.Piece (Elt F) S1x1x128 .f32)) (L4 : List (View.Piece (Elt F) S1x1x128 .f32)) (LS0 : List (View.Piece (Elt F) S1x1x128 .f32)) (LS1 : List (View.Piece (Elt F) S1x1x128 .f32)), { LS2 : List (View.Piece (Elt F) S1x1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__bce_reduce_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__bce_reduce_kernel_eq_skeleton]; unfold cc0__bce_reduce_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.Kernel.Fr

end
-- ==== Proof.KFrame.lean ====
/-
  (The word-level program: the same text as for its idealization, read at the bit-exact instance.)
  The frame of the kernel program: what the three accumulators and the three output windows' staging buffers hold after
  the body at each of the 32 grid points (at a batch's first tile the accumulators are zero plus that tile's sums; at its
  last tile they are what the first left plus this tile's sums, and each output's buffer is a copy of its accumulator),
  the region's invariant carrying the accumulators from one point to the next, the proof data, the body obligation at
  every point, and the run of @main: it terminates, nothing faults, every array of the pipeline ends at what the proof
  data computes and every other buffer as the lines after the region leave it.
-/
import proofs.«174415_j49692771615067_2_alg».proof.Proof.KRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A placeholder for an output window's buffer at a first tile, where nothing is stored into it, it is not written
    back, and nothing reads it at the next point. -/
def idleOut : Vec F S1x1x128 .f32 := VO0_2.read (Elt F) VO0_2.junk

/-- A first tile's pieces for accumulator 0 (the zero fill, then the sum added) cover it. -/
theorem scover0_A_0 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i)
    (x0 x1 : Vec F S1x40x160x160 .f32) (y : S1x1x128.Idx) :
    ∃ pc ∈ (kernelRun0_A c i arg2 harg2 arg3 harg3 arg4 harg4 arg5 harg5 arg6 harg6 arg7 harg7 arg8 harg8 arg9 harg9 hc0 hc1 x0 x1).1, y ∈ pc.1.set :=
  View.cover_of_tiledL (kernelRun0_A c i arg2 harg2 arg3 harg3 arg4 harg4 arg5 harg5 arg6 harg6 arg7 harg7 arg8 harg8 arg9 harg9 hc0 hc1 x0 x1).1 S1x1x128.size (by sl_kernel_rfl) y
/-- What a first tile leaves in accumulator 0: its pieces read back. -/
def sout0_A_0 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i)
    (x0 x1 : Vec F S1x40x160x160 .f32) : Vec F S1x1x128 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1).1)

/-- A first tile's pieces for accumulator 1 (the zero fill, then the sum added) cover it. -/
theorem scover0_A_1 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i)
    (x0 x1 : Vec F S1x40x160x160 .f32) (y : S1x1x128.Idx) :
    ∃ pc ∈ (kernelRun0_A c i arg2 harg2 arg3 harg3 arg4 harg4 arg5 harg5 arg6 harg6 arg7 harg7 arg8 harg8 arg9 harg9 hc0 hc1 x0 x1).2.1, y ∈ pc.1.set :=
  View.cover_of_tiledL (kernelRun0_A c i arg2 harg2 arg3 harg3 arg4 harg4 arg5 harg5 arg6 harg6 arg7 harg7 arg8 harg8 arg9 harg9 hc0 hc1 x0 x1).2.1 S1x1x128.size (by sl_kernel_rfl) y
/-- What a first tile leaves in accumulator 1: its pieces read back. -/
def sout0_A_1 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i)
    (x0 x1 : Vec F S1x40x160x160 .f32) : Vec F S1x1x128 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1).2.1)

/-- A first tile's pieces for accumulator 2 (the zero fill, then the sum added) cover it. -/
theorem scover0_A_2 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i)
    (x0 x1 : Vec F S1x40x160x160 .f32) (y : S1x1x128.Idx) :
    ∃ pc ∈ (kernelRun0_A c i arg2 harg2 arg3 harg3 arg4 harg4 arg5 harg5 arg6 harg6 arg7 harg7 arg8 harg8 arg9 harg9 hc0 hc1 x0 x1).2.2.1, y ∈ pc.1.set :=
  View.cover_of_tiledL (kernelRun0_A c i arg2 harg2 arg3 harg3 arg4 harg4 arg5 harg5 arg6 harg6 arg7 harg7 arg8 harg8 arg9 harg9 hc0 hc1 x0 x1).2.2.1 S1x1x128.size (by sl_kernel_rfl) y
/-- What a first tile leaves in accumulator 2: its pieces read back. -/
def sout0_A_2 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i)
    (x0 x1 : Vec F S1x40x160x160 .f32) : Vec F S1x1x128 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1).2.2.1)

/-- A last tile's piece for output window 2 covers its block. -/
theorem cover0_B_2 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) (y : S1x1x128.Idx) :
    ∃ pc ∈ (kernelRun0_B c i arg2 harg2 arg3 harg3 arg4 harg4 arg5 harg5 arg6 harg6 arg7 harg7 arg8 harg8 arg9 harg9 hc0 hc1 x0 x1 xs0 xs1 xs2).1, y ∈ pc.1.set :=
  View.cover_of_tiledL (kernelRun0_B c i arg2 harg2 arg3 harg3 arg4 harg4 arg5 harg5 arg6 harg6 arg7 harg7 arg8 harg8 arg9 harg9 hc0 hc1 x0 x1 xs0 xs1 xs2).1 S1x1x128.size (by sl_kernel_rfl) y
/-- What a last tile leaves in output window 2's staging buffer: its piece read back. -/
def out0_B_2 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) : Vec F S1x1x128 .f32 :=
  VO0_2.read (Elt F) (VO0_2.writes (Elt F) VO0_2.junk (kernelRun0_B c i arg2 harg2 arg3 harg3 arg4 harg4 arg5 harg5 arg6 harg6 arg7 harg7 arg8 harg8 arg9 harg9 hc0 hc1 x0 x1 xs0 xs1 xs2).1)

/-- A last tile's piece for output window 3 covers its block. -/
theorem cover0_B_3 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) (y : S1x1x128.Idx) :
    ∃ pc ∈ (kernelRun0_B c i arg2 harg2 arg3 harg3 arg4 harg4 arg5 harg5 arg6 harg6 arg7 harg7 arg8 harg8 arg9 harg9 hc0 hc1 x0 x1 xs0 xs1 xs2).2.1, y ∈ pc.1.set :=
  View.cover_of_tiledL (kernelRun0_B c i arg2 harg2 arg3 harg3 arg4 harg4 arg5 harg5 arg6 harg6 arg7 harg7 arg8 harg8 arg9 harg9 hc0 hc1 x0 x1 xs0 xs1 xs2).2.1 S1x1x128.size (by sl_kernel_rfl) y
/-- What a last tile leaves in output window 3's staging buffer: its piece read back. -/
def out0_B_3 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) : Vec F S1x1x128 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 xs0 xs1 xs2).2.1)

/-- A last tile's piece for output window 4 covers its block. -/
theorem cover0_B_4 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) (y : S1x1x128.Idx) :
    ∃ pc ∈ (kernelRun0_B c i arg2 harg2 arg3 harg3 arg4 harg4 arg5 harg5 arg6 harg6 arg7 harg7 arg8 harg8 arg9 harg9 hc0 hc1 x0 x1 xs0 xs1 xs2).2.2.1, y ∈ pc.1.set :=
  View.cover_of_tiledL (kernelRun0_B c i arg2 harg2 arg3 harg3 arg4 harg4 arg5 harg5 arg6 harg6 arg7 harg7 arg8 harg8 arg9 harg9 hc0 hc1 x0 x1 xs0 xs1 xs2).2.2.1 S1x1x128.size (by sl_kernel_rfl) y
/-- What a last tile leaves in output window 4's staging buffer: its piece read back. -/
def out0_B_4 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) : Vec F S1x1x128 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 xs0 xs1 xs2).2.2.1)

/-- A last tile's piece for accumulator 0 covers it. -/
theorem scover0_B_0 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) (y : S1x1x128.Idx) :
    ∃ pc ∈ (kernelRun0_B c i arg2 harg2 arg3 harg3 arg4 harg4 arg5 harg5 arg6 harg6 arg7 harg7 arg8 harg8 arg9 harg9 hc0 hc1 x0 x1 xs0 xs1 xs2).2.2.2.1, y ∈ pc.1.set :=
  View.cover_of_tiledL (kernelRun0_B c i arg2 harg2 arg3 harg3 arg4 harg4 arg5 harg5 arg6 harg6 arg7 harg7 arg8 harg8 arg9 harg9 hc0 hc1 x0 x1 xs0 xs1 xs2).2.2.2.1 S1x1x128.size (by sl_kernel_rfl) y
/-- What a last tile leaves in accumulator 0: its piece read back. -/
def sout0_B_0 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) : Vec F S1x1x128 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 xs0 xs1 xs2).2.2.2.1)

/-- A last tile's piece for accumulator 1 covers it. -/
theorem scover0_B_1 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) (y : S1x1x128.Idx) :
    ∃ pc ∈ (kernelRun0_B c i arg2 harg2 arg3 harg3 arg4 harg4 arg5 harg5 arg6 harg6 arg7 harg7 arg8 harg8 arg9 harg9 hc0 hc1 x0 x1 xs0 xs1 xs2).2.2.2.2.1, y ∈ pc.1.set :=
  View.cover_of_tiledL (kernelRun0_B c i arg2 harg2 arg3 harg3 arg4 harg4 arg5 harg5 arg6 harg6 arg7 harg7 arg8 harg8 arg9 harg9 hc0 hc1 x0 x1 xs0 xs1 xs2).2.2.2.2.1 S1x1x128.size (by sl_kernel_rfl) y
/-- What a last tile leaves in accumulator 1: its piece read back. -/
def sout0_B_1 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) : Vec F S1x1x128 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 xs0 xs1 xs2).2.2.2.2.1)

/-- A last tile's piece for accumulator 2 covers it. -/
theorem scover0_B_2 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) (y : S1x1x128.Idx) :
    ∃ pc ∈ (kernelRun0_B c i arg2 harg2 arg3 harg3 arg4 harg4 arg5 harg5 arg6 harg6 arg7 harg7 arg8 harg8 arg9 harg9 hc0 hc1 x0 x1 xs0 xs1 xs2).2.2.2.2.2.1, y ∈ pc.1.set :=
  View.cover_of_tiledL (kernelRun0_B c i arg2 harg2 arg3 harg3 arg4 harg4 arg5 harg5 arg6 harg6 arg7 harg7 arg8 harg8 arg9 harg9 hc0 hc1 x0 x1 xs0 xs1 xs2).2.2.2.2.2.1 S1x1x128.size (by sl_kernel_rfl) y
/-- What a last tile leaves in accumulator 2: its piece read back. -/
def sout0_B_2 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) : Vec F S1x1x128 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 xs0 xs1 xs2).2.2.2.2.2.1)

/-! ## What the outputs and the accumulators hold after each point -/

/-- After the body at position `n`: the three outputs' staging buffers, then the three accumulators. An even position
    is a batch's first tile; an odd one its last, run over what the position before left in the accumulators. -/
def outsAt0 (c : Dev nD) : (n : ℕ) → n < cfg0.N → (Vec F S1x1x128 .f32 × Vec F S1x1x128 .f32 × Vec F S1x1x128 .f32) × (Vec F S1x1x128 .f32 × Vec F S1x1x128 .f32 × Vec F S1x1x128 .f32)
  | 0, hn => ((idleOut, idleOut, idleOut), (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩)))
  | n + 1, hn =>
    if h0 : (n + 1) % 2 = 0 then
      ((idleOut, idleOut, idleOut), (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩)))
    else
      ((out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (by (try dsimp only); omega)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (by (try dsimp only); omega)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (by (try dsimp only); omega)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2), (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (by (try dsimp only); omega)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (by (try dsimp only); omega)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (by (try dsimp only); omega)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2))

/-- `outsAt0` at a first tile. -/
theorem outsAt0_A (c : Dev nD) (t : Fin cfg0.N) (h0 : t.val % 2 = 0) (h1 : ¬t.val % 2 = 1) :
    outsAt0 m c t.val t.isLt = ((idleOut, idleOut, idleOut), (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t))) := by
  obtain ⟨n, hn⟩ := t
  cases n with
  | zero => exact rfl
  | succ n => exact (dif_pos h0).trans rfl

/-- `outsAt0` at a last tile: over what the point before left. -/
theorem outsAt0_B (c : Dev nD) (t : Fin cfg0.N) (h0 : ¬t.val % 2 = 0) (h1 : t.val % 2 = 1) :
    outsAt0 m c t.val t.isLt = ((out0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2), (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)) := by
  obtain ⟨n, hn⟩ := t
  cases n with
  | zero => exact (by exfalso; (try dsimp only at h0); exact absurd (Nat.zero_mod _) h0)
  | succ n => exact (dif_neg h0).trans rfl

/-- The region's invariant before position `n`: before the first point the class's own (every accumulator at anything);
    afterwards each accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data on core `c`: the arrays as the region finds them; after the body at point `t` each input's buffer at
    its block and each output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1.1
    | ⟨3, _⟩ => (outsAt0 m c t.val t.isLt).1.2.1
    | ⟨4, _⟩ => (outsAt0 m c t.val t.isLt).1.2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1.1 := by dsimp only [dats]
theorem after0_3 (c : Dev nD) (t : Fin cfg0.N) : (dats m 0 c).after 3 t = (outsAt0 m c t.val t.isLt).1.2.1 := by dsimp only [dats]
theorem after0_4 (c : Dev nD) (t : Fin cfg0.N) : (dats m 0 c).after 4 t = (outsAt0 m c t.val t.isLt).1.2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t ∗ (dats m 0 c).leavesExact 4 t)

set_option maxHeartbeats 4800000 in
/-- The body at any point: the inputs' memrefs hold their blocks; the parity of the point says which branch it takes; the
    invariant hands the body the accumulators (at anything at a first tile, at what the first tile left at a last one)
    and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 2 = 0
  · have h1 : ¬t.val % 2 = 1 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
    rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
    rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
    rw [outsAt0_A m c t h0 h1]
    unfold sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t)).2.2.2 _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _)
          · unfold owns; iexists _; isplitr
            swap; · iexact HS2
            ipureintro; exact View.read_writes_of_cover _ _ _ _ _ (scover0_A_2 c _ _ _ _ _ _ _ _ _ _ _ _ _ _ _ _ _ _ _ _ _)
        iexact Hg
      isplitl [Ho]; · iexact Ho
      isplitl [H0]; · iexact H0
      isplitl [H1]; · iexact H1
      isplitl [H2]; · iexists _; iexact H2
      isplitl [H3]; · iexists _; iexact H3
      iexists _; iexact H4
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t)).2.2.2 _ _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _)
          · unfold owns; iexists _; isplitr
            swap; · iexact HS2
            ipureintro; exact View.read_writes_of_cover _ _ _ _ _ (scover0_A_2 c _ _ _ _ _ _ _ _ _ _ _ _ _ _ _ _ _ _ _ _ _)
        iexact Hg
      isplitl [Ho]; · iexact Ho
      isplitl [H0]; · iexact H0
      isplitl [H1]; · iexact H1
      isplitl [H2]; · iexists _; iexact H2
      isplitl [H3]; · iexists _; iexact H3
      iexists _; iexact H4
  · have h1 : t.val % 2 = 1 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2_B t (fun h => h0 ((hcond0_0 t).mp h)) ((hcond0_1 t).mpr h1)], after0_2]
    rw [show (dats m 0 c).leavesExact 3 t = owns (c : Thread nD τ) (ms0_3 t) fullShare ((dats m 0 c).after 3 t) from by
      unfold Dat.leavesExact; rw [liveAt0_3_B t (fun h => h0 ((hcond0_0 t).mp h)) ((hcond0_1 t).mpr h1)], after0_3]
    rw [show (dats m 0 c).leavesExact 4 t = owns (c : Thread nD τ) (ms0_4 t) fullShare ((dats m 0 c).after 4 t) from by
      unfold Dat.leavesExact; rw [liveAt0_4_B t (fun h => h0 ((hcond0_0 t).mp h)) ((hcond0_1 t).mpr h1)], after0_4]
    rw [outsAt0_B m c t h0 h1]
    unfold out0_B_2 out0_B_3 out0_B_4 sout0_B_0 sout0_B_1 sout0_B_2; (try dsimp only)
    have hz : t.val ≠ 0 := by omega
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ _ _ (fun h => h0 ((hcond0_0 t).mp h)) ((hcond0_1 t).mpr h1) (iblk m c 0 t) (iblk m c 1 t) _ _ _).2.2.2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    iintro ⟨H0, H1, ⟨%e2, H2⟩, ⟨%e3, H3⟩, ⟨%e4, H4⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _ _)
        · unfold owns; iexists _; isplitr
          swap; · iexact HS2
          ipureintro; exact View.read_writes_of_cover _ _ _ _ _ (scover0_B_2 c _ _ _ _ _ _ _ _ _ _ _ _ _ _ _ _ _ _ _ _ _ _ _ _)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- From any memory with zero counters every weakly fair execution of @main on the TensorCores terminates, and every
    final state has every array of the pipeline at what the library computes from the proof data and every other
    unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's statement at any float instance: @main runs to the end, faults nowhere, and leaves its four
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.KIKit.lean ====
/-
  The kernel's @main around its one region: what the core's buffers hold when the region is entered (the host lines
  before it applied to the launch contents), that the lines after it touch only arrays and bypassing buffers and write
  no array of the pipeline, that no line writes an argument, the windows' blocks, the body's two branch conditions
  (first channel tile / last channel tile) decided over the 16 × 2 grid, and where the three output windows are idle:
  at the first tile of each batch nothing is stored into them and nothing is written back.
-/
import proofs.«174415_j49692771615067_2_alg».proof.Proof.Gen.KernelIdeal.Launch
import proofs.«174415_j49692771615067_2_alg».proof.Proof.Gen.KernelIdeal.Skeleton
import proofs.«174415_j49692771615067_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the host lines before it applied to the launch contents. -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host line after the region writes argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes argument 3, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post read at the four
    argument arrays — the logits, which window 0 stages, by the library's reading of an input's array; the three
    arguments no window stages by the post's clause for the other buffers — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c))⟩) h

/-! ## The body's branch conditions -/

/-- The body's first branch: this is the first channel tile of its batch (grid coordinate 1 is 0). -/
abbrev cond0_0 (i : grid0.Coords) : Prop := (Scalar.cmpi .ne (Scalar.extui (Scalar.cmpi .eq (BitVec.ofNat 32 (i 1).val) 0#32)) 0#32) = 1#1
/-- It holds at the even points of the row-major 16 × 2 grid. -/
theorem hcond0_0 : ∀ t : Fin cfg0.N, cond0_0 (grid0.coords t) ↔ t.val % 2 = 0 :=
  (by decide +kernel : ∀ t : Fin grid0.N, cond0_0 (grid0.coords t) ↔ t.val % 2 = 0)
/-- The body's second branch: this is the last channel tile of its batch (grid coordinate 1 is 1). -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a first tile the three output windows are idle and are not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- At a last tile they are live: the body stores into each. -/
theorem liveAt0_2_B : ∀ t : Fin cfg0.N, ¬cond0_0 (grid0.coords t) → cond0_1 (grid0.coords t) → cfg0.idle 2 (grid0.coords t) = false := by decide +kernel
theorem liveAt0_3_B : ∀ t : Fin cfg0.N, ¬cond0_0 (grid0.coords t) → cond0_1 (grid0.coords t) → cfg0.idle 3 (grid0.coords t) = false := by decide +kernel
theorem liveAt0_4_B : ∀ t : Fin cfg0.N, ¬cond0_0 (grid0.coords t) → cond0_1 (grid0.coords t) → cfg0.idle 4 (grid0.coords t) = false := by decide +kernel

/-! ## The memrefs the body is called with -/

/-- One staging buffer of each output window, through which its contents are stated. -/
abbrev VO0_2 : View sig .tc .vmem S1x1x128 .f32 := (Memref.whole cc0_stg2_0 : Memref sig .tc .vmem S1x1x128 .f32).view
abbrev VO0_3 : View sig .tc .vmem S1x1x128 .f32 := (Memref.whole cc0_stg3_0 : Memref sig .tc .vmem S1x1x128 .f32).view
abbrev VO0_4 : View sig .tc .vmem S1x1x128 .f32 := (Memref.whole cc0_stg4_0 : Memref sig .tc .vmem S1x1x128 .f32).view
/-- Each window's current staging memref at point `t`, as the pipeline passes it, and its wholeness. -/
abbrev ms0_0 (t : Fin cfg0.N) : Memref sig .tc .vmem S1x40x160x160 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x40x160x160 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
/-- The three accumulators: whole scoped buffers of the kernel's own, carried from a batch's first tile to its last. -/
abbrev scM0_0 : Memref sig .tc .vmem S1x1x128 .f32 := Memref.whole cc0_scratch0
abbrev scM0_1 : Memref sig .tc .vmem S1x1x128 .f32 := Memref.whole cc0_scratch1
abbrev scM0_2 : Memref sig .tc .vmem S1x1x128 .f32 := Memref.whole cc0_scratch2
abbrev VS0_0 : View sig .tc .vmem S1x1x128 .f32 := scM0_0.view
abbrev VS0_1 : View sig .tc .vmem S1x1x128 .f32 := scM0_1.view
abbrev VS0_2 : View sig .tc .vmem S1x1x128 .f32 := scM0_2.view

/-- The region's invariant with the three accumulators as memrefs owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Fr

end
-- ==== Proof.KIKeeps.lean ====
/-
  No host line after the region writes an array of the pipeline (the logits, the scatter target, the kernel's three
  results): each line writes only its own result buffer, which is none of these.
-/
import proofs.«174415_j49692771615067_2_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps1_writes_ne_arg0 : (hostOps1 : List (HloOp τ sig (Elt F))).Forall fun op =>
    Proc.devRef .tc main_arg0 ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem hostOps1_writes_ne_v56 : (hostOps1 : List (HloOp τ sig (Elt F))).Forall fun op =>
    Proc.devRef .tc main_v56 ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem hostOps1_writes_ne_v57_0 : (hostOps1 : List (HloOp τ sig (Elt F))).Forall fun op =>
    Proc.devRef .tc main_v57_0 ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem hostOps1_writes_ne_v57_1 : (hostOps1 : List (HloOp τ sig (Elt F))).Forall fun op =>
    Proc.devRef .tc main_v57_1 ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem hostOps1_writes_ne_v57_2 : (hostOps1 : List (HloOp τ sig (Elt F))).Forall fun op =>
    Proc.devRef .tc main_v57_2 ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem hostOps1_keeps (w : Fin 5) : (hostOps1 : List (HloOp τ sig (Elt F))).Forall fun op =>
    Proc.devRef .tc (Pipeline.arrRef spec0 w) ∉ op.writes := by
  fin_cases w
  · exact hostOps1_writes_ne_arg0
  · exact hostOps1_writes_ne_v56
  · exact hostOps1_writes_ne_v57_0
  · exact hostOps1_writes_ne_v57_1
  · exact hostOps1_writes_ne_v57_2

theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  · exact (List.forall_iff_forall_mem.mp (hostOps1_keeps w)) op hop

end Cert.KernelIdeal.Fr

end
-- ==== Proof.KIRunA.lean ====
/-
  The kernel body at a FIRST channel tile of a batch (first branch taken, second not): on whole staging memrefs — the
  two inputs' at their blocks, the three output windows' at contents handed back untouched (nothing is stored into them
  here), the three accumulators at anything — the body runs to the continuation with the inputs as they were and each
  accumulator holding the pieces its two stores wrote (the zero fill, then zero plus this tile's sum). The pieces are
  found by running the body's skeleton symbolically.
-/
import proofs.«174415_j49692771615067_2_alg».proof.Proof.KIKeeps

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i)
    (x0 : Vec F S1x40x160x160 .f32) (x1 : Vec F S1x40x160x160 .f32) :
    Σ' (LS0 : List (View.Piece (Elt F) S1x1x128 .f32)) (LS1 : List (View.Piece (Elt F) S1x1x128 .f32)), { LS2 : List (View.Piece (Elt F) S1x1x128 .f32) //
      ∀ (xi2 xi3 xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__bce_reduce_kernel i arg2 harg2 arg3 harg3 arg4 harg4 arg5 harg5 arg6 harg6 arg7 harg7 arg8 harg8 arg9 harg9) K } := by
  refine ⟨?_, ?_, ?_, fun xi2 xi3 xi4 E K => ?run⟩
  case run =>
    simp only [cc0__bce_reduce_kernel_eq_skeleton]; unfold cc0__bce_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Fr

end
-- ==== Proof.KIRunB.lean ====
/-
  The kernel body at a LAST channel tile of a batch (first branch not taken, second taken): on whole staging memrefs —
  the two inputs' at their blocks, the three output windows' at anything, the three accumulators at what the tile before
  left — the body runs to the continuation with the inputs as they were, each accumulator holding the piece its store
  wrote (what it held plus this tile's sum) and each output's buffer the piece copied out of its accumulator.
-/
import proofs.«174415_j49692771615067_2_alg».proof.Proof.KIRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 : Vec F S1x40x160x160 .f32) (x1 : Vec F S1x40x160x160 .f32) (xs0 xs1 xs2 : Vec F S1x1x128 .f32) :
    Σ' (L2 : List (View.Piece (Elt F) S1x1x128 .f32)) (L3 : List (View.Piece (Elt F) S1x1x128 .f32)) (L4 : List (View.Piece (Elt F) S1x1x128 .f32)) (LS0 : List (View.Piece (Elt F) S1x1x128 .f32)) (LS1 : List (View.Piece (Elt F) S1x1x128 .f32)), { LS2 : List (View.Piece (Elt F) S1x1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__bce_reduce_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__bce_reduce_kernel_eq_skeleton]; unfold cc0__bce_reduce_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.KernelIdeal.Fr

end
-- ==== Proof.KIFrame.lean ====
/-
  The frame of the kernel program: what the three accumulators and the three output windows' staging buffers hold after
  the body at each of the 32 grid points (at a batch's first tile the accumulators are zero plus that tile's sums; at its
  last tile they are what the first left plus this tile's sums, and each output's buffer is a copy of its accumulator),
  the region's invariant carrying the accumulators from one point to the next, the proof data, the body obligation at
  every point, and the run of @main: it terminates, nothing faults, every array of the pipeline ends at what the proof
  data computes and every other buffer as the lines after the region leave it.
-/
import proofs.«174415_j49692771615067_2_alg».proof.Proof.KIRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A placeholder for an output window's buffer at a first tile, where nothing is stored into it, it is not written
    back, and nothing reads it at the next point. -/
def idleOut : Vec F S1x1x128 .f32 := VO0_2.read (Elt F) VO0_2.junk

/-- A first tile's pieces for accumulator 0 (the zero fill, then the sum added) cover it. -/
theorem scover0_A_0 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i)
    (x0 x1 : Vec F S1x40x160x160 .f32) (y : S1x1x128.Idx) :
    ∃ pc ∈ (kernelRun0_A c i arg2 harg2 arg3 harg3 arg4 harg4 arg5 harg5 arg6 harg6 arg7 harg7 arg8 harg8 arg9 harg9 hc0 hc1 x0 x1).1, y ∈ pc.1.set :=
  View.cover_of_tiledL (kernelRun0_A c i arg2 harg2 arg3 harg3 arg4 harg4 arg5 harg5 arg6 harg6 arg7 harg7 arg8 harg8 arg9 harg9 hc0 hc1 x0 x1).1 S1x1x128.size (by sl_kernel_rfl) y
/-- What a first tile leaves in accumulator 0: its pieces read back. -/
def sout0_A_0 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i)
    (x0 x1 : Vec F S1x40x160x160 .f32) : Vec F S1x1x128 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1).1)

/-- A first tile's pieces for accumulator 1 (the zero fill, then the sum added) cover it. -/
theorem scover0_A_1 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i)
    (x0 x1 : Vec F S1x40x160x160 .f32) (y : S1x1x128.Idx) :
    ∃ pc ∈ (kernelRun0_A c i arg2 harg2 arg3 harg3 arg4 harg4 arg5 harg5 arg6 harg6 arg7 harg7 arg8 harg8 arg9 harg9 hc0 hc1 x0 x1).2.1, y ∈ pc.1.set :=
  View.cover_of_tiledL (kernelRun0_A c i arg2 harg2 arg3 harg3 arg4 harg4 arg5 harg5 arg6 harg6 arg7 harg7 arg8 harg8 arg9 harg9 hc0 hc1 x0 x1).2.1 S1x1x128.size (by sl_kernel_rfl) y
/-- What a first tile leaves in accumulator 1: its pieces read back. -/
def sout0_A_1 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i)
    (x0 x1 : Vec F S1x40x160x160 .f32) : Vec F S1x1x128 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1).2.1)

/-- A first tile's pieces for accumulator 2 (the zero fill, then the sum added) cover it. -/
theorem scover0_A_2 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i)
    (x0 x1 : Vec F S1x40x160x160 .f32) (y : S1x1x128.Idx) :
    ∃ pc ∈ (kernelRun0_A c i arg2 harg2 arg3 harg3 arg4 harg4 arg5 harg5 arg6 harg6 arg7 harg7 arg8 harg8 arg9 harg9 hc0 hc1 x0 x1).2.2.1, y ∈ pc.1.set :=
  View.cover_of_tiledL (kernelRun0_A c i arg2 harg2 arg3 harg3 arg4 harg4 arg5 harg5 arg6 harg6 arg7 harg7 arg8 harg8 arg9 harg9 hc0 hc1 x0 x1).2.2.1 S1x1x128.size (by sl_kernel_rfl) y
/-- What a first tile leaves in accumulator 2: its pieces read back. -/
def sout0_A_2 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i)
    (x0 x1 : Vec F S1x40x160x160 .f32) : Vec F S1x1x128 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1).2.2.1)

/-- A last tile's piece for output window 2 covers its block. -/
theorem cover0_B_2 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) (y : S1x1x128.Idx) :
    ∃ pc ∈ (kernelRun0_B c i arg2 harg2 arg3 harg3 arg4 harg4 arg5 harg5 arg6 harg6 arg7 harg7 arg8 harg8 arg9 harg9 hc0 hc1 x0 x1 xs0 xs1 xs2).1, y ∈ pc.1.set :=
  View.cover_of_tiledL (kernelRun0_B c i arg2 harg2 arg3 harg3 arg4 harg4 arg5 harg5 arg6 harg6 arg7 harg7 arg8 harg8 arg9 harg9 hc0 hc1 x0 x1 xs0 xs1 xs2).1 S1x1x128.size (by sl_kernel_rfl) y
/-- What a last tile leaves in output window 2's staging buffer: its piece read back. -/
def out0_B_2 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) : Vec F S1x1x128 .f32 :=
  VO0_2.read (Elt F) (VO0_2.writes (Elt F) VO0_2.junk (kernelRun0_B c i arg2 harg2 arg3 harg3 arg4 harg4 arg5 harg5 arg6 harg6 arg7 harg7 arg8 harg8 arg9 harg9 hc0 hc1 x0 x1 xs0 xs1 xs2).1)

/-- A last tile's piece for output window 3 covers its block. -/
theorem cover0_B_3 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) (y : S1x1x128.Idx) :
    ∃ pc ∈ (kernelRun0_B c i arg2 harg2 arg3 harg3 arg4 harg4 arg5 harg5 arg6 harg6 arg7 harg7 arg8 harg8 arg9 harg9 hc0 hc1 x0 x1 xs0 xs1 xs2).2.1, y ∈ pc.1.set :=
  View.cover_of_tiledL (kernelRun0_B c i arg2 harg2 arg3 harg3 arg4 harg4 arg5 harg5 arg6 harg6 arg7 harg7 arg8 harg8 arg9 harg9 hc0 hc1 x0 x1 xs0 xs1 xs2).2.1 S1x1x128.size (by sl_kernel_rfl) y
/-- What a last tile leaves in output window 3's staging buffer: its piece read back. -/
def out0_B_3 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) : Vec F S1x1x128 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 xs0 xs1 xs2).2.1)

/-- A last tile's piece for output window 4 covers its block. -/
theorem cover0_B_4 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) (y : S1x1x128.Idx) :
    ∃ pc ∈ (kernelRun0_B c i arg2 harg2 arg3 harg3 arg4 harg4 arg5 harg5 arg6 harg6 arg7 harg7 arg8 harg8 arg9 harg9 hc0 hc1 x0 x1 xs0 xs1 xs2).2.2.1, y ∈ pc.1.set :=
  View.cover_of_tiledL (kernelRun0_B c i arg2 harg2 arg3 harg3 arg4 harg4 arg5 harg5 arg6 harg6 arg7 harg7 arg8 harg8 arg9 harg9 hc0 hc1 x0 x1 xs0 xs1 xs2).2.2.1 S1x1x128.size (by sl_kernel_rfl) y
/-- What a last tile leaves in output window 4's staging buffer: its piece read back. -/
def out0_B_4 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) : Vec F S1x1x128 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 xs0 xs1 xs2).2.2.1)

/-- A last tile's piece for accumulator 0 covers it. -/
theorem scover0_B_0 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) (y : S1x1x128.Idx) :
    ∃ pc ∈ (kernelRun0_B c i arg2 harg2 arg3 harg3 arg4 harg4 arg5 harg5 arg6 harg6 arg7 harg7 arg8 harg8 arg9 harg9 hc0 hc1 x0 x1 xs0 xs1 xs2).2.2.2.1, y ∈ pc.1.set :=
  View.cover_of_tiledL (kernelRun0_B c i arg2 harg2 arg3 harg3 arg4 harg4 arg5 harg5 arg6 harg6 arg7 harg7 arg8 harg8 arg9 harg9 hc0 hc1 x0 x1 xs0 xs1 xs2).2.2.2.1 S1x1x128.size (by sl_kernel_rfl) y
/-- What a last tile leaves in accumulator 0: its piece read back. -/
def sout0_B_0 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) : Vec F S1x1x128 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 xs0 xs1 xs2).2.2.2.1)

/-- A last tile's piece for accumulator 1 covers it. -/
theorem scover0_B_1 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) (y : S1x1x128.Idx) :
    ∃ pc ∈ (kernelRun0_B c i arg2 harg2 arg3 harg3 arg4 harg4 arg5 harg5 arg6 harg6 arg7 harg7 arg8 harg8 arg9 harg9 hc0 hc1 x0 x1 xs0 xs1 xs2).2.2.2.2.1, y ∈ pc.1.set :=
  View.cover_of_tiledL (kernelRun0_B c i arg2 harg2 arg3 harg3 arg4 harg4 arg5 harg5 arg6 harg6 arg7 harg7 arg8 harg8 arg9 harg9 hc0 hc1 x0 x1 xs0 xs1 xs2).2.2.2.2.1 S1x1x128.size (by sl_kernel_rfl) y
/-- What a last tile leaves in accumulator 1: its piece read back. -/
def sout0_B_1 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) : Vec F S1x1x128 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 xs0 xs1 xs2).2.2.2.2.1)

/-- A last tile's piece for accumulator 2 covers it. -/
theorem scover0_B_2 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) (y : S1x1x128.Idx) :
    ∃ pc ∈ (kernelRun0_B c i arg2 harg2 arg3 harg3 arg4 harg4 arg5 harg5 arg6 harg6 arg7 harg7 arg8 harg8 arg9 harg9 hc0 hc1 x0 x1 xs0 xs1 xs2).2.2.2.2.2.1, y ∈ pc.1.set :=
  View.cover_of_tiledL (kernelRun0_B c i arg2 harg2 arg3 harg3 arg4 harg4 arg5 harg5 arg6 harg6 arg7 harg7 arg8 harg8 arg9 harg9 hc0 hc1 x0 x1 xs0 xs1 xs2).2.2.2.2.2.1 S1x1x128.size (by sl_kernel_rfl) y
/-- What a last tile leaves in accumulator 2: its piece read back. -/
def sout0_B_2 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i)
    (x0 x1 : Vec F S1x40x160x160 .f32) (xs0 xs1 xs2 : Vec F S1x1x128 .f32) : Vec F S1x1x128 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 xs0 xs1 xs2).2.2.2.2.2.1)

/-! ## What the outputs and the accumulators hold after each point -/

/-- After the body at position `n`: the three outputs' staging buffers, then the three accumulators. An even position
    is a batch's first tile; an odd one its last, run over what the position before left in the accumulators. -/
def outsAt0 (c : Dev nD) : (n : ℕ) → n < cfg0.N → (Vec F S1x1x128 .f32 × Vec F S1x1x128 .f32 × Vec F S1x1x128 .f32) × (Vec F S1x1x128 .f32 × Vec F S1x1x128 .f32 × Vec F S1x1x128 .f32)
  | 0, hn => ((idleOut, idleOut, idleOut), (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩)))
  | n + 1, hn =>
    if h0 : (n + 1) % 2 = 0 then
      ((idleOut, idleOut, idleOut), (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩)))
    else
      ((out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (by (try dsimp only); omega)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (by (try dsimp only); omega)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (by (try dsimp only); omega)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2), (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (by (try dsimp only); omega)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (by (try dsimp only); omega)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (by (try dsimp only); omega)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2))

/-- `outsAt0` at a first tile. -/
theorem outsAt0_A (c : Dev nD) (t : Fin cfg0.N) (h0 : t.val % 2 = 0) (h1 : ¬t.val % 2 = 1) :
    outsAt0 m c t.val t.isLt = ((idleOut, idleOut, idleOut), (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t))) := by
  obtain ⟨n, hn⟩ := t
  cases n with
  | zero => exact rfl
  | succ n => exact (dif_pos h0).trans rfl

/-- `outsAt0` at a last tile: over what the point before left. -/
theorem outsAt0_B (c : Dev nD) (t : Fin cfg0.N) (h0 : ¬t.val % 2 = 0) (h1 : t.val % 2 = 1) :
    outsAt0 m c t.val t.isLt = ((out0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2), (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)) := by
  obtain ⟨n, hn⟩ := t
  cases n with
  | zero => exact (by exfalso; (try dsimp only at h0); exact absurd (Nat.zero_mod _) h0)
  | succ n => exact (dif_neg h0).trans rfl

/-- The region's invariant before position `n`: before the first point the class's own (every accumulator at anything);
    afterwards each accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data on core `c`: the arrays as the region finds them; after the body at point `t` each input's buffer at
    its block and each output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1.1
    | ⟨3, _⟩ => (outsAt0 m c t.val t.isLt).1.2.1
    | ⟨4, _⟩ => (outsAt0 m c t.val t.isLt).1.2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1.1 := by dsimp only [dats]
theorem after0_3 (c : Dev nD) (t : Fin cfg0.N) : (dats m 0 c).after 3 t = (outsAt0 m c t.val t.isLt).1.2.1 := by dsimp only [dats]
theorem after0_4 (c : Dev nD) (t : Fin cfg0.N) : (dats m 0 c).after 4 t = (outsAt0 m c t.val t.isLt).1.2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t ∗ (dats m 0 c).leavesExact 4 t)

set_option maxHeartbeats 4800000 in
/-- The body at any point: the inputs' memrefs hold their blocks; the parity of the point says which branch it takes; the
    invariant hands the body the accumulators (at anything at a first tile, at what the first tile left at a last one)
    and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 2 = 0
  · have h1 : ¬t.val % 2 = 1 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
    rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
    rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
    rw [outsAt0_A m c t h0 h1]
    unfold sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t)).2.2.2 _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _)
          · unfold owns; iexists _; isplitr
            swap; · iexact HS2
            ipureintro; exact View.read_writes_of_cover _ _ _ _ _ (scover0_A_2 c _ _ _ _ _ _ _ _ _ _ _ _ _ _ _ _ _ _ _ _ _)
        iexact Hg
      isplitl [Ho]; · iexact Ho
      isplitl [H0]; · iexact H0
      isplitl [H1]; · iexact H1
      isplitl [H2]; · iexists _; iexact H2
      isplitl [H3]; · iexists _; iexact H3
      iexists _; iexact H4
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t)).2.2.2 _ _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _)
          · unfold owns; iexists _; isplitr
            swap; · iexact HS2
            ipureintro; exact View.read_writes_of_cover _ _ _ _ _ (scover0_A_2 c _ _ _ _ _ _ _ _ _ _ _ _ _ _ _ _ _ _ _ _ _)
        iexact Hg
      isplitl [Ho]; · iexact Ho
      isplitl [H0]; · iexact H0
      isplitl [H1]; · iexact H1
      isplitl [H2]; · iexists _; iexact H2
      isplitl [H3]; · iexists _; iexact H3
      iexists _; iexact H4
  · have h1 : t.val % 2 = 1 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2_B t (fun h => h0 ((hcond0_0 t).mp h)) ((hcond0_1 t).mpr h1)], after0_2]
    rw [show (dats m 0 c).leavesExact 3 t = owns (c : Thread nD τ) (ms0_3 t) fullShare ((dats m 0 c).after 3 t) from by
      unfold Dat.leavesExact; rw [liveAt0_3_B t (fun h => h0 ((hcond0_0 t).mp h)) ((hcond0_1 t).mpr h1)], after0_3]
    rw [show (dats m 0 c).leavesExact 4 t = owns (c : Thread nD τ) (ms0_4 t) fullShare ((dats m 0 c).after 4 t) from by
      unfold Dat.leavesExact; rw [liveAt0_4_B t (fun h => h0 ((hcond0_0 t).mp h)) ((hcond0_1 t).mpr h1)], after0_4]
    rw [outsAt0_B m c t h0 h1]
    unfold out0_B_2 out0_B_3 out0_B_4 sout0_B_0 sout0_B_1 sout0_B_2; (try dsimp only)
    have hz : t.val ≠ 0 := by omega
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ _ _ (fun h => h0 ((hcond0_0 t).mp h)) ((hcond0_1 t).mpr h1) (iblk m c 0 t) (iblk m c 1 t) _ _ _).2.2.2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    iintro ⟨H0, H1, ⟨%e2, H2⟩, ⟨%e3, H3⟩, ⟨%e4, H4⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _ _)
        · unfold owns; iexists _; isplitr
          swap; · iexact HS2
          ipureintro; exact View.read_writes_of_cover _ _ _ _ _ (scover0_B_2 c _ _ _ _ _ _ _ _ _ _ _ _ _ _ _ _ _ _ _ _ _ _ _ _)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- From any memory with zero counters every weakly fair execution of @main on the TensorCores terminates, and every
    final state has every array of the pipeline at what the library computes from the proof data and every other
    unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's statement at any float instance: @main runs to the end, faults nowhere, and leaves its four
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.KPaySums.lean ====
import proofs.«174415_j49692771615067_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-! The kernel body's payloads read at the extended reals as nested sums.

Per grid step the body loads a `[1, 40, 160, 160]` block of logits and one of targets, forms the
element-wise loss `k0_pay8`, and reduces three arrays — loss times target, loss, target — to one
number each by three successive sums over axis 1: over the 40 channels, then over the 160 rows,
then over the 160 columns. Read outermost first, each result is `∑ w, ∑ h, ∑ c` of the summand at
`(0, c, h, w)`; the zero accumulator of each reduction contributes nothing. The running totals are
`[1, 1, 128]` vectors: the step's number is broadcast along the 128 lanes and added, and the first
step starts them from the zero splat. -/

noncomputable section
namespace Cert.KPay
open Idealize.ShloMosaic Idealize.ShloMosaic.ValueIdx Cert.KernelIdeal Cert.KernelIdeal.Gen

/-! ## The index inserted by each one-axis reduction -/

/-- Over `(0, h, w)` of the `[1, 160, 160]` result, channel `c` of the source is `(0, c, h, w)`. -/
theorem lift_chan (r : S1x40x160x160.Reduces [1] S1x160x160) (h w : Fin 160) (c : Fin 40) :
    r.lift (ix3 (0 : Fin 1) h w) c = ix4 (0 : Fin 1) c h w := by
  funext a
  match a with
  | ⟨0, _⟩ => rfl
  | ⟨1, _⟩ => rfl
  | ⟨2, _⟩ => rfl
  | ⟨3, _⟩ => rfl

/-- Over `(0, w)` of the `[1, 160]` result, row `h` of the source is `(0, h, w)`. -/
theorem lift_row (r : S1x160x160.Reduces [1] S1x160) (w : Fin 160) (h : Fin 160) :
    r.lift (ix2 (0 : Fin 1) w) h = ix3 (0 : Fin 1) h w := by
  funext a
  match a with
  | ⟨0, _⟩ => rfl
  | ⟨1, _⟩ => rfl
  | ⟨2, _⟩ => rfl

/-- Over `(0)` of the `[1]` result, column `w` of the source is `(0, w)`. -/
theorem lift_col (r : S1x160.Reduces [1] S1) (w : Fin 160) :
    r.lift (ix1 (0 : Fin 1)) w = ix2 (0 : Fin 1) w := by
  funext a
  match a with
  | ⟨0, _⟩ => rfl
  | ⟨1, _⟩ => rfl

/-! ## The three reductions and the cast, at an index -/

/-- The sum over the channels, at `(0, h, w)`. -/
theorem sum_chan (x : FVec Ideal S1x40x160x160 .f32) (r : S1x40x160x160.Reduces [1] S1x160x160)
    (hφ : FKind.Formats .f32) (hacc : (0x00000000#32 : BitVec 32) = FKind.add.neutral .f32 hφ) (h w : Fin 160) :
    multiReduction .add [1] S1x160x160 x 0x00000000#32 r hφ hacc (ix3 (0 : Fin 1) h w)
      = ∑ c : Fin 40, x (ix4 (0 : Fin 1) c h w) :=
  (Ideal.multiReduction_add_single x _ r hφ hacc (ix3 (0 : Fin 1) h w)).trans
    (Finset.sum_congr rfl fun c _ => congrArg x (lift_chan r h w c))

/-- The sum over the rows, at `(0, w)`. -/
theorem sum_row (x : FVec Ideal S1x160x160 .f32) (r : S1x160x160.Reduces [1] S1x160)
    (hφ : FKind.Formats .f32) (hacc : (0x00000000#32 : BitVec 32) = FKind.add.neutral .f32 hφ) (w : Fin 160) :
    multiReduction .add [1] S1x160 x 0x00000000#32 r hφ hacc (ix2 (0 : Fin 1) w)
      = ∑ h : Fin 160, x (ix3 (0 : Fin 1) h w) :=
  (Ideal.multiReduction_add_single x _ r hφ hacc (ix2 (0 : Fin 1) w)).trans
    (Finset.sum_congr rfl fun h _ => congrArg x (lift_row r w h))

/-- The sum over the columns, at `(0)`. -/
theorem sum_col (x : FVec Ideal S1x160 .f32) (r : S1x160.Reduces [1] S1)
    (hφ : FKind.Formats .f32) (hacc : (0x00000000#32 : BitVec 32) = FKind.add.neutral .f32 hφ) :
    multiReduction .add [1] S1 x 0x00000000#32 r hφ hacc (ix1 (0 : Fin 1))
      = ∑ w : Fin 160, x (ix2 (0 : Fin 1) w) :=
  (Ideal.multiReduction_add_single x _ r hφ hacc (ix1 (0 : Fin 1))).trans
    (Finset.sum_congr rfl fun w _ => congrArg x (lift_col r w))

/-- The three reductions in turn and the cast of the one number to `[1, 1]`: the triple sum. -/
theorem sum_all (x : FVec Ideal S1x40x160x160 .f32)
    (r1 : S1x40x160x160.Reduces [1] S1x160x160) (r2 : S1x160x160.Reduces [1] S1x160) (r3 : S1x160.Reduces [1] S1)
    (hφ : FKind.Formats .f32) (hacc : (0x00000000#32 : BitVec 32) = FKind.add.neutral .f32 hφ)
    (hc : S1.ShapeCasts S1x1) :
    shapeCast S1x1
        (multiReduction .add [1] S1
          (multiReduction .add [1] S1x160
            (multiReduction .add [1] S1x160x160 x 0x00000000#32 r1 hφ hacc)
            0x00000000#32 r2 hφ hacc)
          0x00000000#32 r3 hφ hacc)
        hc (ix2 (0 : Fin 1) (0 : Fin 1))
      = ∑ w : Fin 160, ∑ h : Fin 160, ∑ c : Fin 40, x (ix4 (0 : Fin 1) c h w) :=
  (shapeCast_a_1a_apply _ hc (0 : Fin 1) (0 : Fin 1)).trans <|
    (sum_col _ r3 hφ hacc).trans <| Finset.sum_congr rfl fun w _ =>
      (sum_row _ r2 hφ hacc w).trans <| Finset.sum_congr rfl fun h _ =>
        sum_chan x r1 hφ hacc h w

/-! ## The three per-step numbers -/

/-- The target block through the cast to its own shape is itself. -/
theorem k0_pay7_eq (v4 : Vec Ideal S1x40x160x160 .f32) : k0_pay7 (F := Ideal) v4 = v4 :=
  shapeCast_self v4 _

/-- The step's sum of loss times target. -/
theorem k0_pay9_eq (v3 v4 : Vec Ideal S1x40x160x160 .f32) :
    k0_pay9 (F := Ideal) v3 v4 (ix2 (0 : Fin 1) (0 : Fin 1))
      = ∑ w : Fin 160, ∑ h : Fin 160, ∑ c : Fin 40,
          (k0_pay8 (F := Ideal) v3 v4 (ix4 (0 : Fin 1) c h w) * v4 (ix4 (0 : Fin 1) c h w)) :=
  (sum_all (mulf (k0_pay8 (F := Ideal) v3 v4) (k0_pay7 (F := Ideal) v4)) _ _ _ (.inl rfl) rfl _).trans <|
    Finset.sum_congr rfl fun w _ => Finset.sum_congr rfl fun h _ => Finset.sum_congr rfl fun c _ =>
      congrArg (fun t : FVec Ideal S1x40x160x160 .f32 =>
        k0_pay8 (F := Ideal) v3 v4 (ix4 (0 : Fin 1) c h w) * t (ix4 (0 : Fin 1) c h w)) (k0_pay7_eq v4)

/-- The step's sum of the loss. -/
theorem k0_pay10_eq (v3 v4 : Vec Ideal S1x40x160x160 .f32) :
    k0_pay10 (F := Ideal) v3 v4 (ix2 (0 : Fin 1) (0 : Fin 1))
      = ∑ w : Fin 160, ∑ h : Fin 160, ∑ c : Fin 40, k0_pay8 (F := Ideal) v3 v4 (ix4 (0 : Fin 1) c h w) :=
  sum_all (k0_pay8 (F := Ideal) v3 v4) _ _ _ (.inl rfl) rfl _

/-- The step's sum of the target. -/
theorem k0_pay11_eq (v4 : Vec Ideal S1x40x160x160 .f32) :
    k0_pay11 (F := Ideal) v4 (ix2 (0 : Fin 1) (0 : Fin 1))
      = ∑ w : Fin 160, ∑ h : Fin 160, ∑ c : Fin 40, v4 (ix4 (0 : Fin 1) c h w) :=
  (sum_all (k0_pay7 (F := Ideal) v4) _ _ _ (.inl rfl) rfl _).trans <|
    Finset.sum_congr rfl fun w _ => Finset.sum_congr rfl fun h _ => Finset.sum_congr rfl fun c _ =>
      congrFun (k0_pay7_eq v4) _

/-! ## The running totals -/

/-- The step's `[1, 1]` number viewed `[1, 1, 1]` and broadcast along the 128 lanes reads, at every
    lane, that number. -/
theorem lanes_apply (v : FVec Ideal S1x1 .f32) (hc : S1x1.ShapeCasts S1x1x1) (hc' : S1x1x1.ShapeCasts S1x1x1)
    (hb : S1x1x1.Broadcasts S1x1x128) (l : Fin 128) :
    broadcastTo S1x1x128 (shapeCast S1x1x1 (shapeCast S1x1x1 v hc) hc') hb (ix3 (0 : Fin 1) (0 : Fin 1) l)
      = v (ix2 (0 : Fin 1) (0 : Fin 1)) := by
  refine (broadcastTo_apply _ hb (ix3 (0 : Fin 1) (0 : Fin 1) l) (ix3 (0 : Fin 1) (0 : Fin 1) (0 : Fin 1)) fun a => ?_).trans ?_
  · match a with
    | ⟨0, _⟩ => rfl
    | ⟨1, _⟩ => rfl
    | ⟨2, _⟩ => rfl
  · rw [shapeCast_self]
    exact shapeCast_apply v hc _ (ix2 (0 : Fin 1) (0 : Fin 1)) rfl

/-- The first running total after a step: what it held plus the step's number, at every lane. -/
theorem k0_pay1_eq (v26 : FVec Ideal S1x1 .f32) (v35 : Vec Ideal S1x1x128 .f32) (l : Fin 128) :
    k0_pay1 (F := Ideal) v26 v35 (ix3 (0 : Fin 1) (0 : Fin 1) l)
      = v35 (ix3 (0 : Fin 1) (0 : Fin 1) l) + v26 (ix2 (0 : Fin 1) (0 : Fin 1)) := by
  unfold k0_pay1
  rw [shapeCast_self]
  exact congrArg (v35 (ix3 (0 : Fin 1) (0 : Fin 1) l) + ·) (lanes_apply v26 _ _ _ l)

/-- The second running total after a step. -/
theorem k0_pay2_eq (v30 : FVec Ideal S1x1 .f32) (v43 : Vec Ideal S1x1x128 .f32) (l : Fin 128) :
    k0_pay2 (F := Ideal) v30 v43 (ix3 (0 : Fin 1) (0 : Fin 1) l)
      = v43 (ix3 (0 : Fin 1) (0 : Fin 1) l) + v30 (ix2 (0 : Fin 1) (0 : Fin 1)) := by
  unfold k0_pay2
  rw [shapeCast_self]
  exact congrArg (v43 (ix3 (0 : Fin 1) (0 : Fin 1) l) + ·) (lanes_apply v30 _ _ _ l)

/-- The third running total after a step. -/
theorem k0_pay3_eq (v34 : FVec Ideal S1x1 .f32) (v51 : Vec Ideal S1x1x128 .f32) (l : Fin 128) :
    k0_pay3 (F := Ideal) v34 v51 (ix3 (0 : Fin 1) (0 : Fin 1) l)
      = v51 (ix3 (0 : Fin 1) (0 : Fin 1) l) + v34 (ix2 (0 : Fin 1) (0 : Fin 1)) := by
  unfold k0_pay3
  rw [shapeCast_self]
  exact congrArg (v51 (ix3 (0 : Fin 1) (0 : Fin 1) l) + ·) (lanes_apply v34 _ _ _ l)

/-- The first running total starts from zero at every lane. -/
theorem k0_pay4_eq (l : Fin 128) : k0_pay4 (F := Ideal) (ix3 (0 : Fin 1) (0 : Fin 1) l) = 0 := by
  unfold k0_pay4
  rw [shapeCast_self]
  exact Ideal.ofBits_zero_f32

/-- The second running total starts from zero at every lane. -/
theorem k0_pay5_eq (l : Fin 128) : k0_pay5 (F := Ideal) (ix3 (0 : Fin 1) (0 : Fin 1) l) = 0 := by
  unfold k0_pay5
  rw [shapeCast_self]
  exact Ideal.ofBits_zero_f32

/-- The third running total starts from zero at every lane. -/
theorem k0_pay6_eq (l : Fin 128) : k0_pay6 (F := Ideal) (ix3 (0 : Fin 1) (0 : Fin 1) l) = 0 := by
  unfold k0_pay6
  rw [shapeCast_self]
  exact Ideal.ofBits_zero_f32

end Cert.KPay
end
-- ==== Proof.KIVal.lean ====
/-
  What the kernel body leaves, as values. At a batch's first channel tile each accumulator ends at the zero fill plus
  that tile's sum (its second store's payload, whose load reads the first store back); at the last tile at what it held
  plus this tile's sum, and each output's staging buffer holds the same value (copied out of the accumulator). Read at
  lane l of the one row of a [1,1,128] buffer, at the extended reals: after a first tile 0 + S₀, after the last tile
  (0 + S₀) + S₁, where S is the tile's triple sum over channels, rows and columns.
-/
import proofs.«174415_j49692771615067_2_alg».proof.Proof.KIFrame
import proofs.«174415_j49692771615067_2_alg».proof.Proof.KPaySums
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.Sem
open Idealize.ShloMosaic.Pipeline (Dat)

section AnyInstance
variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A first tile leaves in accumulator 0 its zero fill plus the tile's sum. -/
theorem soutA0 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i) (x0 x1 : Vec F S1x40x160x160 .f32) :
    sout0_A_0 c i arg2 harg2 arg3 harg3 arg4 harg4 arg5 harg5 arg6 harg6 arg7 harg7 arg8 harg8 arg9 harg9 hc0 hc1 x0 x1 = k0_pay1 (k0_pay9 x0 x1) (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg7.read_unread, harg8.read_unread, harg9.read_unread, View.ld_unit_zero (S := S1x40x160x160) hz4, View.ld_unit_zero (S := S1x1x128) hz3]

/-- A last tile leaves in accumulator 0 what it held plus the tile's sum. -/
theorem soutB0 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i) (x0 x1 : Vec F S1x40x160x160 .f32) (xs0 xs1 xs2 : Vec F S1x1x128 .f32) :
    sout0_B_0 c i arg2 harg2 arg3 harg3 arg4 harg4 arg5 harg5 arg6 harg6 arg7 harg7 arg8 harg8 arg9 harg9 hc0 hc1 x0 x1 xs0 xs1 xs2 = k0_pay1 (k0_pay9 x0 x1) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz3]
  simp only [View.readAt_eq_ld, harg2.read_unread, harg3.read_unread, harg7.read_unread, harg8.read_unread, harg9.read_unread, View.ld_unit_zero (S := S1x40x160x160) hz4, View.ld_unit_zero (S := S1x1x128) hz3]

/-- and in output window 2's staging buffer the same value, copied out of the accumulator. -/
theorem outB2 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i) (x0 x1 : Vec F S1x40x160x160 .f32) (xs0 xs1 xs2 : Vec F S1x1x128 .f32) :
    out0_B_2 c i arg2 harg2 arg3 harg3 arg4 harg4 arg5 harg5 arg6 harg6 arg7 harg7 arg8 harg8 arg9 harg9 hc0 hc1 x0 x1 xs0 xs1 xs2 = k0_pay1 (k0_pay9 x0 x1) xs0 := by
  unfold out0_B_2
  rw [View.read_writes_eq_canon _ _ _ (cover0_B_2 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz3, View.readCov_unit_zero (S := S1x1x128) _ hz3]
  simp only [View.readAt_eq_ld, harg2.read_unread, harg3.read_unread, harg7.read_unread, harg8.read_unread, harg9.read_unread, View.ld_unit_zero (S := S1x40x160x160) hz4, View.ld_unit_zero (S := S1x1x128) hz3]

/-- A first tile leaves in accumulator 1 its zero fill plus the tile's sum. -/
theorem soutA1 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i) (x0 x1 : Vec F S1x40x160x160 .f32) :
    sout0_A_1 c i arg2 harg2 arg3 harg3 arg4 harg4 arg5 harg5 arg6 harg6 arg7 harg7 arg8 harg8 arg9 harg9 hc0 hc1 x0 x1 = k0_pay2 (k0_pay10 x0 x1) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg7.read_unread, harg8.read_unread, harg9.read_unread, View.ld_unit_zero (S := S1x40x160x160) hz4, View.ld_unit_zero (S := S1x1x128) hz3]

/-- A last tile leaves in accumulator 1 what it held plus the tile's sum. -/
theorem soutB1 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i) (x0 x1 : Vec F S1x40x160x160 .f32) (xs0 xs1 xs2 : Vec F S1x1x128 .f32) :
    sout0_B_1 c i arg2 harg2 arg3 harg3 arg4 harg4 arg5 harg5 arg6 harg6 arg7 harg7 arg8 harg8 arg9 harg9 hc0 hc1 x0 x1 xs0 xs1 xs2 = k0_pay2 (k0_pay10 x0 x1) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz3]
  simp only [View.readAt_eq_ld, harg2.read_unread, harg3.read_unread, harg7.read_unread, harg8.read_unread, harg9.read_unread, View.ld_unit_zero (S := S1x40x160x160) hz4, View.ld_unit_zero (S := S1x1x128) hz3]

/-- and in output window 3's staging buffer the same value, copied out of the accumulator. -/
theorem outB3 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i) (x0 x1 : Vec F S1x40x160x160 .f32) (xs0 xs1 xs2 : Vec F S1x1x128 .f32) :
    out0_B_3 c i arg2 harg2 arg3 harg3 arg4 harg4 arg5 harg5 arg6 harg6 arg7 harg7 arg8 harg8 arg9 harg9 hc0 hc1 x0 x1 xs0 xs1 xs2 = k0_pay2 (k0_pay10 x0 x1) xs1 := by
  unfold out0_B_3
  rw [View.read_writes_eq_canon _ _ _ (cover0_B_3 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz3, View.readCov_unit_zero (S := S1x1x128) _ hz3]
  simp only [View.readAt_eq_ld, harg2.read_unread, harg3.read_unread, harg7.read_unread, harg8.read_unread, harg9.read_unread, View.ld_unit_zero (S := S1x40x160x160) hz4, View.ld_unit_zero (S := S1x1x128) hz3]

/-- A first tile leaves in accumulator 2 its zero fill plus the tile's sum. -/
theorem soutA2 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : cond0_0 i) (hc1 : ¬cond0_1 i) (x0 x1 : Vec F S1x40x160x160 .f32) :
    sout0_A_2 c i arg2 harg2 arg3 harg3 arg4 harg4 arg5 harg5 arg6 harg6 arg7 harg7 arg8 harg8 arg9 harg9 hc0 hc1 x0 x1 = k0_pay3 (k0_pay11 x1) (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg7.read_unread, harg8.read_unread, harg9.read_unread, View.ld_unit_zero (S := S1x40x160x160) hz4, View.ld_unit_zero (S := S1x1x128) hz3]

/-- A last tile leaves in accumulator 2 what it held plus the tile's sum. -/
theorem soutB2 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i) (x0 x1 : Vec F S1x40x160x160 .f32) (xs0 xs1 xs2 : Vec F S1x1x128 .f32) :
    sout0_B_2 c i arg2 harg2 arg3 harg3 arg4 harg4 arg5 harg5 arg6 harg6 arg7 harg7 arg8 harg8 arg9 harg9 hc0 hc1 x0 x1 xs0 xs1 xs2 = k0_pay3 (k0_pay11 x1) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz3]
  simp only [View.readAt_eq_ld, harg2.read_unread, harg3.read_unread, harg7.read_unread, harg8.read_unread, harg9.read_unread, View.ld_unit_zero (S := S1x40x160x160) hz4, View.ld_unit_zero (S := S1x1x128) hz3]

/-- and in output window 4's staging buffer the same value, copied out of the accumulator. -/
theorem outB4 (c : Dev nD) (i : grid0.Coords) (arg2 : Memref sig .tc .vmem S1x40x160x160 .f32) (harg2 : arg2.IsWhole) (arg3 : Memref sig .tc .vmem S1x40x160x160 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (hc1 : cond0_1 i) (x0 x1 : Vec F S1x40x160x160 .f32) (xs0 xs1 xs2 : Vec F S1x1x128 .f32) :
    out0_B_4 c i arg2 harg2 arg3 harg3 arg4 harg4 arg5 harg5 arg6 harg6 arg7 harg7 arg8 harg8 arg9 harg9 hc0 hc1 x0 x1 xs0 xs1 xs2 = k0_pay3 (k0_pay11 x1) xs2 := by
  unfold out0_B_4
  rw [View.read_writes_eq_canon _ _ _ (cover0_B_4 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz3, View.readCov_unit_zero (S := S1x1x128) _ hz3]
  simp only [View.readAt_eq_ld, harg2.read_unread, harg3.read_unread, harg7.read_unread, harg8.read_unread, harg9.read_unread, View.ld_unit_zero (S := S1x40x160x160) hz4, View.ld_unit_zero (S := S1x1x128) hz3]

end AnyInstance

/-! ## At the extended reals, lane by lane -/

variable (m : (ℓ : Loc nD τ sig) → Buf (Elt Ideal) ℓ)

/-- The two blocks the body loads at point `t`. -/
abbrev bx (c : Dev nD) (t : Fin cfg0.N) : Vec Ideal S1x40x160x160 .f32 := iblk m c 0 t
abbrev bt (c : Dev nD) (t : Fin cfg0.N) : Vec Ideal S1x40x160x160 .f32 := iblk m c 1 t

/-- After a first tile (an even position) accumulator 0 holds, at every lane, zero plus the tile's sum. -/
theorem acc0_even (c : Dev nD) (n : ℕ) (hn : 2 * n < cfg0.N) (l : Fin 128) :
    (outsAt0 m c (2 * n) hn).2.1 (ix3 (0 : Fin 1) (0 : Fin 1) l)
      = 0 + k0_pay9 (F := Ideal) (bx m c ⟨2 * n, hn⟩) (bt m c ⟨2 * n, hn⟩) (ix2 (0 : Fin 1) (0 : Fin 1)) := by
  have h0 : (⟨2 * n, hn⟩ : Fin cfg0.N).val % 2 = 0 := by dsimp only; omega
  have h1 : ¬(⟨2 * n, hn⟩ : Fin cfg0.N).val % 2 = 1 := by dsimp only; omega
  have e := outsAt0_A m c ⟨2 * n, hn⟩ h0 h1
  dsimp only at e
  rw [e]
  dsimp only
  refine (congrFun (soutA0 (F := Ideal) c _ _ _ _ _ _ _ _ _ _ _ _ _ _ _ _ _ _ _ (iblk m c 0 ⟨2 * n, hn⟩) (iblk m c 1 ⟨2 * n, hn⟩)) _).trans ?_
  refine (Cert.KPay.k0_pay1_eq _ _ l).trans ?_
  rw [Cert.KPay.k0_pay4_eq]

/-- After a last tile (an odd position) output window 2's staging buffer holds, at every lane, zero plus the first
    tile's sum plus the last tile's. -/
theorem out2_odd (c : Dev nD) (n : ℕ) (hn : 2 * n + 1 < cfg0.N) (l : Fin 128) :
    (outsAt0 m c (2 * n + 1) hn).1.1 (ix3 (0 : Fin 1) (0 : Fin 1) l)
      = (0 + k0_pay9 (F := Ideal) (bx m c ⟨2 * n, Nat.lt_of_succ_lt hn⟩) (bt m c ⟨2 * n, Nat.lt_of_succ_lt hn⟩) (ix2 (0 : Fin 1) (0 : Fin 1)))
        + k0_pay9 (F := Ideal) (bx m c ⟨2 * n + 1, hn⟩) (bt m c ⟨2 * n + 1, hn⟩) (ix2 (0 : Fin 1) (0 : Fin 1)) := by
  have h0 : ¬(⟨2 * n + 1, hn⟩ : Fin cfg0.N).val % 2 = 0 := by dsimp only; omega
  have h1 : (⟨2 * n + 1, hn⟩ : Fin cfg0.N).val % 2 = 1 := by dsimp only; omega
  have e := outsAt0_B m c ⟨2 * n + 1, hn⟩ h0 h1
  dsimp only at e
  rw [e]
  dsimp only
  refine (congrFun (outB2 (F := Ideal) c _ _ _ _ _ _ _ _ _ _ _ _ _ _ _ _ _ _ _ (iblk m c 0 ⟨2 * n + 1, hn⟩) (iblk m c 1 ⟨2 * n + 1, hn⟩) _ _ _) _).trans ?_
  refine (Cert.KPay.k0_pay1_eq _ _ l).trans ?_
  exact congrArg (· + _) (acc0_even m c n (Nat.lt_of_succ_lt hn) l)

/-- After a first tile (an even position) accumulator 1 holds, at every lane, zero plus the tile's sum. -/
theorem acc1_even (c : Dev nD) (n : ℕ) (hn : 2 * n < cfg0.N) (l : Fin 128) :
    (outsAt0 m c (2 * n) hn).2.2.1 (ix3 (0 : Fin 1) (0 : Fin 1) l)
      = 0 + k0_pay10 (F := Ideal) (bx m c ⟨2 * n, hn⟩) (bt m c ⟨2 * n, hn⟩) (ix2 (0 : Fin 1) (0 : Fin 1)) := by
  have h0 : (⟨2 * n, hn⟩ : Fin cfg0.N).val % 2 = 0 := by dsimp only; omega
  have h1 : ¬(⟨2 * n, hn⟩ : Fin cfg0.N).val % 2 = 1 := by dsimp only; omega
  have e := outsAt0_A m c ⟨2 * n, hn⟩ h0 h1
  dsimp only at e
  rw [e]
  dsimp only
  refine (congrFun (soutA1 (F := Ideal) c _ _ _ _ _ _ _ _ _ _ _ _ _ _ _ _ _ _ _ (iblk m c 0 ⟨2 * n, hn⟩) (iblk m c 1 ⟨2 * n, hn⟩)) _).trans ?_
  refine (Cert.KPay.k0_pay2_eq _ _ l).trans ?_
  rw [Cert.KPay.k0_pay5_eq]

/-- After a last tile (an odd position) output window 3's staging buffer holds, at every lane, zero plus the first
    tile's sum plus the last tile's. -/
theorem out3_odd (c : Dev nD) (n : ℕ) (hn : 2 * n + 1 < cfg0.N) (l : Fin 128) :
    (outsAt0 m c (2 * n + 1) hn).1.2.1 (ix3 (0 : Fin 1) (0 : Fin 1) l)
      = (0 + k0_pay10 (F := Ideal) (bx m c ⟨2 * n, Nat.lt_of_succ_lt hn⟩) (bt m c ⟨2 * n, Nat.lt_of_succ_lt hn⟩) (ix2 (0 : Fin 1) (0 : Fin 1)))
        + k0_pay10 (F := Ideal) (bx m c ⟨2 * n + 1, hn⟩) (bt m c ⟨2 * n + 1, hn⟩) (ix2 (0 : Fin 1) (0 : Fin 1)) := by
  have h0 : ¬(⟨2 * n + 1, hn⟩ : Fin cfg0.N).val % 2 = 0 := by dsimp only; omega
  have h1 : (⟨2 * n + 1, hn⟩ : Fin cfg0.N).val % 2 = 1 := by dsimp only; omega
  have e := outsAt0_B m c ⟨2 * n + 1, hn⟩ h0 h1
  dsimp only at e
  rw [e]
  dsimp only
  refine (congrFun (outB3 (F := Ideal) c _ _ _ _ _ _ _ _ _ _ _ _ _ _ _ _ _ _ _ (iblk m c 0 ⟨2 * n + 1, hn⟩) (iblk m c 1 ⟨2 * n + 1, hn⟩) _ _ _) _).trans ?_
  refine (Cert.KPay.k0_pay2_eq _ _ l).trans ?_
  exact congrArg (· + _) (acc1_even m c n (Nat.lt_of_succ_lt hn) l)

/-- After a first tile (an even position) accumulator 2 holds, at every lane, zero plus the tile's sum. -/
theorem acc2_even (c : Dev nD) (n : ℕ) (hn : 2 * n < cfg0.N) (l : Fin 128) :
    (outsAt0 m c (2 * n) hn).2.2.2 (ix3 (0 : Fin 1) (0 : Fin 1) l)
      = 0 + k0_pay11 (F := Ideal) (bt m c ⟨2 * n, hn⟩) (ix2 (0 : Fin 1) (0 : Fin 1)) := by
  have h0 : (⟨2 * n, hn⟩ : Fin cfg0.N).val % 2 = 0 := by dsimp only; omega
  have h1 : ¬(⟨2 * n, hn⟩ : Fin cfg0.N).val % 2 = 1 := by dsimp only; omega
  have e := outsAt0_A m c ⟨2 * n, hn⟩ h0 h1
  dsimp only at e
  rw [e]
  dsimp only
  refine (congrFun (soutA2 (F := Ideal) c _ _ _ _ _ _ _ _ _ _ _ _ _ _ _ _ _ _ _ (iblk m c 0 ⟨2 * n, hn⟩) (iblk m c 1 ⟨2 * n, hn⟩)) _).trans ?_
  refine (Cert.KPay.k0_pay3_eq _ _ l).trans ?_
  rw [Cert.KPay.k0_pay6_eq]

/-- After a last tile (an odd position) output window 4's staging buffer holds, at every lane, zero plus the first
    tile's sum plus the last tile's. -/
theorem out4_odd (c : Dev nD) (n : ℕ) (hn : 2 * n + 1 < cfg0.N) (l : Fin 128) :
    (outsAt0 m c (2 * n + 1) hn).1.2.2 (ix3 (0 : Fin 1) (0 : Fin 1) l)
      = (0 + k0_pay11 (F := Ideal) (bt m c ⟨2 * n, Nat.lt_of_succ_lt hn⟩) (ix2 (0 : Fin 1) (0 : Fin 1)))
        + k0_pay11 (F := Ideal) (bt m c ⟨2 * n + 1, hn⟩) (ix2 (0 : Fin 1) (0 : Fin 1)) := by
  have h0 : ¬(⟨2 * n + 1, hn⟩ : Fin cfg0.N).val % 2 = 0 := by dsimp only; omega
  have h1 : (⟨2 * n + 1, hn⟩ : Fin cfg0.N).val % 2 = 1 := by dsimp only; omega
  have e := outsAt0_B m c ⟨2 * n + 1, hn⟩ h0 h1
  dsimp only at e
  rw [e]
  dsimp only
  refine (congrFun (outB4 (F := Ideal) c _ _ _ _ _ _ _ _ _ _ _ _ _ _ _ _ _ _ _ (iblk m c 0 ⟨2 * n + 1, hn⟩) (iblk m c 1 ⟨2 * n + 1, hn⟩) _ _ _) _).trans ?_
  refine (Cert.KPay.k0_pay3_eq _ _ l).trans ?_
  exact congrArg (· + _) (acc2_even m c n (Nat.lt_of_succ_lt hn) l)

end Cert.KernelIdeal.Val

end
-- ==== Proof.SumRegroup.lean ====
import Mathlib.Algebra.BigOperators.Fin

/-! Regrouping the two half-range partial sums of a three-index family into one full sum.

A family `g c h w` over `c < 80`, `h < 160`, `w < 160` is summed in two halves of the first
index (`c < 40` and `40 ≤ c < 80`), each half nested with `w` outermost and `c` innermost. In a
commutative additive monoid the nesting order is immaterial and the two halves of the range
`80 = 40 + 40` add up to the whole: the sum of the two halves is the full sum nested with `c`
outermost and `w` innermost. -/

namespace Cert.KPay

variable {M : Type*} [AddCommMonoid M]

/-- A triple sum nested `w, h, c` (outermost first) equals the same sum nested `c, h, w`. -/
theorem sum_reorder3 {A B C : Type*} [Fintype A] [Fintype B] [Fintype C] (f : A → B → C → M) :
    (∑ w : C, ∑ h : B, ∑ c : A, f c h w) = ∑ c : A, ∑ h : B, ∑ w : C, f c h w :=
  calc (∑ w : C, ∑ h : B, ∑ c : A, f c h w)
      = ∑ w : C, ∑ c : A, ∑ h : B, f c h w := Finset.sum_congr rfl fun _ _ => Finset.sum_comm
    _ = ∑ c : A, ∑ w : C, ∑ h : B, f c h w := Finset.sum_comm
    _ = ∑ c : A, ∑ h : B, ∑ w : C, f c h w := Finset.sum_congr rfl fun _ _ => Finset.sum_comm

/-- The sum over `c < 40` plus the sum over `40 ≤ c < 80`, each nested `w, h, c`, is the sum over
    all `c < 80` nested `c, h, w`. -/
theorem sum_regroup (g : Fin 80 → Fin 160 → Fin 160 → M) :
    (∑ w : Fin 160, ∑ h : Fin 160, ∑ c : Fin 40, g ⟨c.val, by omega⟩ h w)
      + (∑ w : Fin 160, ∑ h : Fin 160, ∑ c : Fin 40, g ⟨40 + c.val, by omega⟩ h w)
      = ∑ c : Fin 80, ∑ h : Fin 160, ∑ w : Fin 160, g c h w := by
  rw [sum_reorder3 (fun (c : Fin 40) (h : Fin 160) (w : Fin 160) => g ⟨c.val, by omega⟩ h w),
    sum_reorder3 (fun (c : Fin 40) (h : Fin 160) (w : Fin 160) => g ⟨40 + c.val, by omega⟩ h w)]
  exact (Fin.sum_univ_add (a := 40) (b := 40) (fun c : Fin (40 + 40) => ∑ h : Fin 160, ∑ w : Fin 160, g c h w)).symm

/-- The same with the first half accumulated onto zero, as a running total started at `0` leaves it. -/
theorem sum_regroup_zero (g : Fin 80 → Fin 160 → Fin 160 → M) :
    ((0 : M) + (∑ w : Fin 160, ∑ h : Fin 160, ∑ c : Fin 40, g ⟨c.val, by omega⟩ h w))
      + (∑ w : Fin 160, ∑ h : Fin 160, ∑ c : Fin 40, g ⟨40 + c.val, by omega⟩ h w)
      = ∑ c : Fin 80, ∑ h : Fin 160, ∑ w : Fin 160, g c h w := by
  rw [zero_add]
  exact sum_regroup g

end Cert.KPay
-- ==== Proof.BceForms.lean ====
import proofs.«174415_j49692771615067_2_alg».proof.Proof.Gen.KernelIdeal.Skeleton
import Idealize.ShloMosaic.Lib.IdealHost
import Idealize.ShloMosaic.Lib.ValueIdx
import Idealize.ShloMosaic.Lib.Pipeline.Value
import Idealize.ShloMosaic.PureOps.Ideal.Laws

/-!
The element formula of the binary cross entropy with logits, `softplus x - x * t`, as the
kernel spells it and as the reference spells it, on the extended reals. The two spellings
differ only in how they write a negation (`0 - y` against `-y`) and in a guard
"`(0 - x)` differs from itself", which is false for every extended real; so they are the same
function. The kernel's array-level term is read here at an index as that function of the elements.
-/

noncomputable section
namespace Cert.Target
open Idealize.ShloMosaic Idealize.SL.Sem

/-- The softplus `log (1 + eˣ)` in its overflow-free spelling `max 0 x + log1p (exp (-|x|))`,
    with `|x| = max x (-x)`. -/
def softplus (x : EReal) : EReal := max 0 x + Ideal.log1p (Ideal.exp (-(max x (-x))))

/-- The reference's element formula: `softplus x - x * t`. -/
def refBce (x t : EReal) : EReal := softplus x - x * t

/-- The kernel's element formula, as the kernel spells it: negations are `0 - y`, and the
    softplus is guarded by the comparison "`0 - x` is not equal to itself". -/
def kerBce (x t : EReal) : EReal :=
  Scalar.select (Ideal.cmp .one (0 - x) (0 - x)) (0 + x)
    (max 0 x + Ideal.log1p (Ideal.exp (0 - max (0 - x) (-(0 - x))))) - x * t

/-- No extended real differs from itself (ordered spelling of the comparison). -/
theorem cmp_one_self (y : EReal) : Ideal.cmp .one y y = 0#1 := by
  simp [Ideal.cmp]

/-- No extended real differs from itself (unordered spelling of the comparison). -/
theorem cmp_une_self (y : EReal) : Ideal.cmp .une y y = 0#1 := by
  simp [Ideal.cmp]

/-- The kernel's spelling and the reference's are the same function: the guard is false,
    `0 - y = -y`, `-(-x) = x` and `max` is commutative. -/
theorem kerBce_eq_refBce (x t : EReal) : kerBce x t = refBce x t := by
  unfold kerBce refBce softplus
  rw [cmp_one_self]
  show (max 0 x + Ideal.log1p (Ideal.exp (0 - max (0 - x) (-(0 - x))))) - x * t = _
  rw [zero_sub, zero_sub, neg_neg, max_comm (-x) x]

/-- The kernel's target block passes through a shape cast to its own shape: unchanged. -/
theorem k0_pay7_apply (v4 : Vec Ideal Cert.KernelIdeal.S1x40x160x160 .f32) (i : Cert.KernelIdeal.S1x40x160x160.Idx) :
    Cert.KernelIdeal.Gen.k0_pay7 (F := Ideal) v4 i = v4 i := by
  unfold Cert.KernelIdeal.Gen.k0_pay7
  rw [shapeCast_self]

/-- The kernel's loss block at an index is the kernel's element formula of the logit and the
    target at that index (every operation in it is elementwise; the zero constant is `0`). -/
theorem k0_pay8_apply (v3 v4 : Vec Ideal Cert.KernelIdeal.S1x40x160x160 .f32) (i : Cert.KernelIdeal.S1x40x160x160.Idx) :
    Cert.KernelIdeal.Gen.k0_pay8 (F := Ideal) v3 v4 i = kerBce (v3 i) (v4 i) := by
  unfold kerBce
  rw [← k0_pay7_apply v4 i, ← Ideal.ofBits_zero_f32]
  rfl

/-- The kernel's loss block at an index, in the reference's spelling. -/
theorem k0_pay8_apply' (v3 v4 : Vec Ideal Cert.KernelIdeal.S1x40x160x160 .f32) (i : Cert.KernelIdeal.S1x40x160x160.Idx) :
    Cert.KernelIdeal.Gen.k0_pay8 (F := Ideal) v3 v4 i = refBce (v3 i) (v4 i) := by
  rw [k0_pay8_apply, kerBce_eq_refBce]

end Cert.Target
end
-- ==== Proof.KIBatch.lean ====
import proofs.«174415_j49692771615067_2_alg».proof.Proof.KIKit
import proofs.«174415_j49692771615067_2_alg».proof.Proof.KPaySums
import proofs.«174415_j49692771615067_2_alg».proof.Proof.SumRegroup
import proofs.«174415_j49692771615067_2_alg».proof.Proof.BceForms

/-! A batch's numbers from the array.

The body's three per-step numbers are triple sums over the step's two loaded blocks. Here the blocks
are read as pieces of the two `[16, 80, 160, 160]` arrays the region finds — the logits and the
target — and the two steps of one batch are added: the running total after a batch's second step is
the sum, over the batch's 80 channels and all rows and columns, of the reference's summand. -/

noncomputable section
namespace Cert.KBatch
open Cert.KernelIdeal Cert.KernelIdeal.Gen Cert.KernelIdeal.Fr
open Idealize.ShloMosaic Idealize.ShloMosaic.TcCoe Idealize.ShloMosaic.ValueIdx Idealize.SL.Sem

/-! ## The windows' blocks read at an index

The grid is 16 × 2, row-major: point `t` is batch `t / 2`, channel tile `t % 2`. Both input windows
cut the `[16, 80, 160, 160]` array into `[1, 40, 160, 160]` blocks with block index `(batch, tile, 0, 0)`,
so element `(0, cc, h, w)` of the block at point `t` is element `(t / 2, 40 · (t % 2) + cc, h, w)` of the array:
each coordinate is the block index times the block's extent plus the coordinate inside the block. -/

section Blocks
variable {F : FTy → Type} [FloatOps F]
variable (m : (ℓ : Loc nD τ sig) → Buf (Elt F) ℓ)

/-- A grid point's batch is below 16. -/
theorem tdiv_lt (t : Fin cfg0.N) : t.val / 2 < 16 := by
  have h := t.isLt; have hN : cfg0.N = 32 := N_0; omega
/-- A channel inside a tile is a channel below 80 of the array. -/
theorem tmod_lt (t : Fin cfg0.N) (cc : Fin 40) : 40 * (t.val % 2) + cc.val < 80 := by
  have := cc.isLt; omega

/-- Window 0's block index at every grid point: `(t / 2, t % 2, 0, 0)`. -/
theorem idx0 : ∀ t : Fin cfg0.N, win0_0.index t 0 = t.val / 2 ∧ win0_0.index t 1 = t.val % 2
    ∧ win0_0.index t 2 = 0 ∧ win0_0.index t 3 = 0 :=
  (by decide +kernel : ∀ t : Fin grid0.N, win0_0.index t 0 = t.val / 2 ∧ win0_0.index t 1 = t.val % 2
    ∧ win0_0.index t 2 = 0 ∧ win0_0.index t 3 = 0)

/-- Window 1's block index at every grid point: the same. -/
theorem idx1 : ∀ t : Fin cfg0.N, win0_1.index t 0 = t.val / 2 ∧ win0_1.index t 1 = t.val % 2
    ∧ win0_1.index t 2 = 0 ∧ win0_1.index t 3 = 0 :=
  (by decide +kernel : ∀ t : Fin grid0.N, win0_1.index t 0 = t.val / 2 ∧ win0_1.index t 1 = t.val % 2
    ∧ win0_1.index t 2 = 0 ∧ win0_1.index t 3 = 0)

/-- The logits block at point `t`, at `(0, cc, h, w)`, is the array at `(t / 2, 40 · (t % 2) + cc, h, w)`. -/
theorem iblk0_apply (c : Dev nD) (t : Fin cfg0.N) (cc : Fin 40) (h w : Fin 160) :
    (iblk m c 0 t : Vec F S1x40x160x160 .f32) (ix4 (0 : Fin 1) cc h w)
      = V m c main_arg0 (ix4 (⟨t.val / 2, tdiv_lt t⟩ : Fin 16) (⟨40 * (t.val % 2) + cc.val, tmod_lt t cc⟩ : Fin 80) h w) := by
  have hi := idx0 t
  unfold iblk
  rw [View.read_apply]
  show V m c main_arg0 _ = _
  congr 1
  funext a
  apply Fin.ext
  match a with
  | ⟨0, _⟩ => show win0_0.index t 0 * 1 + 1 * 0 = t.val / 2; rw [hi.1]; omega
  | ⟨1, _⟩ => show win0_0.index t 1 * 40 + 1 * cc.val = 40 * (t.val % 2) + cc.val; rw [hi.2.1]; omega
  | ⟨2, _⟩ => show win0_0.index t 2 * 160 + 1 * h.val = h.val; rw [hi.2.2.1]; omega
  | ⟨3, _⟩ => show win0_0.index t 3 * 160 + 1 * w.val = w.val; rw [hi.2.2.2]; omega

/-- The target block at point `t`, at `(0, cc, h, w)`, is the array at `(t / 2, 40 · (t % 2) + cc, h, w)`. -/
theorem iblk1_apply (c : Dev nD) (t : Fin cfg0.N) (cc : Fin 40) (h w : Fin 160) :
    (iblk m c 1 t : Vec F S1x40x160x160 .f32) (ix4 (0 : Fin 1) cc h w)
      = V m c main_v56 (ix4 (⟨t.val / 2, tdiv_lt t⟩ : Fin 16) (⟨40 * (t.val % 2) + cc.val, tmod_lt t cc⟩ : Fin 80) h w) := by
  have hi := idx1 t
  unfold iblk
  rw [View.read_apply]
  show V m c main_v56 _ = _
  congr 1
  funext a
  apply Fin.ext
  match a with
  | ⟨0, _⟩ => show win0_1.index t 0 * 1 + 1 * 0 = t.val / 2; rw [hi.1]; omega
  | ⟨1, _⟩ => show win0_1.index t 1 * 40 + 1 * cc.val = 40 * (t.val % 2) + cc.val; rw [hi.2.1]; omega
  | ⟨2, _⟩ => show win0_1.index t 2 * 160 + 1 * h.val = h.val; rw [hi.2.2.1]; omega
  | ⟨3, _⟩ => show win0_1.index t 3 * 160 + 1 * w.val = w.val; rw [hi.2.2.2]; omega
end Blocks

/-! ## A batch's two tiles summed

Batch `b` is computed at the two grid points `2b` (channels below 40) and `2b + 1` (channels from 40 on).
Each of the body's three numbers at a point is a triple sum over the point's block; read through the
blocks' indices these are the two halves, in the channel, of one sum over the batch's 80 channels. -/

section Batch
variable (m : (ℓ : Loc nD τ sig) → Buf (Elt Ideal) ℓ)

/-- The target array as the region finds it, read as an array of extended reals. -/
abbrev Tg (c : Dev nD) : S16x80x160x160.Idx → EReal := V m c main_v56

/-- At tile `r` of batch `b`, channel `cc` of the block is channel `40 r + cc` of batch `b` of the array. -/
theorem tile_idx (b : Fin 16) (t : Fin cfg0.N) (r : ℕ) (ht : t.val = 2 * b.val + r) (hr : r < 2)
    (cc : Fin 40) (k : Fin 80) (hk : k.val = 40 * r + cc.val) (h w : Fin 160) :
    ix4 (⟨t.val / 2, tdiv_lt t⟩ : Fin 16) (⟨40 * (t.val % 2) + cc.val, tmod_lt t cc⟩ : Fin 80) h w = ix4 b k h w := by
  have e1 : (⟨t.val / 2, tdiv_lt t⟩ : Fin 16) = b := Fin.ext (by show t.val / 2 = b.val; omega)
  have e2 : (⟨40 * (t.val % 2) + cc.val, tmod_lt t cc⟩ : Fin 80) = k :=
    Fin.ext (by show 40 * (t.val % 2) + cc.val = k.val; omega)
  rw [e1, e2]

/-- The logits block of tile `r` of batch `b` at an index, as the array's element. -/
theorem blk0_at (c : Dev nD) (b : Fin 16) (t : Fin cfg0.N) (r : ℕ) (ht : t.val = 2 * b.val + r) (hr : r < 2)
    (cc : Fin 40) (k : Fin 80) (hk : k.val = 40 * r + cc.val) (h w : Fin 160) :
    (iblk m c 0 t : Vec Ideal S1x40x160x160 .f32) (ix4 (0 : Fin 1) cc h w) = V m c main_arg0 (ix4 b k h w) :=
  (iblk0_apply m c t cc h w).trans (congrArg (V m c main_arg0) (tile_idx b t r ht hr cc k hk h w))

/-- The target block of tile `r` of batch `b` at an index, as the array's element. -/
theorem blk1_at (c : Dev nD) (b : Fin 16) (t : Fin cfg0.N) (r : ℕ) (ht : t.val = 2 * b.val + r) (hr : r < 2)
    (cc : Fin 40) (k : Fin 80) (hk : k.val = 40 * r + cc.val) (h w : Fin 160) :
    (iblk m c 1 t : Vec Ideal S1x40x160x160 .f32) (ix4 (0 : Fin 1) cc h w) = V m c main_v56 (ix4 b k h w) :=
  (iblk1_apply m c t cc h w).trans (congrArg (V m c main_v56) (tile_idx b t r ht hr cc k hk h w))

/-- The loss at an index of the blocks, from the blocks' elements there. -/
theorem loss_at (v3 v4 : Vec Ideal S1x40x160x160 .f32) (i : S1x40x160x160.Idx) (x y : EReal)
    (hx : v3 i = x) (hy : v4 i = y) : k0_pay8 (F := Ideal) v3 v4 i = Cert.Target.refBce x y := by
  rw [Cert.Target.k0_pay8_apply', hx, hy]

/-- The loss times the target at an index of the blocks. -/
theorem loss_mul_at (v3 v4 : Vec Ideal S1x40x160x160 .f32) (i : S1x40x160x160.Idx) (x y : EReal)
    (hx : v3 i = x) (hy : v4 i = y) : k0_pay8 (F := Ideal) v3 v4 i * v4 i = Cert.Target.refBce x y * y := by
  rw [Cert.Target.k0_pay8_apply', hx, hy]

/-- Tile `r` of batch `b`: the sum of loss times target over the tile's 40 channels `κ cc = 40 r + cc`. -/
theorem tile_pay9 (c : Dev nD) (b : Fin 16) (t : Fin cfg0.N) (r : ℕ) (ht : t.val = 2 * b.val + r) (hr : r < 2)
    (κ : Fin 40 → Fin 80) (hκ : ∀ cc, (κ cc).val = 40 * r + cc.val) :
    k0_pay9 (F := Ideal) (iblk m c 0 t) (iblk m c 1 t) (ix2 (0 : Fin 1) (0 : Fin 1))
      = ∑ w : Fin 160, ∑ h : Fin 160, ∑ cc : Fin 40,
          Cert.Target.refBce (V m c main_arg0 (ix4 b (κ cc) h w)) (V m c main_v56 (ix4 b (κ cc) h w))
            * V m c main_v56 (ix4 b (κ cc) h w) :=
  (Cert.KPay.k0_pay9_eq (iblk m c 0 t) (iblk m c 1 t)).trans <|
    Finset.sum_congr rfl fun w _ => Finset.sum_congr rfl fun h _ => Finset.sum_congr rfl fun cc _ =>
      loss_mul_at (iblk m c 0 t) (iblk m c 1 t) _ _ _
        (blk0_at m c b t r ht hr cc (κ cc) (hκ cc) h w) (blk1_at m c b t r ht hr cc (κ cc) (hκ cc) h w)

/-- Tile `r` of batch `b`: the sum of the loss over the tile's channels. -/
theorem tile_pay10 (c : Dev nD) (b : Fin 16) (t : Fin cfg0.N) (r : ℕ) (ht : t.val = 2 * b.val + r) (hr : r < 2)
    (κ : Fin 40 → Fin 80) (hκ : ∀ cc, (κ cc).val = 40 * r + cc.val) :
    k0_pay10 (F := Ideal) (iblk m c 0 t) (iblk m c 1 t) (ix2 (0 : Fin 1) (0 : Fin 1))
      = ∑ w : Fin 160, ∑ h : Fin 160, ∑ cc : Fin 40,
          Cert.Target.refBce (V m c main_arg0 (ix4 b (κ cc) h w)) (V m c main_v56 (ix4 b (κ cc) h w)) :=
  (Cert.KPay.k0_pay10_eq (iblk m c 0 t) (iblk m c 1 t)).trans <|
    Finset.sum_congr rfl fun w _ => Finset.sum_congr rfl fun h _ => Finset.sum_congr rfl fun cc _ =>
      loss_at (iblk m c 0 t) (iblk m c 1 t) _ _ _
        (blk0_at m c b t r ht hr cc (κ cc) (hκ cc) h w) (blk1_at m c b t r ht hr cc (κ cc) (hκ cc) h w)

/-- Tile `r` of batch `b`: the sum of the target over the tile's channels. -/
theorem tile_pay11 (c : Dev nD) (b : Fin 16) (t : Fin cfg0.N) (r : ℕ) (ht : t.val = 2 * b.val + r) (hr : r < 2)
    (κ : Fin 40 → Fin 80) (hκ : ∀ cc, (κ cc).val = 40 * r + cc.val) :
    k0_pay11 (F := Ideal) (iblk m c 1 t) (ix2 (0 : Fin 1) (0 : Fin 1))
      = ∑ w : Fin 160, ∑ h : Fin 160, ∑ cc : Fin 40, Tg m c (ix4 b (κ cc) h w) :=
  (Cert.KPay.k0_pay11_eq (iblk m c 1 t)).trans <|
    Finset.sum_congr rfl fun w _ => Finset.sum_congr rfl fun h _ => Finset.sum_congr rfl fun cc _ =>
      blk1_at m c b t r ht hr cc (κ cc) (hκ cc) h w

/-- The lower half of the channels. -/
abbrev lo (cc : Fin 40) : Fin 80 := ⟨cc.val, by omega⟩
/-- The upper half of the channels. -/
abbrev hi (cc : Fin 40) : Fin 80 := ⟨40 + cc.val, by omega⟩

/-- Batch `b`'s sum of loss times target: zero plus the first tile's number plus the second's. -/
theorem batch_pay9 (c : Dev nD) (b : Fin 16) (t0 t1 : Fin cfg0.N) (ht0 : t0.val = 2 * b.val) (ht1 : t1.val = 2 * b.val + 1) :
    (0 + k0_pay9 (F := Ideal) (iblk m c 0 t0) (iblk m c 1 t0) (ix2 (0 : Fin 1) (0 : Fin 1)))
        + k0_pay9 (F := Ideal) (iblk m c 0 t1) (iblk m c 1 t1) (ix2 (0 : Fin 1) (0 : Fin 1))
      = ∑ cc : Fin 80, ∑ h : Fin 160, ∑ w : Fin 160,
          Cert.Target.refBce (V m c main_arg0 (ix4 b cc h w)) (V m c main_v56 (ix4 b cc h w)) * V m c main_v56 (ix4 b cc h w) :=
  (congrArg₂ (fun x y : EReal => (0 + x) + y)
      (tile_pay9 m c b t0 0 (by omega) (by omega) lo fun cc => by show cc.val = 40 * 0 + cc.val; omega)
      (tile_pay9 m c b t1 1 (by omega) (by omega) hi fun cc => by show 40 + cc.val = 40 * 1 + cc.val; omega)).trans
    (Cert.KPay.sum_regroup_zero fun cc h w =>
      Cert.Target.refBce (V m c main_arg0 (ix4 b cc h w)) (V m c main_v56 (ix4 b cc h w)) * V m c main_v56 (ix4 b cc h w))

/-- Batch `b`'s sum of the loss. -/
theorem batch_pay10 (c : Dev nD) (b : Fin 16) (t0 t1 : Fin cfg0.N) (ht0 : t0.val = 2 * b.val) (ht1 : t1.val = 2 * b.val + 1) :
    (0 + k0_pay10 (F := Ideal) (iblk m c 0 t0) (iblk m c 1 t0) (ix2 (0 : Fin 1) (0 : Fin 1)))
        + k0_pay10 (F := Ideal) (iblk m c 0 t1) (iblk m c 1 t1) (ix2 (0 : Fin 1) (0 : Fin 1))
      = ∑ cc : Fin 80, ∑ h : Fin 160, ∑ w : Fin 160,
          Cert.Target.refBce (V m c main_arg0 (ix4 b cc h w)) (V m c main_v56 (ix4 b cc h w)) :=
  (congrArg₂ (fun x y : EReal => (0 + x) + y)
      (tile_pay10 m c b t0 0 (by omega) (by omega) lo fun cc => by show cc.val = 40 * 0 + cc.val; omega)
      (tile_pay10 m c b t1 1 (by omega) (by omega) hi fun cc => by show 40 + cc.val = 40 * 1 + cc.val; omega)).trans
    (Cert.KPay.sum_regroup_zero fun cc h w =>
      Cert.Target.refBce (V m c main_arg0 (ix4 b cc h w)) (V m c main_v56 (ix4 b cc h w)))

/-- Batch `b`'s sum of the target. -/
theorem batch_pay11 (c : Dev nD) (b : Fin 16) (t0 t1 : Fin cfg0.N) (ht0 : t0.val = 2 * b.val) (ht1 : t1.val = 2 * b.val + 1) :
    (0 + k0_pay11 (F := Ideal) (iblk m c 1 t0) (ix2 (0 : Fin 1) (0 : Fin 1)))
        + k0_pay11 (F := Ideal) (iblk m c 1 t1) (ix2 (0 : Fin 1) (0 : Fin 1))
      = ∑ cc : Fin 80, ∑ h : Fin 160, ∑ w : Fin 160, Tg m c (ix4 b cc h w) :=
  (congrArg₂ (fun x y : EReal => (0 + x) + y)
      (tile_pay11 m c b t0 0 (by omega) (by omega) lo fun cc => by show cc.val = 40 * 0 + cc.val; omega)
      (tile_pay11 m c b t1 1 (by omega) (by omega) hi fun cc => by show 40 + cc.val = 40 * 1 + cc.val; omega)).trans
    (Cert.KPay.sum_regroup_zero fun cc h w => Tg m c (ix4 b cc h w))
end Batch

end Cert.KBatch
end
-- ==== Proof.KIFinal.lean ====
import proofs.«174415_j49692771615067_2_alg».proof.Proof.KIVal
import proofs.«174415_j49692771615067_2_alg».proof.Proof.KIBatch
import Idealize.ShloMosaic.Lib.Pipeline.Value

/-! The kernel's three result arrays after the run.

Each result array has shape `[16, 1, 128]`; grid point `t` writes back its `[1, 1, 128]` block at row
`t / 2` only when it is a batch's last channel tile (`t` odd), and what it writes is, at every lane,
the batch's running total: zero plus the first tile's number plus the last tile's. So row `b` of
each array ends holding, at every lane, the sum over batch `b`'s 80 channels, 160 rows and 160 columns
of the corresponding summand; the odd points' blocks cover the array. -/

noncomputable section
namespace Cert.KFinal
open Cert.KernelIdeal Cert.KernelIdeal.Gen Cert.KernelIdeal.Fr Cert.KernelIdeal.Val Cert.KBatch
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The batch sums -/

/-- Batch `b`'s sum of loss times target over its 80 channels, 160 rows and 160 columns. -/
abbrev S9 (c : Dev nD) (b : Fin 16) : EReal :=
  ∑ cc : Fin 80, ∑ h : Fin 160, ∑ w : Fin 160,
    Cert.Target.refBce (V m c main_arg0 (ix4 b cc h w)) (V m c main_v56 (ix4 b cc h w)) * V m c main_v56 (ix4 b cc h w)
/-- Batch `b`'s sum of the loss. -/
abbrev S10 (c : Dev nD) (b : Fin 16) : EReal :=
  ∑ cc : Fin 80, ∑ h : Fin 160, ∑ w : Fin 160,
    Cert.Target.refBce (V m c main_arg0 (ix4 b cc h w)) (V m c main_v56 (ix4 b cc h w))
/-- Batch `b`'s sum of the target. -/
abbrev S11 (c : Dev nD) (b : Fin 16) : EReal :=
  ∑ cc : Fin 80, ∑ h : Fin 160, ∑ w : Fin 160, Tg m c (ix4 b cc h w)

/-- The whole result arrays: every lane of row `b` holds batch `b`'s sum. -/
abbrev G2 (c : Dev nD) : S16x1x128.Idx → EReal := fun i => S9 m c ⟨(i 0).val, (i 0).isLt⟩
abbrev G3 (c : Dev nD) : S16x1x128.Idx → EReal := fun i => S10 m c ⟨(i 0).val, (i 0).isLt⟩
abbrev G4 (c : Dev nD) : S16x1x128.Idx → EReal := fun i => S11 m c ⟨(i 0).val, (i 0).isLt⟩

/-- An odd position's batch is below 16. -/
theorem half_lt (k : ℕ) (hk : k < cfg0.N) : k / 2 < 16 := by
  have hN : cfg0.N = 32 := N_0; omega

/-- The last tile of batch `b` is a grid point. -/
theorem last_lt (b : ℕ) (hb : b < 16) : 2 * b + 1 < cfg0.N := by
  have hN : cfg0.N = 32 := N_0; omega

/-! ## The first result array -/

/-- After an odd position `k`, output window 2's staging buffer holds batch `k / 2`'s sum of loss times target at every lane. -/
theorem out2_pos (c : Dev nD) (k : ℕ) (hk : k < cfg0.N) (hodd : k % 2 = 1) (l : Fin 128) :
    (outsAt0 m c k hk).1.1 (ix3 (0 : Fin 1) (0 : Fin 1) l) = S9 m c ⟨k / 2, half_lt k hk⟩ := by
  obtain ⟨n, rfl⟩ : ∃ n, k = 2 * n + 1 := ⟨k / 2, by omega⟩
  have hn : n < 16 := by have hN : cfg0.N = 32 := N_0; omega
  refine (out2_odd m c n hk l).trans ?_
  refine (batch_pay9 m c ⟨n, hn⟩ ⟨2 * n, Nat.lt_of_succ_lt hk⟩ ⟨2 * n + 1, hk⟩ rfl rfl).trans ?_
  exact congrArg (S9 m c) (Fin.ext (by show n = (2 * n + 1) / 2; omega))

/-- Output window 2's block index at every grid point: `(t / 2, 0, 0)`. -/
theorem idx2 : ∀ t : Fin cfg0.N, win0_2.index t 0 = t.val / 2 ∧ win0_2.index t 1 = 0 ∧ win0_2.index t 2 = 0 :=
  (by decide +kernel : ∀ t : Fin grid0.N, win0_2.index t 0 = t.val / 2 ∧ win0_2.index t 1 = 0 ∧ win0_2.index t 2 = 0)

/-- What an odd point writes back through window 2 is its block of `G2`. -/
theorem flushed2_eq (c : Dev nD) (t : Fin cfg0.N) (hf : (cfg0.win 2).flush t = true) :
    (dats m 0 c).flushed 2 t = ((cfg0.win 2).blk t).view.read (Elt Ideal) (G2 m c) := by
  have hodd : t.val % 2 = 1 := (flush0_2 t).mp hf
  have hi := idx2 t
  show (cfg0.win 2).cut (grid0.coords t) ((dats m 0 c).after 2 t) = _
  rw [after0_2]
  funext y
  rw [View.read_apply]
  obtain ⟨p, q, l, rfl⟩ : ∃ (p : Fin 1) (q : Fin 1) (l : Fin 128), y = ix3 p q l := ⟨y 0, y 1, y 2, eq_ix3 y⟩
  obtain rfl : p = 0 := Subsingleton.elim _ _
  obtain rfl : q = 0 := Subsingleton.elim _ _
  show (outsAt0 m c t.val t.isLt).1.1 (ix3 (0 : Fin 1) (0 : Fin 1) l) = S9 m c _
  refine (out2_pos m c t.val t.isLt hodd l).trans ?_
  refine congrArg (S9 m c) (Fin.ext ?_)
  show t.val / 2 = win0_2.index t 0 * 1 + 1 * 0
  rw [hi.1]; omega

/-- An index of the array is in point `t`'s block iff each coordinate is in the block's range on its axis. -/
theorem mem_blk2 (t : Fin cfg0.N) (i : S16x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v57_0).slice (win0_2.rect t)).set ↔ _
  rw [View.set_slice_whole, Rect.mem_set_unit]
  exact Iff.rfl

/-- The first result array after the run is `G2`: index `i` is in the block of the last tile of batch `i 0`. -/
theorem final2_all (c : Dev nD) : (dats m 0 c).arrAt 2 cfg0.N = G2 m c :=
  (dats m 0 c).arrAt_eq_of_cover 2 (G2 m c) (flushed2_eq m c) fun i => by
    have h0 : (i 0).val < 16 := (i 0).isLt
    have h1 : (i 1).val < 1 := (i 1).isLt
    have h2 : (i 2).val < 128 := (i 2).isLt
    refine ⟨⟨2 * (i 0).val + 1, last_lt _ h0⟩, (flush0_2 _).mpr (by show (2 * (i 0).val + 1) % 2 = 1; omega), ?_⟩
    rw [mem_blk2]
    obtain ⟨e0, e1, e2⟩ := idx2 ⟨2 * (i 0).val + 1, last_lt _ h0⟩
    intro a
    match a with
    | ⟨0, _⟩ =>
      show win0_2.index ⟨2 * (i 0).val + 1, last_lt _ h0⟩ 0 * 1 ≤ (i 0).val
        ∧ (i 0).val < win0_2.index ⟨2 * (i 0).val + 1, last_lt _ h0⟩ 0 * 1 + 1
      rw [e0]; show (2 * (i 0).val + 1) / 2 * 1 ≤ (i 0).val ∧ (i 0).val < (2 * (i 0).val + 1) / 2 * 1 + 1; omega
    | ⟨1, _⟩ =>
      show win0_2.index ⟨2 * (i 0).val + 1, last_lt _ h0⟩ 1 * 1 ≤ (i 1).val
        ∧ (i 1).val < win0_2.index ⟨2 * (i 0).val + 1, last_lt _ h0⟩ 1 * 1 + 1
      rw [e1]; omega
    | ⟨2, _⟩ =>
      show win0_2.index ⟨2 * (i 0).val + 1, last_lt _ h0⟩ 2 * 128 ≤ (i 2).val
        ∧ (i 2).val < win0_2.index ⟨2 * (i 0).val + 1, last_lt _ h0⟩ 2 * 128 + 128
      rw [e2]; omega

/-- Row `b` of the first result array, at every lane: batch `b`'s sum of loss times target. -/
theorem final2 (c : Dev nD) (b : Fin 16) (l : Fin 128) :
    (dats m 0 c).arrAt 2 cfg0.N (ix3 b (0 : Fin 1) l)
      = ∑ cc : Fin 80, ∑ h : Fin 160, ∑ w : Fin 160,
          Cert.Target.refBce (V m c main_arg0 (ix4 b cc h w)) (V m c main_v56 (ix4 b cc h w)) * V m c main_v56 (ix4 b cc h w) := by
  rw [final2_all]

/-! ## The second result array -/

/-- After an odd position `k`, output window 3's staging buffer holds batch `k / 2`'s sum of the loss at every lane. -/
theorem out3_pos (c : Dev nD) (k : ℕ) (hk : k < cfg0.N) (hodd : k % 2 = 1) (l : Fin 128) :
    (outsAt0 m c k hk).1.2.1 (ix3 (0 : Fin 1) (0 : Fin 1) l) = S10 m c ⟨k / 2, half_lt k hk⟩ := by
  obtain ⟨n, rfl⟩ : ∃ n, k = 2 * n + 1 := ⟨k / 2, by omega⟩
  have hn : n < 16 := by have hN : cfg0.N = 32 := N_0; omega
  refine (out3_odd m c n hk l).trans ?_
  refine (batch_pay10 m c ⟨n, hn⟩ ⟨2 * n, Nat.lt_of_succ_lt hk⟩ ⟨2 * n + 1, hk⟩ rfl rfl).trans ?_
  exact congrArg (S10 m c) (Fin.ext (by show n = (2 * n + 1) / 2; omega))

/-- Output window 3's block index at every grid point: `(t / 2, 0, 0)`. -/
theorem idx3 : ∀ t : Fin cfg0.N, win0_3.index t 0 = t.val / 2 ∧ win0_3.index t 1 = 0 ∧ win0_3.index t 2 = 0 :=
  (by decide +kernel : ∀ t : Fin grid0.N, win0_3.index t 0 = t.val / 2 ∧ win0_3.index t 1 = 0 ∧ win0_3.index t 2 = 0)

/-- What an odd point writes back through window 3 is its block of `G3`. -/
theorem flushed3_eq (c : Dev nD) (t : Fin cfg0.N) (hf : (cfg0.win 3).flush t = true) :
    (dats m 0 c).flushed 3 t = ((cfg0.win 3).blk t).view.read (Elt Ideal) (G3 m c) := by
  have hodd : t.val % 2 = 1 := (flush0_3 t).mp hf
  have hi := idx3 t
  show (cfg0.win 3).cut (grid0.coords t) ((dats m 0 c).after 3 t) = _
  rw [after0_3]
  funext y
  rw [View.read_apply]
  obtain ⟨p, q, l, rfl⟩ : ∃ (p : Fin 1) (q : Fin 1) (l : Fin 128), y = ix3 p q l := ⟨y 0, y 1, y 2, eq_ix3 y⟩
  obtain rfl : p = 0 := Subsingleton.elim _ _
  obtain rfl : q = 0 := Subsingleton.elim _ _
  show (outsAt0 m c t.val t.isLt).1.2.1 (ix3 (0 : Fin 1) (0 : Fin 1) l) = S10 m c _
  refine (out3_pos m c t.val t.isLt hodd l).trans ?_
  refine congrArg (S10 m c) (Fin.ext ?_)
  show t.val / 2 = win0_3.index t 0 * 1 + 1 * 0
  rw [hi.1]; omega

/-- An index of the array is in point `t`'s block iff each coordinate is in the block's range on its axis. -/
theorem mem_blk3 (t : Fin cfg0.N) (i : S16x1x128.Idx) :
    i ∈ ((cfg0.win 3).blk t).view.set ↔ ∀ a : Fin 3, win0_3.index t a * S1x1x128.size a ≤ (i a).val
      ∧ (i a).val < win0_3.index t a * S1x1x128.size a + S1x1x128.size a := by
  show i ∈ ((View.whole main_v57_1).slice (win0_3.rect t)).set ↔ _
  rw [View.set_slice_whole, Rect.mem_set_unit]
  exact Iff.rfl

/-- The second result array after the run is `G3`: index `i` is in the block of the last tile of batch `i 0`. -/
theorem final3_all (c : Dev nD) : (dats m 0 c).arrAt 3 cfg0.N = G3 m c :=
  (dats m 0 c).arrAt_eq_of_cover 3 (G3 m c) (flushed3_eq m c) fun i => by
    have h0 : (i 0).val < 16 := (i 0).isLt
    have h1 : (i 1).val < 1 := (i 1).isLt
    have h2 : (i 2).val < 128 := (i 2).isLt
    refine ⟨⟨2 * (i 0).val + 1, last_lt _ h0⟩, (flush0_3 _).mpr (by show (2 * (i 0).val + 1) % 2 = 1; omega), ?_⟩
    rw [mem_blk3]
    obtain ⟨e0, e1, e2⟩ := idx3 ⟨2 * (i 0).val + 1, last_lt _ h0⟩
    intro a
    match a with
    | ⟨0, _⟩ =>
      show win0_3.index ⟨2 * (i 0).val + 1, last_lt _ h0⟩ 0 * 1 ≤ (i 0).val
        ∧ (i 0).val < win0_3.index ⟨2 * (i 0).val + 1, last_lt _ h0⟩ 0 * 1 + 1
      rw [e0]; show (2 * (i 0).val + 1) / 2 * 1 ≤ (i 0).val ∧ (i 0).val < (2 * (i 0).val + 1) / 2 * 1 + 1; omega
    | ⟨1, _⟩ =>
      show win0_3.index ⟨2 * (i 0).val + 1, last_lt _ h0⟩ 1 * 1 ≤ (i 1).val
        ∧ (i 1).val < win0_3.index ⟨2 * (i 0).val + 1, last_lt _ h0⟩ 1 * 1 + 1
      rw [e1]; omega
    | ⟨2, _⟩ =>
      show win0_3.index ⟨2 * (i 0).val + 1, last_lt _ h0⟩ 2 * 128 ≤ (i 2).val
        ∧ (i 2).val < win0_3.index ⟨2 * (i 0).val + 1, last_lt _ h0⟩ 2 * 128 + 128
      rw [e2]; omega

/-- Row `b` of the second result array, at every lane: batch `b`'s sum of the loss. -/
theorem final3 (c : Dev nD) (b : Fin 16) (l : Fin 128) :
    (dats m 0 c).arrAt 3 cfg0.N (ix3 b (0 : Fin 1) l)
      = ∑ cc : Fin 80, ∑ h : Fin 160, ∑ w : Fin 160,
          Cert.Target.refBce (V m c main_arg0 (ix4 b cc h w)) (V m c main_v56 (ix4 b cc h w)) := by
  rw [final3_all]

/-! ## The third result array -/

/-- After an odd position `k`, output window 4's staging buffer holds batch `k / 2`'s sum of the target at every lane. -/
theorem out4_pos (c : Dev nD) (k : ℕ) (hk : k < cfg0.N) (hodd : k % 2 = 1) (l : Fin 128) :
    (outsAt0 m c k hk).1.2.2 (ix3 (0 : Fin 1) (0 : Fin 1) l) = S11 m c ⟨k / 2, half_lt k hk⟩ := by
  obtain ⟨n, rfl⟩ : ∃ n, k = 2 * n + 1 := ⟨k / 2, by omega⟩
  have hn : n < 16 := by have hN : cfg0.N = 32 := N_0; omega
  refine (out4_odd m c n hk l).trans ?_
  refine (batch_pay11 m c ⟨n, hn⟩ ⟨2 * n, Nat.lt_of_succ_lt hk⟩ ⟨2 * n + 1, hk⟩ rfl rfl).trans ?_
  exact congrArg (S11 m c) (Fin.ext (by show n = (2 * n + 1) / 2; omega))

/-- Output window 4's block index at every grid point: `(t / 2, 0, 0)`. -/
theorem idx4 : ∀ t : Fin cfg0.N, win0_4.index t 0 = t.val / 2 ∧ win0_4.index t 1 = 0 ∧ win0_4.index t 2 = 0 :=
  (by decide +kernel : ∀ t : Fin grid0.N, win0_4.index t 0 = t.val / 2 ∧ win0_4.index t 1 = 0 ∧ win0_4.index t 2 = 0)

/-- What an odd point writes back through window 4 is its block of `G4`. -/
theorem flushed4_eq (c : Dev nD) (t : Fin cfg0.N) (hf : (cfg0.win 4).flush t = true) :
    (dats m 0 c).flushed 4 t = ((cfg0.win 4).blk t).view.read (Elt Ideal) (G4 m c) := by
  have hodd : t.val % 2 = 1 := (flush0_4 t).mp hf
  have hi := idx4 t
  show (cfg0.win 4).cut (grid0.coords t) ((dats m 0 c).after 4 t) = _
  rw [after0_4]
  funext y
  rw [View.read_apply]
  obtain ⟨p, q, l, rfl⟩ : ∃ (p : Fin 1) (q : Fin 1) (l : Fin 128), y = ix3 p q l := ⟨y 0, y 1, y 2, eq_ix3 y⟩
  obtain rfl : p = 0 := Subsingleton.elim _ _
  obtain rfl : q = 0 := Subsingleton.elim _ _
  show (outsAt0 m c t.val t.isLt).1.2.2 (ix3 (0 : Fin 1) (0 : Fin 1) l) = S11 m c _
  refine (out4_pos m c t.val t.isLt hodd l).trans ?_
  refine congrArg (S11 m c) (Fin.ext ?_)
  show t.val / 2 = win0_4.index t 0 * 1 + 1 * 0
  rw [hi.1]; omega

/-- An index of the array is in point `t`'s block iff each coordinate is in the block's range on its axis. -/
theorem mem_blk4 (t : Fin cfg0.N) (i : S16x1x128.Idx) :
    i ∈ ((cfg0.win 4).blk t).view.set ↔ ∀ a : Fin 3, win0_4.index t a * S1x1x128.size a ≤ (i a).val
      ∧ (i a).val < win0_4.index t a * S1x1x128.size a + S1x1x128.size a := by
  show i ∈ ((View.whole main_v57_2).slice (win0_4.rect t)).set ↔ _
  rw [View.set_slice_whole, Rect.mem_set_unit]
  exact Iff.rfl

/-- The third result array after the run is `G4`: index `i` is in the block of the last tile of batch `i 0`. -/
theorem final4_all (c : Dev nD) : (dats m 0 c).arrAt 4 cfg0.N = G4 m c :=
  (dats m 0 c).arrAt_eq_of_cover 4 (G4 m c) (flushed4_eq m c) fun i => by
    have h0 : (i 0).val < 16 := (i 0).isLt
    have h1 : (i 1).val < 1 := (i 1).isLt
    have h2 : (i 2).val < 128 := (i 2).isLt
    refine ⟨⟨2 * (i 0).val + 1, last_lt _ h0⟩, (flush0_4 _).mpr (by show (2 * (i 0).val + 1) % 2 = 1; omega), ?_⟩
    rw [mem_blk4]
    obtain ⟨e0, e1, e2⟩ := idx4 ⟨2 * (i 0).val + 1, last_lt _ h0⟩
    intro a
    match a with
    | ⟨0, _⟩ =>
      show win0_4.index ⟨2 * (i 0).val + 1, last_lt _ h0⟩ 0 * 1 ≤ (i 0).val
        ∧ (i 0).val < win0_4.index ⟨2 * (i 0).val + 1, last_lt _ h0⟩ 0 * 1 + 1
      rw [e0]; show (2 * (i 0).val + 1) / 2 * 1 ≤ (i 0).val ∧ (i 0).val < (2 * (i 0).val + 1) / 2 * 1 + 1; omega
    | ⟨1, _⟩ =>
      show win0_4.index ⟨2 * (i 0).val + 1, last_lt _ h0⟩ 1 * 1 ≤ (i 1).val
        ∧ (i 1).val < win0_4.index ⟨2 * (i 0).val + 1, last_lt _ h0⟩ 1 * 1 + 1
      rw [e1]; omega
    | ⟨2, _⟩ =>
      show win0_4.index ⟨2 * (i 0).val + 1, last_lt _ h0⟩ 2 * 128 ≤ (i 2).val
        ∧ (i 2).val < win0_4.index ⟨2 * (i 0).val + 1, last_lt _ h0⟩ 2 * 128 + 128
      rw [e2]; omega

/-- Row `b` of the third result array, at every lane: batch `b`'s sum of the target. -/
theorem final4 (c : Dev nD) (b : Fin 16) (l : Fin 128) :
    (dats m 0 c).arrAt 4 cfg0.N (ix3 b (0 : Fin 1) l)
      = ∑ cc : Fin 80, ∑ h : Fin 160, ∑ w : Fin 160,
          Tg m c (ix4 b cc h w) := by
  rw [final4_all]

end Cert.KFinal
end
-- ==== Proof.TailDef.lean ====
/- The reference's scalar tail as one function of its four reduced inputs.

   `tail ps bs pc L` is the composition of the reference program's operations %76, %77, %81 … %85 and %118 … %130,
   in the program's own order and spelling, applied to
     ps : the per-batch sum of bce * pos   (the value of %79),
     bs : the per-batch sum of bce         (the value of %80),
     pc : the per-batch count of positives (the value of %75),
     L  : the box loss summed over batch and box, before its division by 512 (the value of %117).
   With N = 2048000 the number of elements per batch:
     pos_loss = (Σ_b ps b / pc b) / 512,   neg_loss = (Σ_b (bs b - ps b) / (N - pc b)) / 16,
     cls = pos_loss + 0.25 * neg_loss,     box = L / 512,
     total = 0.5 * cls + 7.5 * box + 1e-6, and the result is the vector [total, cls, box].
   Everything is read at the exact instance `Ideal`. -/
import proofs.«174415_j49692771615067_2_alg».proof.Proof.Gen.ReferenceIdeal
import Idealize.ShloMosaic.PureOps.Ideal

noncomputable section

namespace Cert.RefSide

open Cert.ReferenceIdeal Cert.ReferenceIdeal.Gen Idealize.ShloMosaic Idealize.ShloMosaic.TcCoe Idealize.SL.Sem Idealize.ShloMosaic.StableHlo

/-- The reference's scalar tail: from the three per-batch sums and the box loss sum to the three results. -/
def tail (ps bs pc : (⟨Cert.ReferenceIdeal.S16, .f32⟩ : BufTy).Contents (Elt Ideal))
    (L : (⟨Cert.ReferenceIdeal.S_, .f32⟩ : BufTy).Contents (Elt Ideal)) :
    (⟨Cert.ReferenceIdeal.S3, .f32⟩ : BufTy).Contents (Elt Ideal) :=
  -- %76: the constant 2048000 on every batch
  let v76 : (⟨S16, .f32⟩ : BufTy).Contents (Elt Ideal) :=
    broadcastInDim S16 ![] bcast_S_S16 (constant (F := Ideal) S_ .f32 0x49FA0000#32)
  -- %77 = %76 - pc : the count of negatives
  let v77 : (⟨S16, .f32⟩ : BufTy).Contents (Elt Ideal) := subf (F := Ideal) (φ := .f32) v76 pc
  -- %81 = bs - ps : the sum of bce over the negatives
  let v81 : (⟨S16, .f32⟩ : BufTy).Contents (Elt Ideal) := subf (F := Ideal) (φ := .f32) bs ps
  -- %82 = ps / pc
  let v82 : (⟨S16, .f32⟩ : BufTy).Contents (Elt Ideal) := Host.divf (F := Ideal) (φ := .f32) ps pc
  -- %83 = Σ_b %82
  let v83 : (⟨S_, .f32⟩ : BufTy).Contents (Elt Ideal) :=
    Host.reduceAdd (F := Ideal) (φ := .f32) v82 (constant (F := Ideal) S_ .f32 0x00000000#32) reducesTo_S16_S_d0 h_S_
  -- %84 = %81 / %77
  let v84 : (⟨S16, .f32⟩ : BufTy).Contents (Elt Ideal) := Host.divf (F := Ideal) (φ := .f32) v81 v77
  -- %85 = Σ_b %84
  let v85 : (⟨S_, .f32⟩ : BufTy).Contents (Elt Ideal) :=
    Host.reduceAdd (F := Ideal) (φ := .f32) v84 (constant (F := Ideal) S_ .f32 0x00000000#32) reducesTo_S16_S_d0 h_S_
  -- %118 = %83 / 512
  let v118 : (⟨S_, .f32⟩ : BufTy).Contents (Elt Ideal) := Host.divf (F := Ideal) (φ := .f32) v83 (constant (F := Ideal) S_ .f32 0x44000000#32)
  -- %119 = L / 512
  let v119 : (⟨S_, .f32⟩ : BufTy).Contents (Elt Ideal) := Host.divf (F := Ideal) (φ := .f32) L (constant (F := Ideal) S_ .f32 0x44000000#32)
  -- %120 = %85 / 16
  let v120 : (⟨S_, .f32⟩ : BufTy).Contents (Elt Ideal) := Host.divf (F := Ideal) (φ := .f32) v85 (constant (F := Ideal) S_ .f32 0x41800000#32)
  -- %121 = 0.25 * %120
  let v121 : (⟨S_, .f32⟩ : BufTy).Contents (Elt Ideal) := mulf (F := Ideal) (φ := .f32) (constant (F := Ideal) S_ .f32 0x3E800000#32) v120
  -- %122 = %118 + %121
  let v122 : (⟨S_, .f32⟩ : BufTy).Contents (Elt Ideal) := addf (F := Ideal) (φ := .f32) v118 v121
  -- %123 = 0.5 * %122
  let v123 : (⟨S_, .f32⟩ : BufTy).Contents (Elt Ideal) := mulf (F := Ideal) (φ := .f32) (constant (F := Ideal) S_ .f32 0x3F000000#32) v122
  -- %124 = 7.5 * %119
  let v124 : (⟨S_, .f32⟩ : BufTy).Contents (Elt Ideal) := mulf (F := Ideal) (φ := .f32) (constant (F := Ideal) S_ .f32 0x40F00000#32) v119
  -- %125 = %123 + %124
  let v125 : (⟨S_, .f32⟩ : BufTy).Contents (Elt Ideal) := addf (F := Ideal) (φ := .f32) v123 v124
  -- %126 = %125 + 1e-6
  let v126 : (⟨S_, .f32⟩ : BufTy).Contents (Elt Ideal) := addf (F := Ideal) (φ := .f32) v125 (constant (F := Ideal) S_ .f32 0x358637BD#32)
  -- %127, %128, %129: each scalar as a vector of length one
  let v127 : (⟨S1, .f32⟩ : BufTy).Contents (Elt Ideal) := broadcastInDim S1 ![] bcast_S_S1 v126
  let v128 : (⟨S1, .f32⟩ : BufTy).Contents (Elt Ideal) := broadcastInDim S1 ![] bcast_S_S1 v122
  let v129 : (⟨S1, .f32⟩ : BufTy).Contents (Elt Ideal) := broadcastInDim S1 ![] bcast_S_S1 v119
  -- %130: the three joined
  concatenate S3 0 [⟨S1, v127⟩, ⟨S1, v128⟩, ⟨S1, v129⟩] concatenates_S1_S1_S1_S3_d0

end Cert.RefSide

end
-- ==== Proof.KIPrefix.lean ====
/- The kernel program's host operations after its region, as one function of what they read.

   The 77 operations after the region read the three result arrays of the region (each of shape [16, 1, 128]), the first
   input, and seven buffers the operations before the region wrote. They take the first element of each batch's row of
   each result array (`col`), form the box loss sum from the gathered rows of the first input and the scaled box
   coordinates (`boxOf`), and end with the same scalar operations as the reference program (`Cert.RefSide.tail`).
   `tail_any` states this for an arbitrary assignment of contents to the buffers: both sides are closed terms in those
   contents and evaluate, operation by operation, to the same term. -/
import proofs.«174415_j49692771615067_2_alg».proof.Proof.KIKit
import proofs.«174415_j49692771615067_2_alg».proof.Proof.TailDef
import Idealize.ShloMosaic.Lib.StableHlo.Run
import Idealize.ShloMosaic.Lib.Pipeline.FrameSuffix
import Idealize.ShloMosaic.Lib.Pipeline.Value
import Idealize.ShloMosaic.Lib.ValueIdx
import Idealize.ShloMosaic.Lib.Tactic

set_option maxHeartbeats 40000000
set_option maxRecDepth 8192

noncomputable section

namespace Cert.KSide

open Cert.KernelIdeal Cert.KernelIdeal.Gen Cert.KernelIdeal.Fr
open Idealize.ShloMosaic Idealize.ShloMosaic.TcCoe Idealize.SL.Sem Idealize.ShloMosaic.StableHlo
open Idealize.ShloMosaic.ValueIdx Idealize.ShloMosaic.Tactic

/-- The kernel's %58, %59 (and %60 … %63): the first element of each batch's row of 128, as a vector of length 16. -/
def col (X : (⟨S16x1x128, .f32⟩ : BufTy).Contents (Elt Ideal)) : (⟨S16, .f32⟩ : BufTy).Contents (Elt Ideal) :=
  shapeCast S16 (extractStridedSlice S16x1x1 ![0, 0, 0] X slices_S16x1x128_S16x1x1_0_0_0) shapeCasts_S16x1x1_S16

/-- `col X` at batch `b` is `X` at `(b, 0, 0)`: the slice keeps offset 0 on every axis, and the reshape from [16, 1, 1] to
    [16] keeps the row-major position. -/
theorem col_ix1 (X : (⟨S16x1x128, .f32⟩ : BufTy).Contents (Elt Ideal)) (b : Fin 16) :
    col X (ix1 b) = X (ix3 b 0 0) := by
  unfold col
  rw [shapeCast_apply _ shapeCasts_S16x1x1_S16 (ix1 b) (ix3 b 0 0)
    (by rewrite [Shape.rowMajor_val_three, Shape.rowMajor_val_one]; show (b.val * 1 + 0) * 1 + 0 = b.val; omega)]
  exact extractStridedSlice_apply ![0, 0, 0] X slices_S16x1x128_S16x1x1_0_0_0 (ix3 b 0 0) (ix3 b 0 0) (fun a => match a with
    | ⟨0, _⟩ => by show b.val = 0 + b.val; omega
    | ⟨1, _⟩ => by show (0 : ℕ) = 0 + 0; omega
    | ⟨2, _⟩ => by show (0 : ℕ) = 0 + 0; omega)

/-- The kernel's %71 … %102: the box loss sum from the first input's gathered rows and the scaled box coordinates. -/
def boxOf (a1 : (⟨S16x4x160x160, .f32⟩ : BufTy).Contents (Elt Ideal))
    (v3 v7 v11 v15 : (⟨S16x32, .f32⟩ : BufTy).Contents (Elt Ideal))
    (v24 v25 : (⟨S16x32, .i32⟩ : BufTy).Contents (Elt Ideal))
    (v27 : (⟨S16x1, .i32⟩ : BufTy).Contents (Elt Ideal)) : (⟨S_, .f32⟩ : BufTy).Contents (Elt Ideal) :=
  let v71 : (⟨S16x1, .i32⟩ : BufTy).Contents (Elt Ideal) := broadcastInDim S16x1 ![] bcast_S_S16x1 (constantI S_ 32 0#32)
  let v72 : (⟨S16x1, .i1⟩ : BufTy).Contents (Elt Ideal) := cmpi .slt v27 v71
  let v73 : (⟨S16x1, .i32⟩ : BufTy).Contents (Elt Ideal) := broadcastInDim S16x1 ![] bcast_S_S16x1 (constantI S_ 32 16#32)
  let v74 : (⟨S16x1, .i32⟩ : BufTy).Contents (Elt Ideal) := addi v27 v73
  let v75 : (⟨S16x1, .i32⟩ : BufTy).Contents (Elt Ideal) := select v72 v74 v27
  let v76 : (⟨S16x32, .i32⟩ : BufTy).Contents (Elt Ideal) := broadcastInDim S16x32 ![] bcast_S_S16x32 (constantI S_ 32 0#32)
  let v77 : (⟨S16x32, .i1⟩ : BufTy).Contents (Elt Ideal) := cmpi .slt v25 v76
  let v78 : (⟨S16x32, .i32⟩ : BufTy).Contents (Elt Ideal) := broadcastInDim S16x32 ![] bcast_S_S16x32 (constantI S_ 32 160#32)
  let v79 : (⟨S16x32, .i32⟩ : BufTy).Contents (Elt Ideal) := addi v25 v78
  let v80 : (⟨S16x32, .i32⟩ : BufTy).Contents (Elt Ideal) := select v77 v79 v25
  let v81 : (⟨S16x32, .i32⟩ : BufTy).Contents (Elt Ideal) := broadcastInDim S16x32 ![] bcast_S_S16x32 (constantI S_ 32 0#32)
  let v82 : (⟨S16x32, .i1⟩ : BufTy).Contents (Elt Ideal) := cmpi .slt v24 v81
  let v83 : (⟨S16x32, .i32⟩ : BufTy).Contents (Elt Ideal) := broadcastInDim S16x32 ![] bcast_S_S16x32 (constantI S_ 32 160#32)
  let v84 : (⟨S16x32, .i32⟩ : BufTy).Contents (Elt Ideal) := addi v24 v83
  let v85 : (⟨S16x32, .i32⟩ : BufTy).Contents (Elt Ideal) := select v82 v84 v24
  let v86 : (⟨S16x32, .i32⟩ : BufTy).Contents (Elt Ideal) := broadcastInDim S16x32 ![0, 1] bcast_S16x1_S16x32_0_1 v75
  let v87 : (⟨S16x32x1, .i32⟩ : BufTy).Contents (Elt Ideal) := broadcastInDim S16x32x1 ![0, 1] bcast_S16x32_S16x32x1_0_1 v86
  let v88 : (⟨S16x32x1, .i32⟩ : BufTy).Contents (Elt Ideal) := broadcastInDim S16x32x1 ![0, 1] bcast_S16x32_S16x32x1_0_1 v80
  let v89 : (⟨S16x32x1, .i32⟩ : BufTy).Contents (Elt Ideal) := broadcastInDim S16x32x1 ![0, 1] bcast_S16x32_S16x32x1_0_1 v85
  let v90 : (⟨S16x32x3, .i32⟩ : BufTy).Contents (Elt Ideal) :=
    concatenate S16x32x3 2 [⟨S16x32x1, v87⟩, ⟨S16x32x1, v88⟩, ⟨S16x32x1, v89⟩] concatenates_S16x32x1_S16x32x1_S16x32x1_S16x32x3_d2
  let v91 : (⟨S16x32x4, .f32⟩ : BufTy).Contents (Elt Ideal) :=
    Host.gather gather_S16x4x160x160_S16x32x3_S16x32x4_2_023_n_n_023_2_1411 a1 v90
  let v92 : (⟨S16x32x1, .f32⟩ : BufTy).Contents (Elt Ideal) := broadcastInDim S16x32x1 ![0, 1] bcast_S16x32_S16x32x1_0_1 v3
  let v93 : (⟨S16x32x1, .f32⟩ : BufTy).Contents (Elt Ideal) := broadcastInDim S16x32x1 ![0, 1] bcast_S16x32_S16x32x1_0_1 v7
  let v94 : (⟨S16x32x1, .f32⟩ : BufTy).Contents (Elt Ideal) := broadcastInDim S16x32x1 ![0, 1] bcast_S16x32_S16x32x1_0_1 v11
  let v95 : (⟨S16x32x1, .f32⟩ : BufTy).Contents (Elt Ideal) := broadcastInDim S16x32x1 ![0, 1] bcast_S16x32_S16x32x1_0_1 v15
  let v96 : (⟨S16x32x4, .f32⟩ : BufTy).Contents (Elt Ideal) :=
    concatenate S16x32x4 2 [⟨S16x32x1, v92⟩, ⟨S16x32x1, v93⟩, ⟨S16x32x1, v94⟩, ⟨S16x32x1, v95⟩] concatenates_S16x32x1_S16x32x1_S16x32x1_S16x32x1_S16x32x4_d2
  let v97 : (⟨S16x32x4, .f32⟩ : BufTy).Contents (Elt Ideal) := subf (F := Ideal) (φ := .f32) v91 v96
  let v98 : (⟨S16x32x4, .f32⟩ : BufTy).Contents (Elt Ideal) := Host.absf (F := Ideal) (φ := .f32) v97
  let v99 : (⟨S16x32, .f32⟩ : BufTy).Contents (Elt Ideal) :=
    Host.reduceAdd (F := Ideal) (φ := .f32) v98 (constant (F := Ideal) S_ .f32 0x00000000#32) reducesTo_S16x32x4_S16x32_d2 h_S_
  let v100 : (⟨S16x32, .f32⟩ : BufTy).Contents (Elt Ideal) := broadcastInDim S16x32 ![] bcast_S_S16x32 (constant (F := Ideal) S_ .f32 0x40800000#32)
  let v101 : (⟨S16x32, .f32⟩ : BufTy).Contents (Elt Ideal) := Host.divf (F := Ideal) (φ := .f32) v99 v100
  Host.reduceAdd (F := Ideal) (φ := .f32) v101 (constant (F := Ideal) S_ .f32 0x00000000#32) reducesTo_S16x32_S_d0_1 h_S_

/-- The kernel's %102 of the launch contents. -/
def boxK (m : (ℓ : Loc nD τ sig) → Buf (Elt Ideal) ℓ) (c : Dev nD) : (⟨S_, .f32⟩ : BufTy).Contents (Elt Ideal) :=
  boxOf (V m c main_arg1) (V m c main_v3) (V m c main_v7) (V m c main_v11) (V m c main_v15) (V m c main_v24) (V m c main_v25) (V m c main_v27)

/-- The operations after the region, from any contents `G` of the buffers, leave in the result buffer the reference's tail
    of the three columns and the box loss sum of what `G` holds at the buffers they read. -/
theorem tail_any (G : Valuation τ sig (Elt Ideal)) :
    StableHlo.after (hostOps1 (F := Ideal)) G (Proc.devRef .tc main_v115)
      = Cert.RefSide.tail (col (G (Proc.devRef .tc main_v57_0))) (col (G (Proc.devRef .tc main_v57_1))) (col (G (Proc.devRef .tc main_v57_2)))
          (boxOf (G (Proc.devRef .tc main_arg1)) (G (Proc.devRef .tc main_v3)) (G (Proc.devRef .tc main_v7)) (G (Proc.devRef .tc main_v11))
            (G (Proc.devRef .tc main_v15)) (G (Proc.devRef .tc main_v24)) (G (Proc.devRef .tc main_v25)) (G (Proc.devRef .tc main_v27))) := by
  sl_kernel_rfl

end Cert.KSide

end
-- ==== Proof.KITail.lean ====
/- The kernel program's result as the reference's tail, and its host prefix against the reference's.

   `tail_eq`: after the region, with the region's arrays at any final contents `A` and every other buffer as the operations
   before the region left it, the result buffer holds the reference's tail of the three columns of the region's results
   and the box loss sum `boxK`. `V_main_v56`: the scatter target the region reads is the reference's. `boxK_eq`: the box
   loss sum is the reference's. The last two hold because the two programs apply the same operations, in the same order,
   to the same inputs: both sides evaluate to the same term. -/
import proofs.«174415_j49692771615067_2_alg».proof.Proof.KIPrefix
import proofs.«174415_j49692771615067_2_alg».proof.Proof.RefReadP

set_option maxHeartbeats 40000000
set_option maxRecDepth 8192

noncomputable section

namespace Cert.KSide

open Cert.KernelIdeal Cert.KernelIdeal.Gen Cert.KernelIdeal.Fr
open Idealize.ShloMosaic Idealize.ShloMosaic.TcCoe Idealize.SL.Sem Idealize.ShloMosaic.StableHlo
open Idealize.ShloMosaic.ValueIdx Idealize.ShloMosaic.Tactic

/-- The result buffer after the region: the region's three result arrays are read at their final contents, every other
    buffer the tail reads is no array of the region and is read as the operations before the region left it. -/
theorem tail_eq (m : (ℓ : Loc nD τ sig) → Buf (Elt Ideal) ℓ) (c : Dev nD)
    (A : (w : Fin 5) → Buf (Elt Ideal) ((spec0 w).arr.view.loc (c.tc : Thread nD τ))) :
    StableHlo.after (hostOps1 (F := Ideal)) (Pipeline.withArrays spec0 c (V0 m c) A) (Proc.devRef .tc main_v115)
      = Cert.RefSide.tail (col (A 2)) (col (A 3)) (col (A 4)) (boxK m c) := by
  have h2 : Pipeline.withArrays spec0 c (V0 m c) A (Proc.devRef .tc main_v57_0) = A 2 :=
    Pipeline.withArrays_arr spec0 launch0.win.arr_inj c _ _ 2
  have h3 : Pipeline.withArrays spec0 c (V0 m c) A (Proc.devRef .tc main_v57_1) = A 3 :=
    Pipeline.withArrays_arr spec0 launch0.win.arr_inj c _ _ 3
  have h4 : Pipeline.withArrays spec0 c (V0 m c) A (Proc.devRef .tc main_v57_2) = A 4 :=
    Pipeline.withArrays_arr spec0 launch0.win.arr_inj c _ _ 4
  have k1 := Pipeline.withArrays_of_ne spec0 c (V0 m c) A main_arg1 (by decide)
  have k3 := Pipeline.withArrays_of_ne spec0 c (V0 m c) A main_v3 (by decide)
  have k7 := Pipeline.withArrays_of_ne spec0 c (V0 m c) A main_v7 (by decide)
  have k11 := Pipeline.withArrays_of_ne spec0 c (V0 m c) A main_v11 (by decide)
  have k15 := Pipeline.withArrays_of_ne spec0 c (V0 m c) A main_v15 (by decide)
  have k24 := Pipeline.withArrays_of_ne spec0 c (V0 m c) A main_v24 (by decide)
  have k25 := Pipeline.withArrays_of_ne spec0 c (V0 m c) A main_v25 (by decide)
  have k27 := Pipeline.withArrays_of_ne spec0 c (V0 m c) A main_v27 (by decide)
  rw [tail_any, h2, h3, h4, k1, k3, k7, k11, k15, k24, k25, k27]
  rfl

/-- The scatter target (one at the 512 box positions of each batch, zero elsewhere) is computed by the same operations in
    both programs. -/
theorem V_main_v56 (m : (ℓ : Loc nD τ sig) → Buf (Elt Ideal) ℓ) (c : Dev nD) :
    V m c main_v56 = Cert.ReferenceIdeal.ReadP.val_main_v56 (F := Ideal) (m ((c.tc : Thread nD τ).loc main_arg2)) (m ((c.tc : Thread nD τ).loc main_arg3)) := by
  sl_kernel_rfl

/-- The box loss sum is computed by the same operations in both programs. -/
theorem boxK_eq (m : (ℓ : Loc nD τ sig) → Buf (Elt Ideal) ℓ) (c : Dev nD) :
    boxK m c = Cert.ReferenceIdeal.ReadP.val_main_v117 (F := Ideal) (m ((c.tc : Thread nD τ).loc main_arg1)) (m ((c.tc : Thread nD τ).loc main_arg2)) := by
  sl_kernel_rfl

end Cert.KSide

end
-- ==== Proof.RefTail.lean ====
/- The reference's result is its scalar tail applied to its three per-batch sums and its box loss sum.

   Operations %76, %77, %81 … %85 and %118 … %130 of the reference use nothing of the inputs but the values of %79, %80,
   %75 and %117; `Cert.RefSide.tail` is their composition in the program's own order and spelling, so the equation is the
   unfolding of the definitions. -/
import proofs.«174415_j49692771615067_2_alg».proof.Proof.RefReadP
import proofs.«174415_j49692771615067_2_alg».proof.Proof.TailDef

noncomputable section

namespace Cert.RefSide

open Cert.ReferenceIdeal Cert.ReferenceIdeal.Gen Idealize.ShloMosaic Idealize.ShloMosaic.TcCoe Idealize.SL.Sem Idealize.ShloMosaic.StableHlo
open Cert.ReferenceIdeal.ReadP

/-- The reference's result %130 is the tail of (%79, %80, %75, %117). -/
theorem val_main_v130_eq_tail (x0 : (⟨S16x80x160x160, .f32⟩ : BufTy).Contents (Elt Ideal)) (x1 : (⟨S16x4x160x160, .f32⟩ : BufTy).Contents (Elt Ideal)) (x2 : (⟨S16x32x4, .f32⟩ : BufTy).Contents (Elt Ideal)) (x3 : (⟨S16x32, .i32⟩ : BufTy).Contents (Elt Ideal)) :
    ReadP.val_main_v130 (F := Ideal) x0 x1 x2 x3
      = tail (ReadP.val_main_v79 (F := Ideal) x0 x2 x3) (ReadP.val_main_v80 (F := Ideal) x0 x2 x3) (ReadP.val_main_v75 (F := Ideal) x2 x3) (ReadP.val_main_v117 (F := Ideal) x1 x2) := by
  simp only [ReadP.val_main_v130, ReadP.val_main_v129, ReadP.val_main_v128, ReadP.val_main_v127, ReadP.val_main_v126,
    ReadP.val_main_v125, ReadP.val_main_v124, ReadP.val_main_v123, ReadP.val_main_v122, ReadP.val_main_v121,
    ReadP.val_main_v120, ReadP.val_main_v119, ReadP.val_main_v118, ReadP.val_main_v85, ReadP.val_main_v84,
    ReadP.val_main_v83, ReadP.val_main_v82, ReadP.val_main_v81, ReadP.val_main_v77, ReadP.val_main_v76,
    ReadP.val_main_cst_21, ReadP.val_main_cst_24, ReadP.val_main_cst_25, ReadP.val_main_cst_35, ReadP.val_main_cst_36,
    ReadP.val_main_cst_37, ReadP.val_main_cst_38, ReadP.val_main_cst_39, ReadP.val_main_cst_40, ReadP.val_main_cst_41,
    tail]

end Cert.RefSide

end
-- ==== Proof.LibHostSumTail3of4.lean ====
/-
  A host sum over the three trailing axes of a rank-4 array, read at an index.

  At the ideal values the host's float sum over a list of axes is the initial value plus the sum of the operand over
  the set of indices that drop to the result index. When the reduced axes are the LAST three of a rank-4 array
  [A, B, C, D], the result is a vector of length A, and the set of indices that drop to `a` is the image of the product
  Fin B × Fin C × Fin D under "put the kept coordinate `a` in front". So the sum at `a` is the initial value plus the
  iterated sum over the three reduced coordinates. The only law used is re-indexing a finite sum along a bijection.
-/
import Idealize.ShloMosaic.PureOps.Ideal.Laws
import Idealize.ShloMosaic.Lib.ValueIdx

noncomputable section

namespace Idealize.ShloMosaic.HostSumTail3of4

open Idealize.ShloMosaic Idealize.ShloMosaic.ValueIdx

/-- A rank-4 index drops (over its last three axes) to `a` exactly when its first coordinate is `a`. -/
theorem drop_tail3of4_eq_iff {A B C D : ℕ}
    (h : (⟨4, ![A, B, C, D]⟩ : Shape).ReducesTo [1, 2, 3] ⟨1, ![A]⟩)
    (i : (⟨4, ![A, B, C, D]⟩ : Shape).Idx) (a : Fin A) :
    h.drop i = ix1 a ↔ (i 0 : Fin A) = a := by
  have h0 : (h.drop i 0 : ℕ) = i 0 := rfl
  constructor
  · intro e
    exact Fin.ext (h0.symm.trans (congrArg Fin.val (congrFun e 0)))
  · intro ea
    funext k
    match k with
    | ⟨0, _⟩ => exact Fin.ext (h0.trans (congrArg Fin.val ea))

/-- The host's sum of a rank-4 array over its last three axes, at `a`: the initial value plus the triple sum over
    the three reduced coordinates. -/
theorem hostReduceAdd_tail3of4 {A B C D : ℕ}
    (h : (⟨4, ![A, B, C, D]⟩ : Shape).ReducesTo [1, 2, 3] ⟨1, ![A]⟩)
    (x : (⟨4, ![A, B, C, D]⟩ : Shape).Idx → EReal) (init : EReal) (a : Fin A) :
    Ideal.hostReduceAdd h x init (ix1 a)
      = init + ∑ b : Fin B, ∑ c : Fin C, ∑ d : Fin D, x (ix4 a b c d) := by
  unfold Ideal.hostReduceAdd
  refine congrArg (init + ·) ?_
  have e2 : ∀ b : Fin B, ∑ c : Fin C, ∑ d : Fin D, x (ix4 a b c d)
      = ∑ q : Fin C × Fin D, x (ix4 a b q.1 q.2) :=
    fun b => (Fintype.sum_prod_type' (fun (c : Fin C) (d : Fin D) => x (ix4 a b c d))).symm
  refine Eq.trans ?_ ((Fintype.sum_prod_type' (fun (b : Fin B) (q : Fin C × Fin D) => x (ix4 a b q.1 q.2))).trans
    (Finset.sum_congr rfl fun b _ => (e2 b).symm))
  refine Finset.sum_nbij' (fun i => ((i 1 : Fin B), ((i 2 : Fin C), (i 3 : Fin D))))
    (fun p => ix4 a p.1 p.2.1 p.2.2) (fun _ _ => Finset.mem_univ _) ?_ ?_ ?_ ?_
  · intro p _
    exact Finset.mem_filter.2 ⟨Finset.mem_univ _, (drop_tail3of4_eq_iff h _ a).2 rfl⟩
  · intro i hi
    have ea := (drop_tail3of4_eq_iff h i a).1 (Finset.mem_filter.1 hi).2
    funext k
    match k with
    | ⟨0, _⟩ => exact ea.symm
    | ⟨1, _⟩ => rfl
    | ⟨2, _⟩ => rfl
    | ⟨3, _⟩ => rfl
  · intro p _
    rfl
  · intro i hi
    have ea := (drop_tail3of4_eq_iff h i a).1 (Finset.mem_filter.1 hi).2
    refine congrArg x ?_
    funext k
    match k with
    | ⟨0, _⟩ => exact ea
    | ⟨1, _⟩ => rfl
    | ⟨2, _⟩ => rfl
    | ⟨3, _⟩ => rfl

end Idealize.ShloMosaic.HostSumTail3of4

end
-- ==== Proof.RefSums.lean ====
/- The reference's three per-batch sums, read at a batch index, and the product under the first of them.

   The reference reduces three arrays of shape [16, 80, 160, 160] over their last three axes into vectors of
   length 16, each from the initial value 0:
     %75 = Σ %74  (the count of positives),   %79 = Σ %78  (the sum of bce * pos),   %80 = Σ %71  (the sum of bce).
   At the exact instance each is, at batch b, the triple sum over channel, row and column of its operand at
   (b, c, h, w): the initial value is the extended real 0 and drops out. The operand of %79 is, element by element, the
   product of the operands of the other two. -/
import proofs.«174415_j49692771615067_2_alg».proof.Proof.RefReadP
import proofs.«174415_j49692771615067_2_alg».proof.Proof.LibHostSumTail3of4

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.ReadP

/-- The host's sum of an array of shape [16, 80, 160, 160] over its last three axes from the f32 zero constant, at
    batch `b`: the triple sum of the array over the reduced coordinates. -/
theorem hostSum_S16x80x160x160_ix1 (y : (⟨S16x80x160x160, .f32⟩ : BufTy).Contents (Elt Ideal))
    (z : (⟨S_, .f32⟩ : BufTy).Contents (Elt Ideal)) (hz : ∀ i, z i = FloatOps.ofBits (F := Ideal) .f32 0x00000000#32) (b : Fin 16) :
    Host.reduceAdd (F := Ideal) (φ := .f32) y z reducesTo_S16x80x160x160_S16_d1_2_3 h_S_ (ix1 b)
      = ∑ c : Fin 80, ∑ h : Fin 160, ∑ w : Fin 160, y (ix4 b c h w) := by
  simp only [Host.reduceAdd, Ideal.hostReduceAdd_def]
  rw [hz]
  exact (HostSumTail3of4.hostReduceAdd_tail3of4 (A := 16) (B := 80) (C := 160) (D := 160)
      reducesTo_S16x80x160x160_S16_d1_2_3 y _ b).trans
    (by rw [Ideal.ofBits_def, Ideal.ofBits_zero_f32, zero_add])

/-- %75, the count of positives of batch `b`: the sum of %74 over channel, row and column. -/
theorem val_main_v75_ix1 (x2 : (⟨S16x32x4, .f32⟩ : BufTy).Contents (Elt Ideal)) (x3 : (⟨S16x32, .i32⟩ : BufTy).Contents (Elt Ideal)) (b : Fin 16) :
    ReadP.val_main_v75 (F := Ideal) x2 x3 (ix1 b)
      = ∑ c : Fin 80, ∑ h : Fin 160, ∑ w : Fin 160, ReadP.val_main_v74 (F := Ideal) x2 x3 (ix4 b c h w) := by
  unfold ReadP.val_main_v75
  exact hostSum_S16x80x160x160_ix1 _ _ (fun i => ReadP.val_main_cst_20_apply (F := Ideal) i) b

/-- %79, the sum of bce * pos of batch `b`: the sum of %78 over channel, row and column. -/
theorem val_main_v79_ix1 (x0 : (⟨S16x80x160x160, .f32⟩ : BufTy).Contents (Elt Ideal)) (x2 : (⟨S16x32x4, .f32⟩ : BufTy).Contents (Elt Ideal)) (x3 : (⟨S16x32, .i32⟩ : BufTy).Contents (Elt Ideal)) (b : Fin 16) :
    ReadP.val_main_v79 (F := Ideal) x0 x2 x3 (ix1 b)
      = ∑ c : Fin 80, ∑ h : Fin 160, ∑ w : Fin 160, ReadP.val_main_v78 (F := Ideal) x0 x2 x3 (ix4 b c h w) := by
  unfold ReadP.val_main_v79
  exact hostSum_S16x80x160x160_ix1 _ _ (fun i => ReadP.val_main_cst_22_apply (F := Ideal) i) b

/-- %80, the sum of bce of batch `b`: the sum of %71 over channel, row and column. -/
theorem val_main_v80_ix1 (x0 : (⟨S16x80x160x160, .f32⟩ : BufTy).Contents (Elt Ideal)) (x2 : (⟨S16x32x4, .f32⟩ : BufTy).Contents (Elt Ideal)) (x3 : (⟨S16x32, .i32⟩ : BufTy).Contents (Elt Ideal)) (b : Fin 16) :
    ReadP.val_main_v80 (F := Ideal) x0 x2 x3 (ix1 b)
      = ∑ c : Fin 80, ∑ h : Fin 160, ∑ w : Fin 160, ReadP.val_main_v71 (F := Ideal) x0 x2 x3 (ix4 b c h w) := by
  unfold ReadP.val_main_v80
  exact hostSum_S16x80x160x160_ix1 _ _ (fun i => ReadP.val_main_cst_23_apply (F := Ideal) i) b

/-- %78 at (b, c, h, w) is the product of %71 and %74 there. -/
theorem val_main_v78_ix4 (x0 : (⟨S16x80x160x160, .f32⟩ : BufTy).Contents (Elt Ideal)) (x2 : (⟨S16x32x4, .f32⟩ : BufTy).Contents (Elt Ideal)) (x3 : (⟨S16x32, .i32⟩ : BufTy).Contents (Elt Ideal))
    (b : Fin 16) (c : Fin 80) (h : Fin 160) (w : Fin 160) :
    ReadP.val_main_v78 (F := Ideal) x0 x2 x3 (ix4 b c h w)
      = (ReadP.val_main_v71 (F := Ideal) x0 x2 x3 (ix4 b c h w) : EReal) * (ReadP.val_main_v74 (F := Ideal) x2 x3 (ix4 b c h w) : EReal) := by
  rw [ReadP.val_main_v78_apply, Ideal.mulf_def]

end Cert.RefSide

end
-- ==== Proof.LibScatterSet.lean ====
import Idealize.ShloMosaic.PureOps.ShapeOps

/-!
A general fact about the host's scatter when the update body returns the update
(`fun _ b => b`, a "set"): every element of the result is either an element of the
operand or an element of the updates. Hence any predicate that holds of all operand
elements and of all update elements holds of all result elements. Scatter indices may
repeat and may fall outside the operand: neither matters.
-/

namespace Idealize.ShloMosaic

/-- The host's scatter with the "set" body (`fun _ b => b`: the result of the body is the
    update): a predicate `P` that holds of every operand element and of every update element
    holds of every element of the result, whatever the scatter indices are (repeated or out
    of range). Proof: induction along the left fold over the update positions; one step either
    leaves the array alone or overwrites one element by an update element. -/
theorem Host.scatter_set_forall {s si u : Shape} {α : Type} {w : Nat}
    (d : ScatterDims s si u) (x : s.Idx → α) (idx : IVec si w) (upd : u.Idx → α)
    (P : α → Prop) (hx : ∀ i, P (x i)) (hu : ∀ j, P (upd j)) :
    ∀ i, P (Host.scatter d (fun _ b => b) x idx upd i) := by
  unfold Host.scatter
  generalize List.finRange u.numel = l
  induction l generalizing x with
  | nil => simpa using hx
  | cons n l ih =>
    rw [List.foldl_cons]
    apply ih
    intro i
    generalize d.resultIdx? (u.rowMajor.symm n) idx = o
    cases o with
    | none => exact hx i
    | some i₀ =>
      show P (if i = i₀ then upd (u.rowMajor.symm n) else x i)
      split
      · exact hu _
      · exact hx i

end Idealize.ShloMosaic
-- ==== Proof.Target01.lean ====
import proofs.«174415_j49692771615067_2_alg».proof.Proof.RefReadP
import proofs.«174415_j49692771615067_2_alg».proof.Proof.LibScatterSet
import proofs.«174415_j49692771615067_2_alg».proof.Proof.BceForms
import Idealize.ShloMosaic.Lib.IdealHost
import Idealize.ShloMosaic.PureOps.Ideal.Laws

/-!
The reference's scatter target takes only the values 0 and 1: it is a "set" scatter of the
constant 1 into an array of zeros. Consequently the reference's mask `(target > 0)` converted
back to a float is the target itself. Last, the reference's loss array is read at an index as
the element formula `refBce` of the logit and the target at that index.
-/

noncomputable section
namespace Cert.Target
open Idealize.ShloMosaic Idealize.SL.Sem Cert.ReferenceIdeal Cert.ReferenceIdeal.Gen

/-- The scatter's operand is the zero array. -/
theorem operand_zero (i : S16x80x160x160.Idx) : ReadP.val_main_v28 (F := Ideal) i = 0 := by
  rw [ReadP.val_main_v28_apply, ReadP.val_main_cst_8_apply]
  exact Ideal.ofBits_zero_f32

/-- Every update of the scatter is the constant one. -/
theorem update_one (j : S16x32.Idx) : ReadP.val_main_v55 (F := Ideal) j = 1 := by
  rw [ReadP.val_main_v55_apply, ReadP.val_main_cst_17_apply]
  exact Ideal.ofBits_one_f32

/-- Every element of the scatter target is 0 or 1: each is an operand element (0) or an
    update element (1). -/
theorem target_zero_or_one (x2 : (⟨S16x32x4, .f32⟩ : BufTy).Contents (Elt Ideal)) (x3 : (⟨S16x32, .i32⟩ : BufTy).Contents (Elt Ideal))
    (i : S16x80x160x160.Idx) :
    ReadP.val_main_v56 (F := Ideal) x2 x3 i = 0 ∨ ReadP.val_main_v56 (F := Ideal) x2 x3 i = 1 := by
  unfold ReadP.val_main_v56
  exact Host.scatter_set_forall _ _ _ _ (fun y : EReal => y = 0 ∨ y = 1)
    (fun i => Or.inl (operand_zero i)) (fun j => Or.inr (update_one j)) i

/-- The mask `target > 0` read back as a float (1 where the comparison holds, else 0) is the
    target itself, because the target is 0 or 1. -/
theorem val_main_v74_eq_target (x2 : (⟨S16x32x4, .f32⟩ : BufTy).Contents (Elt Ideal)) (x3 : (⟨S16x32, .i32⟩ : BufTy).Contents (Elt Ideal))
    (i : S16x80x160x160.Idx) :
    ReadP.val_main_v74 (F := Ideal) x2 x3 i = ReadP.val_main_v56 (F := Ideal) x2 x3 i := by
  rw [ReadP.val_main_v74_apply, ReadP.val_main_v73_apply, ReadP.val_main_v72_apply, ReadP.val_main_cst_19_apply]
  show (((Ideal.cmp .ogt (ReadP.val_main_v56 (F := Ideal) x2 x3 i) (Ideal.ofBits .f32 0x00000000#32)).toNat : ℝ) : EReal) = _
  rw [Ideal.ofBits_zero_f32]
  rcases target_zero_or_one x2 x3 i with h | h
  · rw [h]; simp [Ideal.cmp]
  · rw [h]; simp [Ideal.cmp]

/-- The reference's loss array at an index is `refBce` of the logit at that index and the
    scatter target at that index (every operation in it is elementwise; the zero constants are
    `0`; the guard "`0 - x` differs from itself" is false). -/
theorem val_main_v71_eq_refBce (x0 : (⟨S16x80x160x160, .f32⟩ : BufTy).Contents (Elt Ideal)) (x2 : (⟨S16x32x4, .f32⟩ : BufTy).Contents (Elt Ideal)) (x3 : (⟨S16x32, .i32⟩ : BufTy).Contents (Elt Ideal))
    (i : S16x80x160x160.Idx) :
    ReadP.val_main_v71 (F := Ideal) x0 x2 x3 i = refBce (x0 i) (ReadP.val_main_v56 (F := Ideal) x2 x3 i) := by
  simp only [ReadP.val_main_v71_apply, ReadP.val_main_v69_apply, ReadP.val_main_v70_apply, ReadP.val_main_v61_apply,
    ReadP.val_main_v63_apply, ReadP.val_main_v68_apply, ReadP.val_main_v58_apply, ReadP.val_main_v67_apply,
    ReadP.val_main_v66_apply, ReadP.val_main_v65_apply, ReadP.val_main_v64_apply, ReadP.val_main_v60_apply,
    ReadP.val_main_v57_apply, ReadP.val_main_v59_apply, ReadP.val_main_v62_apply, ReadP.val_main_cst_18_apply]
  show Scalar.select (Ideal.cmp .une (Ideal.ofBits .f32 0x00000000#32 - x0 i) (Ideal.ofBits .f32 0x00000000#32 - x0 i))
      (Ideal.ofBits .f32 0x00000000#32 + x0 i)
      (max (Ideal.ofBits .f32 0x00000000#32) (x0 i)
        + Ideal.log1p (Ideal.exp (-(max (Ideal.ofBits .f32 0x00000000#32 - x0 i) (-(Ideal.ofBits .f32 0x00000000#32 - x0 i))))))
      - x0 i * ReadP.val_main_v56 (F := Ideal) x2 x3 i = _
  rw [Ideal.ofBits_zero_f32, cmp_une_self]
  show (max 0 (x0 i) + Ideal.log1p (Ideal.exp (-(max (0 - x0 i) (-(0 - x0 i))))))
      - x0 i * ReadP.val_main_v56 (F := Ideal) x2 x3 i = _
  unfold refBce softplus
  rw [zero_sub, neg_neg, max_comm (-(x0 i)) (x0 i)]

end Cert.Target
end
-- ==== Proof.Bridge.lean ====
/-
  The two programs meet. The kernel's run, restated: its result buffer ends at the shared scalar tail of the three
  columns [b,0,0] of the kernel's result arrays and of the box-loss sum; its four arguments end as launched. The
  reference's last stage is the same tail of its three sums over (channel, row, column) and of the same box-loss sum.
  Column by column the two agree: for batch b the kernel's array holds the sum over both channel tiles of the element loss
  times the target (of the element loss; of the target), regrouped into one sum over 80 channels; the reference's sum runs
  over the same elements with the positive mask (target > 0) in place of the target, and the mask IS the target because
  every target entry is 0 or 1 (a scatter of ones into zeros); the two spellings of the element loss are one function.
-/
import proofs.«174415_j49692771615067_2_alg».proof.Defs
import proofs.«174415_j49692771615067_2_alg».proof.Proof.KIFinal
import proofs.«174415_j49692771615067_2_alg».proof.Proof.KITail
import proofs.«174415_j49692771615067_2_alg».proof.Proof.RefTail
import proofs.«174415_j49692771615067_2_alg».proof.Proof.RefSums
import proofs.«174415_j49692771615067_2_alg».proof.Proof.Target01

set_option maxRecDepth 16384

noncomputable section

namespace Cert.Bridge

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The kernel program's result: the scalar tail of the three result arrays' first columns and the box-loss sum. -/
def kres (c : Dev nD) : Buf (Elt Ideal) ((c.tc : Thread nD τ).loc main_v115) :=
  Cert.RefSide.tail (Cert.KSide.col ((dats m 0 c).arrAt 2 cfg0.N)) (Cert.KSide.col ((dats m 0 c).arrAt 3 cfg0.N))
    (Cert.KSide.col ((dats m 0 c).arrAt 4 cfg0.N)) (Cert.KSide.boxK m c)

/-- The kernel program runs to the end with its result at `kres` and its arguments as launched. -/
theorem kernel_run : θ_run defs (onTc (τ := τ) (main (F := Ideal))) ⟨m, fun _ => 0, ρ⟩ (fun r => ∀ c : Dev nD,
      r.2.mem ((c.tc : Thread nD τ).loc main_v115) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v115 (Pipeline.mem_restRefs_of main_v115 (by decide) (by decide))).trans (Cert.KSide.tail_eq m c _),
    ((h c).1 0).trans (((dats m 0 c).arrAt_in 0 rfl _).trans ((A_eq m c 0).trans (V_main_arg0 m c))),
    (((h c).2 main_arg1 (Pipeline.mem_restRefs_of main_arg1 (by decide) (by decide))).trans (W_main_arg1 m (dats m) c)),
    (((h c).2 main_arg2 (Pipeline.mem_restRefs_of main_arg2 (by decide) (by decide))).trans (W_main_arg2 m (dats m) c)),
    (((h c).2 main_arg3 (Pipeline.mem_restRefs_of main_arg3 (by decide) (by decide))).trans (W_main_arg3 m (dats m) c))⟩) (run_main m ρ)

/-- The reference's last stage, of the kernel's launch contents, is the kernel's result. -/
theorem ref_eq (c : Dev nD) :
    Cert.ReferenceIdeal.ReadP.val_main_v130 (F := Ideal) (m ((c.tc : Thread nD τ).loc main_arg0)) (m ((c.tc : Thread nD τ).loc main_arg1)) (m ((c.tc : Thread nD τ).loc main_arg2)) (m ((c.tc : Thread nD τ).loc main_arg3)) = kres m c := by
  rw [Cert.RefSide.val_main_v130_eq_tail]
  unfold kres
  have e2 : Cert.KSide.col ((dats m 0 c).arrAt 2 cfg0.N) = Cert.ReferenceIdeal.ReadP.val_main_v79 (F := Ideal) (m ((c.tc : Thread nD τ).loc main_arg0)) (m ((c.tc : Thread nD τ).loc main_arg2)) (m ((c.tc : Thread nD τ).loc main_arg3)) := by
    funext i
    obtain ⟨b, rfl⟩ : ∃ b : Fin 16, i = ix1 b := ⟨i 0, eq_ix1 i⟩
    rw [Cert.KSide.col_ix1, Cert.KFinal.final2, Cert.RefSide.val_main_v79_ix1]
    refine Finset.sum_congr rfl fun cc _ => Finset.sum_congr rfl fun h _ => Finset.sum_congr rfl fun w _ => ?_
    rw [Cert.RefSide.val_main_v78_ix4, Cert.Target.val_main_v71_eq_refBce, Cert.Target.val_main_v74_eq_target, Cert.KSide.V_main_v56, V_main_arg0]
  have e3 : Cert.KSide.col ((dats m 0 c).arrAt 3 cfg0.N) = Cert.ReferenceIdeal.ReadP.val_main_v80 (F := Ideal) (m ((c.tc : Thread nD τ).loc main_arg0)) (m ((c.tc : Thread nD τ).loc main_arg2)) (m ((c.tc : Thread nD τ).loc main_arg3)) := by
    funext i
    obtain ⟨b, rfl⟩ : ∃ b : Fin 16, i = ix1 b := ⟨i 0, eq_ix1 i⟩
    rw [Cert.KSide.col_ix1, Cert.KFinal.final3, Cert.RefSide.val_main_v80_ix1]
    refine Finset.sum_congr rfl fun cc _ => Finset.sum_congr rfl fun h _ => Finset.sum_congr rfl fun w _ => ?_
    rw [Cert.Target.val_main_v71_eq_refBce, Cert.KSide.V_main_v56, V_main_arg0]
  have e4 : Cert.KSide.col ((dats m 0 c).arrAt 4 cfg0.N) = Cert.ReferenceIdeal.ReadP.val_main_v75 (F := Ideal) (m ((c.tc : Thread nD τ).loc main_arg2)) (m ((c.tc : Thread nD τ).loc main_arg3)) := by
    funext i
    obtain ⟨b, rfl⟩ : ∃ b : Fin 16, i = ix1 b := ⟨i 0, eq_ix1 i⟩
    rw [Cert.KSide.col_ix1, Cert.KFinal.final4, Cert.RefSide.val_main_v75_ix1]
    refine Finset.sum_congr rfl fun cc _ => Finset.sum_congr rfl fun h _ => Finset.sum_congr rfl fun w _ => ?_
    rw [Cert.Target.val_main_v74_eq_target]
    show V m c main_v56 _ = _
    rw [Cert.KSide.V_main_v56]
  rw [e2, e3, e4, Cert.KSide.boxK_eq]

end Cert.Bridge

end
-- ==== Proof.lean ====
/-
  The certificate's five claims. The word-level kernel program and its idealization run to the end, fault nowhere and leave
  their arguments as launched: one pipelined region over a 16 × 2 grid between host lines, the body at each point run
  symbolically in its two cases (a batch's first channel tile, which resets the three accumulators, and its last, which
  copies them out), the accumulators carried from point to point by the region's invariant. The reference is a straight
  line of host operations. The idealization rewrote nothing. At the extended reals both programs end with the same three
  numbers (total, classification and box loss): per batch the kernel's three accumulated sums over two tiles of 40 channels
  are the reference's sums over 80 channels — a sum regrouped, with the reference's positive mask equal to the one-hot
  target itself because a scatter of ones into zeros holds only zeros and ones — and the scalar tail is the same function
  of them on both sides.
-/
import proofs.«174415_j49692771615067_2_alg».proof.Defs
import proofs.«174415_j49692771615067_2_alg».proof.Proof.Gen.Kernel
import proofs.«174415_j49692771615067_2_alg».proof.Proof.Gen.KernelIdeal
import proofs.«174415_j49692771615067_2_alg».proof.Proof.Gen.ReferenceIdeal
import proofs.«174415_j49692771615067_2_alg».proof.Proof.Gen.Pre_finite_inputs
import proofs.«174415_j49692771615067_2_alg».proof.Proof.KFrame
import proofs.«174415_j49692771615067_2_alg».proof.Proof.Bridge
import proofs.«174415_j49692771615067_2_alg».proof.Proof.RefRunK
import Idealize.ShloMosaic.Adequacy
import Idealize.ShloMosaic.Init

noncomputable section

namespace Cert.Proof

open Idealize.ShloMosaic Idealize.SL.Sem

namespace Claims

theorem frame_p : Cert.frame_Kernel := fun m ρ _ => Cert.Kernel.Fr.frame m ρ
theorem frame_pi : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.RunK.run (F := Ideal) m ρ)
theorem preserves : Cert.preserves_Kernel_KernelIdeal := trivial

/-- Both idealized programs run; the reference's result, of arguments that agree with the kernel's, is the kernel's. -/
theorem algebraic : Cert.algebraic_KernelIdeal_ReferenceIdeal := by
  intro m ρ m' ρ' _ hagree
  refine ⟨fun c => Cert.Bridge.kres m c, Cert.Bridge.kernel_run m ρ, ?_⟩
  refine (θ_run Cert.ReferenceIdeal.defs _ _).mono (fun _ h c => ⟨(h c).1.trans ?_, (h c).2⟩)
    (Cert.ReferenceIdeal.RunK.run (F := Ideal) m' ρ')
  rw [(hagree c).1, (hagree c).2.1, (hagree c).2.2.1, (hagree c).2.2.2]
  exact Cert.Bridge.ref_eq m c

end Claims

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves, Claims.algebraic⟩

end Cert.Proof

end
